-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S800000x8 : Shape := ⟨2, ![800000, 8]⟩
abbrev S50000x64 : Shape := ⟨2, ![50000, 64]⟩
abbrev S329x128 : Shape := ⟨2, ![329, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x8 : S_.BroadcastsInDim S800000x8 (![] : Fin 0 → Fin S800000x8.rank)
  reducesTo_S800000x8_S_d0_1 : S800000x8.ReducesTo [0, 1] S_
  bcast_S_S50000x64 : S_.BroadcastsInDim S50000x64 (![] : Fin 0 → Fin S50000x64.rank)
  reducesTo_S50000x64_S_d0_1 : S50000x64.ReducesTo [0, 1] S_
  bcast_S_S329x128 : S_.BroadcastsInDim S329x128 (![] : Fin 0 → Fin S329x128.rank)
  reducesTo_S329x128_S_d0_1 : S329x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S256x128 .f32) (main_arg15 : FVec F S128 .f32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128 .f32) (main_arg12 : FVec F S128x1 .f32) (main_arg13 : FVec F S1 .f32) (main_arg14 : FVec F S256x128 .f32) (main_arg15 : FVec F S128 .f32) (main_arg16 : FVec F S128x128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg12
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_v63 main_v67

def fn_part2 {F : FTy → Type} [FloatOps F] (main_arg7 : FVec F S128 .f32) (main_arg8 : FVec F S128x1 .f32) (main_arg9 : FVec F S1 .f32) (main_arg10 : FVec F S128x128 .f32) (main_arg11 : FVec F S128 .f32) (main_arg12 : FVec F S128x1 .f32) (main_arg13 : FVec F S1 .f32) (main_arg14 : FVec F S256x128 .f32) (main_arg15 : FVec F S128 .f32) (main_arg16 : FVec F S128x128 .f32) (main_arg17 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_v48 main_v49 main_v50

def fn_part1 {F : FTy → Type} [FloatOps F] (main_arg4 : FVec F S329x128 .f32) (main_arg5 : FVec F S128 .f32) (main_arg6 : FVec F S128x128 .f32) (main_arg7 : FVec F S128 .f32) (main_arg8 : FVec F S128x1 .f32) (main_arg9 : FVec F S1 .f32) (main_arg10 : FVec F S128x128 .f32) (main_arg11 : FVec F S128 .f32) (main_arg12 : FVec F S128x1 .f32) (main_arg13 : FVec F S1 .f32) (main_arg14 : FVec F S256x128 .f32) (main_arg15 : FVec F S128 .f32) (main_arg16 : FVec F S128x128 .f32) (main_arg17 : FVec F S128 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S329x128 .f32 := Host.absf main_arg4
  let main_cst_6 : FVec F S_ .f32 := constant S_ .f32 0x7F800000#32
  let main_v20 : FVec F S329x128 .f32 := broadcastInDim S329x128 ![] bcast_S_S329x128 main_cst_6
  let main_v21 : IVec S329x128 1 := cmpf .olt main_v19 main_v20
  let main_c_7 : IVec S_ 1 := constantI S_ 1 1#1
  let main_v22 : IVec S_ 1 := (fun x v => Host.reduce IntOp.andi x v reducesTo_S329x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S50000x128 .f32) (main_arg1 : FVec F S50000x3 .f32) (main_arg2 : FVec F S800000x8 .f32) (main_arg3 : FVec F S50000x64 .f32) (main_arg4 : FVec F S329x128 .f32) (main_arg5 : FVec F S128 .f32) (main_arg6 : FVec F S128x128 .f32) (main_arg7 : FVec F S128 .f32) (main_arg8 : FVec F S128x1 .f32) (main_arg9 : FVec F S1 .f32) (main_arg10 : FVec F S128x128 .f32) (main_arg11 : FVec F S128 .f32) (main_arg12 : FVec F S128x1 .f32) (main_arg13 : FVec F S1 .f32) (main_arg14 : FVec F S256x128 .f32) (main_arg15 : FVec F S128 .f32) (main_arg16 : FVec F S128x128 .f32) (main_arg17 : FVec F S128 .f32) (main_arg18 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x8 .f32 := Host.absf main_arg2
  let main_cst_2 : FVec F S_ .f32 := constant S_ .f32 0x7F800000#32
  let main_v10 : FVec F S800000x8 .f32 := broadcastInDim S800000x8 ![] bcast_S_S800000x8 main_cst_2
  let main_v11 : IVec S800000x8 1 := cmpf .olt main_v9 main_v10
  let main_c_3 : IVec S_ 1 := constantI S_ 1 1#1
  let main_v12 : IVec S_ 1 := (fun x v => Host.reduce IntOp.andi x v reducesTo_S800000x8_S_d0_1 h_S_) main_v11 main_c_3
  let main_v13 : IVec S_ 1 := andi main_v8 main_v12
  let main_v14 : FVec F S50000x64 .f32 := Host.absf main_arg3
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S50000x3 : Shape := ⟨2, ![50000, 3]⟩
abbrev S800000x8 : Shape := ⟨2, ![800000, 8]⟩
abbrev S50000x64 : Shape := ⟨2, ![50000, 64]⟩
abbrev S329x128 : Shape := ⟨2, ![329, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S50000x192 : Shape := ⟨2, ![50000, 192]⟩
abbrev S800000x192 : Shape := ⟨2, ![800000, 192]⟩
abbrev S800000x128 : Shape := ⟨2, ![800000, 128]⟩
abbrev S800000x64 : Shape := ⟨2, ![800000, 64]⟩
abbrev S1x128 : Shape := ⟨2, ![1, 128]⟩
abbrev S8x128 : Shape := ⟨2, ![8, 128]⟩
abbrev S64x128 : Shape := ⟨2, ![64, 128]⟩
abbrev S1x1 : Shape := ⟨2, ![1, 1]⟩
abbrev S800000x132 : Shape := ⟨2, ![800000, 132]⟩
abbrev S3200x128 : Shape := ⟨2, ![3200, 128]⟩
abbrev S3200x3 : Shape := ⟨2, ![3200, 3]⟩
abbrev S3200x8 : Shape := ⟨2, ![3200, 8]⟩
abbrev S3200x64 : Shape := ⟨2, ![3200, 64]⟩
abbrev S3200x132 : Shape := ⟨2, ![3200, 132]⟩
abbrev S3200 : Shape := ⟨1, ![3200]⟩
abbrev S3200x1 : Shape := ⟨2, ![3200, 1]⟩
abbrev S50000x132 : Shape := ⟨2, ![50000, 132]⟩
abbrev S50000x1 : Shape := ⟨2, ![50000, 1]⟩
abbrev S5000x128 : Shape := ⟨2, ![5000, 128]⟩

abbrev nBuf : Space → Nat
  | .hbm => 106
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S800000x8, .f32⟩
  | .hbm, ⟨3, _⟩ => ⟨S50000x64, .f32⟩
  | .hbm, ⟨4, _⟩ => ⟨S329x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S256x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S2x800000, .i32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x3, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x3, .f32⟩
  | .hbm, ⟨41, _⟩ => ⟨S800000x3, .f32⟩
  | .hbm, ⟨42, _⟩ => ⟨S50000x128, .bf16⟩
  | .hbm, ⟨43, _⟩ => ⟨S50000x192, .f32⟩
  | .hbm, ⟨44, _⟩ => ⟨S50000x192, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x192, .bf16⟩
  | .hbm, ⟨54, _⟩ => ⟨S800000x128, .bf16⟩
  | .hbm, ⟨55, _⟩ => ⟨S800000x64, .bf16⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .bf16⟩
  | .hbm, ⟨65, _⟩ => ⟨S800000x8, .bf16⟩
  | .hbm, ⟨66, _⟩ => ⟨S128x128, .f32⟩
  | .hbm, ⟨67, _⟩ => ⟨S128x128, .bf16⟩
  | .hbm, ⟨68, _⟩ => ⟨S128x128, .f32⟩
  | .hbm, ⟨69, _⟩ => ⟨S128x128, .bf16⟩
  | .hbm, ⟨70, _⟩ => ⟨S1x128, .f32⟩
  | .hbm, ⟨71, _⟩ => ⟨S8x128, .f32⟩
  | .hbm, ⟨72, _⟩ => ⟨S8x128, .bf16⟩
  | .hbm, ⟨73, _⟩ => ⟨S64x128, .f32⟩
  | .hbm, ⟨74, _⟩ => ⟨S64x128, .bf16⟩
  | .hbm, ⟨75, _⟩ => ⟨S1x128, .f32⟩
  | .hbm, ⟨76, _⟩ => ⟨S128x128, .bf16⟩
  | .hbm, ⟨77, _⟩ => ⟨S1x128, .f32⟩
  | .hbm, ⟨78, _⟩ => ⟨S128x1, .bf16⟩
  | .hbm, ⟨79, _⟩ => ⟨S1x1, .f32⟩
  | .hbm, ⟨80, _⟩ => ⟨S128x128, .bf16⟩
  | .hbm, ⟨81, _⟩ => ⟨S1x128, .f32⟩
  | .hbm, ⟨82, _⟩ => ⟨S128x1, .bf16⟩
  | .hbm, ⟨83, _⟩ => ⟨S1x1, .f32⟩
  | .hbm, ⟨84, _⟩ => ⟨S800000x132, .f32⟩
  | .hbm, ⟨85, _⟩ => ⟨S_, .f32⟩
  | .hbm, ⟨86, _⟩ => ⟨S50000x132, .f32⟩
  | .hbm, ⟨87, _⟩ => ⟨S800000x1, .i32⟩
  | .hbm, ⟨88, _⟩ => ⟨S50000x132, .f32⟩
  | .hbm, ⟨89, _⟩ => ⟨S50000x128, .f32⟩
  | .hbm, ⟨90, _⟩ => ⟨S50000x3, .f32⟩
  | .hbm, ⟨91, _⟩ => ⟨S50000x1, .f32⟩
  | .hbm, ⟨92, _⟩ => ⟨S_, .f32⟩
  | .hbm, ⟨93, _⟩ => ⟨S50000x1, .f32⟩
  | .hbm, ⟨94, _⟩ => ⟨S50000x1, .f32⟩
  | .hbm, ⟨95, _⟩ => ⟨S50000x3, .f32⟩
  | .hbm, ⟨96, _⟩ => ⟨S50000x3, .f32⟩
  | .hbm, ⟨97, _⟩ => ⟨S50000x3, .f32⟩
  | .hbm, ⟨98, _⟩ => ⟨S128x128, .f32⟩
  | .hbm, ⟨99, _⟩ => ⟨S128x128, .bf16⟩
  | .hbm, ⟨100, _⟩ => ⟨S128x128, .f32⟩
  | .hbm, ⟨101, _⟩ => ⟨S128x128, .bf16⟩
  | .hbm, ⟨102, _⟩ => ⟨S1x128, .f32⟩
  | .hbm, ⟨103, _⟩ => ⟨S128x128, .bf16⟩
  | .hbm, ⟨104, _⟩ => ⟨S1x128, .f32⟩
  | .hbm, ⟨105, _⟩ => ⟨S50000x128, .f32⟩
  | .local _ .vmem, ⟨0, _⟩ => ⟨S3200x128, .bf16⟩
  | .local _ .vmem, ⟨1, _⟩ => ⟨S3200x128, .bf16⟩
  | .local _ .vmem, ⟨2, _⟩ => ⟨S3200x128, .bf16⟩
  | .local _ .vmem, ⟨3, _⟩ => ⟨S3200x128, .bf16⟩
  | .local _ .vmem, ⟨4, _⟩ => ⟨S3200x3, .f32⟩
  | .local _ .vmem, ⟨5, _⟩ => ⟨S3200x3, .f32⟩
  | .local _ .vmem, ⟨6, _⟩ => ⟨S3200x8, .bf16⟩
  | .local _ .vmem, ⟨7, _⟩ => ⟨S3200x8, .bf16⟩
  | .local _ .vmem, ⟨8, _⟩ => ⟨S3200x64, .bf16⟩
  | .local _ .vmem, ⟨9, _⟩ => ⟨S3200x64, .bf16⟩
  | .local _ .vmem, ⟨10, _⟩ => ⟨S128x128, .bf16⟩
  | .local _ .vmem, ⟨11, _⟩ => ⟨S128x128, .bf16⟩
  | .local _ .vmem, ⟨12, _⟩ => ⟨S1x128, .f32⟩
  | .local _ .vmem, ⟨13, _⟩ => ⟨S8x128, .bf16⟩
  | .local _ .vmem, ⟨14, _⟩ => ⟨S64x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S128x1, .bf16⟩
  | .local _ .vmem, ⟨19, _⟩ => ⟨S1x1, .f32⟩
  | .local _ .vmem, ⟨20, _⟩ => ⟨S128x128, .bf16⟩
  | .local _ .vmem, ⟨21, _⟩ => ⟨S1x128, .f32⟩
  | .local _ .vmem, ⟨22, _⟩ => ⟨S128x1, .bf16⟩
  | .local _ .vmem, ⟨23, _⟩ => ⟨S1x1, .f32⟩
  | .local _ .vmem, ⟨24, _⟩ => ⟨S3200x132, .f32⟩
  | .local _ .vmem, ⟨25, _⟩ => ⟨S3200x132, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .bf16⟩
  | .local _ .vmem, ⟨31, _⟩ => ⟨S128x128, .bf16⟩
  | .local _ .vmem, ⟨32, _⟩ => ⟨S1x128, .f32⟩
  | .local _ .vmem, ⟨33, _⟩ => ⟨S128x128, .bf16⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_7 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg19_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg7_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem3_0 : DmaSem sig := 31
abbrev cc1_sem4_0 : DmaSem sig := 32
abbrev cc1_sem5_0 : DmaSem sig := 33
abbrev cc1_sem6_0 : DmaSem sig := 34
abbrev cc1_sem7_0 : DmaSem sig := 35
abbrev cc1_sem7_1 : DmaSem sig := 36

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x8 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3200x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S3200x132 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  concatenates_S50000x128_S50000x64_S50000x192_d1 : Shape.Concatenates [S50000x128, S50000x64] S50000x192 1
  slices_S800000x192_S800000x128_0_0 : S800000x192.Slices ![0, 0] S800000x128
  slices_S800000x192_S800000x64_0_128 : S800000x192.Slices ![0, 128] S800000x64
  slices_S329x128_S128x128_0_0 : S329x128.Slices ![0, 0] S128x128
  slices_S329x128_S128x128_128_0 : S329x128.Slices ![128, 0] S128x128
  slices_S329x128_S1x128_256_0 : S329x128.Slices ![256, 0] S1x128
  slices_S329x128_S8x128_257_0 : S329x128.Slices ![257, 0] S8x128
  slices_S329x128_S64x128_265_0 : S329x128.Slices ![265, 0] S64x128
  shapeCasts_S128_S1x128 : S128.ShapeCasts S1x128
  shapeCasts_S1_S1x1 : S1.ShapeCasts S1x1
  inb_S3200x3_S3200x3_0_0 : ∀ a, (![0, 0] : Fin 2 → Nat) a + S3200x3.size a ≤ S3200x3.size a
  h_S3200x3 : 0 < S3200x3.numel
  shapeCasts_S3200x3_S3200x3 : S3200x3.ShapeCasts S3200x3
  reduces_S3200x3_S3200 : S3200x3.Reduces [1] S3200
  shapeCasts_S3200_S3200x1 : S3200.ShapeCasts S3200x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S3200x1_S3200x128 : S3200x1.Broadcasts S3200x128
  broadcasts_S1x128_S3200x128 : S1x128.Broadcasts S3200x128
  inb_S3200x8_S3200x8_0_0 : ∀ a, (![0, 0] : Fin 2 → Nat) a + S3200x8.size a ≤ S3200x8.size a
  h_S3200x8 : 0 < S3200x8.numel
  shapeCasts_S3200x8_S3200x8 : S3200x8.ShapeCasts S3200x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  broadcasts_S3200x1_S3200x3 : S3200x1.Broadcasts S3200x3
  inb_S3200x132_S3200x128_0_0 : ∀ a, (![0, 0] : Fin 2 → Nat) a + S3200x128.size a ≤ S3200x132.size a
  inb_S3200x132_S3200x3_0_128 : ∀ a, (![0, 128] : Fin 2 → Nat) a + S3200x3.size a ≤ S3200x132.size a
  inb_S3200x132_S3200x1_0_131 : ∀ a, (![0, 131] : Fin 2 → Nat) a + S3200x1.size a ≤ S3200x132.size a
  h_S3200x1 : 0 < S3200x1.numel
  bcast_S_S50000x132 : S_.BroadcastsInDim S50000x132 (![] : Fin 0 → Fin S50000x132.rank)
  slices_S50000x132_S50000x128_0_0 : S50000x132.Slices ![0, 0] S50000x128
  slices_S50000x132_S50000x3_0_128 : S50000x132.Slices ![0, 128] S50000x3
  slices_S50000x132_S50000x1_0_131 : S50000x132.Slices ![0, 131] S50000x1
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x3_S800000x1_S800000x3_1_0_n_n_0_1_13_wf : GatherDims.WF S50000x3 S800000x1 S800000x3 [1] [0] [] [0] [] 1 ![1, 3]
  gather_S50000x192_S800000x1_S800000x192_1_0_n_n_0_1_1192_wf : GatherDims.WF S50000x192 S800000x1 S800000x192 [1] [0] [] [0] [] 1 ![1, 192]
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  dot_S3200x8_S8x128_S3200x128_1_0_0_1_n_n_wf : DotDims.WF S3200x8 S8x128 S3200x128 [1] [0] [0] [1] [] []
  dot_S3200x64_S64x128_S3200x128_1_0_0_1_n_n_wf : DotDims.WF S3200x64 S64x128 S3200x128 [1] [0] [0] [1] [] []
  dot_S3200x128_S128x1_S3200x1_1_0_0_1_n_n_wf : DotDims.WF S3200x128 S128x1 S3200x1 [1] [0] [0] [1] [] []
  scatter_S50000x132_S800000x1_S800000x132_1_0_0_1_wf : ScatterDims.WF S50000x132 S800000x1 S800000x132 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .bf16 = 32 ∨ (Rect.block (s := S800000x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .bf16 = 32 ∨ (Rect.block (s := S800000x128) S3200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x3.size a ≤ S800000x3.size a
  hwx0_2 : ∀ i : grid0.Coords, EltTy.bits .f32 = 32 ∨ (Rect.block (s := S800000x3) S3200x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x8.size a ≤ S800000x8.size a
  hwx0_3 : ∀ i : grid0.Coords, EltTy.bits .bf16 = 32 ∨ (Rect.block (s := S800000x8) S3200x8.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x64.size a ≤ S800000x64.size a
  hwx0_4 : ∀ i : grid0.Coords, EltTy.bits .bf16 = 32 ∨ (Rect.block (s := S800000x64) S3200x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S8x128.size a
  hwx0_8 : ∀ i : grid0.Coords, EltTy.bits .bf16 = 32 ∨ (Rect.block (s := S8x128) S8x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .bf16 = 32 ∨ (Rect.block (s := S64x128) S64x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x1.size a ≤ S128x1.size a
  hwx0_13 : ∀ i : grid0.Coords, EltTy.bits .bf16 = 32 ∨ (Rect.block (s := S128x1) S128x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .bf16 = 32 ∨ (Rect.block (s := S128x128) S128x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x1.size a ≤ S128x1.size a
  hwx0_17 : ∀ i : grid0.Coords, EltTy.bits .bf16 = 32 ∨ (Rect.block (s := S128x1) S128x1.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1.size a ≤ S1x1.size a
  hwx0_18 : ∀ i : grid0.Coords, EltTy.bits .f32 = 32 ∨ (Rect.block (s := S1x1) S1x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S3200x132.size a ≤ S800000x132.size a
  hwx0_19 : ∀ i : grid0.Coords, EltTy.bits .f32 = 32 ∨ (Rect.block (s := S800000x132) S3200x132.size (cc0_transform_19 i) (hinb0_19 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x8_S8x128_S3200x128_1_0_0_1_n_n : DotDims S3200x8 S8x128 S3200x128 where
  lhsContracting := [1]
  rhsContracting := [0]
  lhsNonContracting := [0]
  rhsNonContracting := [1]
  lhsBatch := []
  rhsBatch := []
  wf := dot_S3200x8_S8x128_S3200x128_1_0_0_1_n_n_wf
def dot_S3200x64_S64x128_S3200x128_1_0_0_1_n_n : DotDims S3200x64 S64x128 S3200x128 where
  lhsContracting := [1]
  rhsContracting := [0]
  lhsNonContracting := [0]
  rhsNonContracting := [1]
  lhsBatch := []
  rhsBatch := []
  wf := dot_S3200x64_S64x128_S3200x128_1_0_0_1_n_n_wf
def dot_S3200x128_S128x1_S3200x1_1_0_0_1_n_n : DotDims S3200x128 S128x1 S3200x1 where
  lhsContracting := [1]
  rhsContracting := [0]
  lhsNonContracting := [0]
  rhsNonContracting := [1]
  lhsBatch := []
  rhsBatch := []
  wf := dot_S3200x128_S128x1_S3200x1_1_0_0_1_n_n_wf
def scatter_S50000x132_S800000x1_S800000x132_1_0_0_1 : ScatterDims S50000x132 S800000x1 S800000x132 where
  updateWindowDims := [1]
  insertedWindowDims := [0]
  scatterDimsToOperandDims := [0]
  indexVectorDim := 1
  wf := scatter_S50000x132_S800000x1_S800000x132_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v29) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S3200x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S3200x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S3200x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S8x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v47) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v48) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v49) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v50) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v51) S128x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v52) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v53) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v54) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v55) S128x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v56) S1x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v57) S3200x132.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v70) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v73) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v74) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v75) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v76) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S800000x8 : Shape := ⟨2, ![800000, 8]⟩
abbrev S50000x64 : Shape := ⟨2, ![50000, 64]⟩
abbrev S329x128 : Shape := ⟨2, ![329, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x64 : Shape := ⟨2, ![800000, 64]⟩
abbrev S800000x329 : Shape := ⟨2, ![800000, 329]⟩
abbrev S1x128 : Shape := ⟨2, ![1, 128]⟩
abbrev S1x1 : Shape := ⟨2, ![1, 1]⟩
abbrev S50000x1 : Shape := ⟨2, ![50000, 1]⟩
abbrev S50000x256 : Shape := ⟨2, ![50000, 256]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S50000x3, .f32⟩
  | 2 => ⟨S800000x8, .f32⟩
  | 3 => ⟨S50000x64, .f32⟩
  | 4 => ⟨S329x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S128x128, .f32⟩
  | 11 => ⟨S128, .f32⟩
  | 12 => ⟨S128x1, .f32⟩
  | 13 => ⟨S1, .f32⟩
  | 14 => ⟨S256x128, .f32⟩
  | 15 => ⟨S128, .f32⟩
  | 16 => ⟨S128x128, .f32⟩
  | 17 => ⟨S128, .f32⟩
  | 18 => ⟨S2x800000, .i32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x3, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x3, .f32⟩
  | 41 => ⟨S800000x3, .f32⟩
  | 42 => ⟨S800000x3, .f32⟩
  | 43 => ⟨S_, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .f32⟩
  | 73 => ⟨S800000x329, .f32⟩
  | 74 => ⟨S800000x128, .f32⟩
  | 75 => ⟨S1x128, .f32⟩
  | 76 => ⟨S800000x128, .f32⟩
  | 77 => ⟨S800000x128, .f32⟩
  | 78 => ⟨S800000x128, .f32⟩
  | 79 => ⟨S800000x128, .f32⟩
  | 80 => ⟨S_, .f32⟩
  | 81 => ⟨S800000x128, .f32⟩
  | 82 => ⟨S800000x128, .f32⟩
  | 83 => ⟨S_, .f32⟩
  | 84 => ⟨S800000x128, .f32⟩
  | 85 => ⟨S800000x128, .f32⟩
  | 86 => ⟨S800000x128, .f32⟩
  | 87 => ⟨S800000x128, .f32⟩
  | 88 => ⟨S1x128, .f32⟩
  | 89 => ⟨S800000x128, .f32⟩
  | 90 => ⟨S800000x128, .f32⟩
  | 91 => ⟨S800000x1, .f32⟩
  | 92 => ⟨S1x1, .f32⟩
  | 93 => ⟨S800000x1, .f32⟩
  | 94 => ⟨S800000x1, .f32⟩
  | 95 => ⟨S800000x1, .f32⟩
  | 96 => ⟨S800000x1, .f32⟩
  | 97 => ⟨S_, .f32⟩
  | 98 => ⟨S800000x1, .f32⟩
  | 99 => ⟨S800000x1, .f32⟩
  | 100 => ⟨S_, .f32⟩
  | 101 => ⟨S800000x1, .f32⟩
  | 102 => ⟨S800000x1, .f32⟩
  | 103 => ⟨S800000x128, .f32⟩
  | 104 => ⟨S800000x128, .f32⟩
  | 105 => ⟨S800000x128, .f32⟩
  | 106 => ⟨S1x128, .f32⟩
  | 107 => ⟨S800000x128, .f32⟩
  | 108 => ⟨S800000x128, .f32⟩
  | 109 => ⟨S800000x128, .f32⟩
  | 110 => ⟨S800000x128, .f32⟩
  | 111 => ⟨S_, .f32⟩
  | 112 => ⟨S800000x128, .f32⟩
  | 113 => ⟨S800000x128, .f32⟩
  | 114 => ⟨S_, .f32⟩
  | 115 => ⟨S800000x128, .f32⟩
  | 116 => ⟨S800000x128, .f32⟩
  | 117 => ⟨S800000x128, .f32⟩
  | 118 => ⟨S800000x1, .f32⟩
  | 119 => ⟨S1x1, .f32⟩
  | 120 => ⟨S800000x1, .f32⟩
  | 121 => ⟨S800000x1, .f32⟩
  | 122 => ⟨S800000x1, .f32⟩
  | 123 => ⟨S800000x3, .f32⟩
  | 124 => ⟨S800000x3, .f32⟩
  | 125 => ⟨S_, .f32⟩
  | 126 => ⟨S50000x3, .f32⟩
  | 127 => ⟨S800000x1, .i32⟩
  | _ => ⟨S50000x128, .f32⟩

abbrev hbmTy0_1 (i : Nat) : BufTy := match i % 128 with
  | 0 => ⟨S50000x3, .f32⟩
  | 1 => ⟨S_, .f32⟩
  | 2 => ⟨S800000x1, .f32⟩
  | 3 => ⟨S_, .f32⟩
  | 4 => ⟨S50000x1, .f32⟩
  | 5 => ⟨S800000x1, .i32⟩
  | 6 => ⟨S50000x1, .f32⟩
  | 7 => ⟨S_, .f32⟩
  | 8 => ⟨S50000x1, .f32⟩
  | 9 => ⟨S50000x1, .f32⟩
  | 10 => ⟨S50000x3, .f32⟩
  | 11 => ⟨S50000x3, .f32⟩
  | 12 => ⟨S50000x3, .f32⟩
  | 13 => ⟨S_, .f32⟩
  | 14 => ⟨S50000x128, .f32⟩
  | 15 => ⟨S800000x1, .i32⟩
  | 16 => ⟨S50000x128, .f32⟩
  | 17 => ⟨S50000x256, .f32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_c_3 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_c_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_9 : Ref sig .tc := ⟨.hbm, 97, rfl⟩
abbrev main_v59 : Ref sig .tc := ⟨.hbm, 98, rfl⟩
abbrev main_v60 : Ref sig .tc := ⟨.hbm, 99, rfl⟩
abbrev main_cst_10 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call1_v0 : Ref sig .tc := ⟨.hbm, 109, rfl⟩
abbrev main_call1_v1 : Ref sig .tc := ⟨.hbm, 110, rfl⟩
abbrev main_call1_cst : Ref sig .tc := ⟨.hbm, 111, rfl⟩
abbrev main_call1_v2 : Ref sig .tc := ⟨.hbm, 112, rfl⟩
abbrev main_call1_v3 : Ref sig .tc := ⟨.hbm, 113, rfl⟩
abbrev main_call1_cst_0 : Ref sig .tc := ⟨.hbm, 114, rfl⟩
abbrev main_call1_v4 : Ref sig .tc := ⟨.hbm, 115, rfl⟩
abbrev main_call1_v5 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_11 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_12 : Ref sig .tc := ⟨.hbm, 129, rfl⟩
abbrev main_v80 : Ref sig .tc := ⟨.hbm, 130, rfl⟩
abbrev main_cst_13 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_14 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_15 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_call2_v0 : Ref sig .tc := ⟨.hbm, 150, rfl⟩
abbrev main_call2_v1 : Ref sig .tc := ⟨.hbm, 151, rfl⟩
abbrev main_call2_cst : Ref sig .tc := ⟨.hbm, 152, rfl⟩
abbrev main_call2_v2 : Ref sig .tc := ⟨.hbm, 153, rfl⟩
abbrev main_call2_v3 : Ref sig .tc := ⟨.hbm, 154, rfl⟩
abbrev main_call2_cst_0 : Ref sig .tc := ⟨.hbm, 155, rfl⟩
abbrev main_call2_v4 : Ref sig .tc := ⟨.hbm, 156, rfl⟩
abbrev main_call2_v5 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x8_S800000x64_S800000x329_d1 : Shape.Concatenates [S800000x128, S800000x128, S800000x1, S800000x8, S800000x64] S800000x329 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  gather_S50000x64_S800000x1_S800000x64_1_0_n_n_0_1_164_wf : GatherDims.WF S50000x64 S800000x1 S800000x64 [1] [0] [] [0] [] 1 ![1, 64]
  dot_S800000x329_S329x128_S800000x128_1_0_0_1_n_n_wf : DotDims.WF S800000x329 S329x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1
  scatter_S50000x1_S800000x1_S800000x1_1_0_0_1_wf : ScatterDims.WF S50000x1 S800000x1 S800000x1 [1] [0] [0] 1
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x329_S329x128_S800000x128_1_0_0_1_n_n : DotDims S800000x329 S329x128 S800000x128 where
  lhsContracting := [1]
  rhsContracting := [0]
  lhsNonContracting := [0]
  rhsNonContracting := [1]
  lhsBatch := []
  rhsBatch := []
  wf := dot_S800000x329_S329x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel program's run with its two results named: every weakly fair execution terminates without a
  fault, the two result buffers hold what the last boundary's contents say (the fold of the host stretches and of the
  two pipelines' write-backs from the launch memory), and the argument arrays are as launched.
-/
import proofs.«129725_j23012434772667_2_alg».proof.Proof.FrameKI

set_option maxRecDepth 16384

noncomputable section

namespace Cert.KernelIdeal.Layer

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments unchanged. -/
theorem run_results : θ_run defs (onTc (τ := τ) (main (F := F))) ⟨m, fun _ => 0, ρ⟩ (fun r => ∀ c : Dev nD,
      r.2.mem ((c.tc : Thread nD τ).loc main_v76) = W4 m ρ c (Proc.devRef .tc main_v76)
      ∧ r.2.mem ((c.tc : Thread nD τ).loc main_v68) = W4 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v76 (by decide)),
       h c _ (mem_uc main_v68 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c)⟩)

end Cert.KernelIdeal.Layer

end
-- ==== Proof.LibRowGather.lean ====
/-
  Rows of a table picked by an array of integer words: what `table[idx]` lowers to on the host, read at an index.
  The table has N rows of D entries. Every start word is read as a signed integer and clamped into [0, N − 1]
  (StableHLO's gather clamps each start index so that the one-row slice fits); the result's row b is the table's
  row at that clamped position, entry for entry. Two spellings of the index array occur: B×1 words giving a B×D
  result, and B×1×1 words giving a B×1×D result. Nothing here mentions a program.
-/
import Idealize.ShloMosaic.PureOps.ShapeOps
import Idealize.ShloMosaic.Lib.ValueIdx

namespace Cert.Lib.RowGather

open Idealize.ShloMosaic Idealize.ShloMosaic.ValueIdx

section Rows
variable {α : Type}

/-- The row of an N-row table that a start word selects: the word read signed, clamped into [0, N − 1]. -/
def rowOf (N : Nat) (hN : 0 < N) {w : Nat} (v : BitVec w) : Fin N := ⟨min v.toInt.toNat (N - 1), by omega⟩

/-- The dimension numbers of a row gather with a B×1 index array: the result's axis 1 is the row's entries, the
    table's axis 0 is collapsed and addressed by the one component of each start index. -/
abbrev rowsDims (N B D : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

/-- Entry (b, q) of the gathered rows is entry q of the table's row selected by the word at (b, 0). -/
theorem gather_rows_apply {N B D w : Nat} (hN : 0 < N)
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ w) (b : Fin B) (q : Fin D) :
    Host.gather (rowsDims N B D wf) x idx (ix2 b q) = x (ix2 (rowOf N hN (idx (ix2 b 0))) q) := by
  unfold Host.gather
  refine congrArg x ?_
  funext a
  refine Fin.ext ?_
  match a with
  | ⟨0, _⟩ =>
    show (rowsDims N B D wf).start (ix2 b q) idx (0 : Fin 2) + (rowsDims N B D wf).batchCoord (ix2 b q) (0 : Fin 2)
        + (rowsDims N B D wf).offCoord (ix2 b q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N B D wf).startIndexMap from List.mem_singleton.mpr rfl)]
    have hsi : (rowsDims N B D wf).siIdx (ix2 b q) ⟨List.idxOf (0 : Fin 2) (rowsDims N B D wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    have hs : (rowsDims N B D wf).start (ix2 b q) idx (1 : Fin 2) = 0 := by
      unfold GatherDims.start
      rw [dif_neg (show (1 : Fin 2) ∉ [(0 : Fin 2)] from by decide)]
    have ho : (rowsDims N B D wf).offCoord (ix2 b q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims N B D wf).start (ix2 b q) idx (1 : Fin 2) + (rowsDims N B D wf).batchCoord (ix2 b q) (1 : Fin 2)
        + (rowsDims N B D wf).offCoord (ix2 b q) (1 : Fin 2) = q.val
    rw [GatherDims.batchCoord_eq_zero _ _ _ List.not_mem_nil, hs, ho]; omega

/-- The dimension numbers of a row gather with a B×1×1 index array: the result is B×1×D, its last axis the row's
    entries. -/
abbrev rowsDims3 (N B D : Nat)
    (wf : GatherDims.WF ⟨2, ![N, D]⟩ ⟨3, ![B, 1, 1]⟩ ⟨3, ![B, 1, D]⟩ [2] [0] [] [0] [] 2 ![1, D]) :
    GatherDims ⟨2, ![N, D]⟩ ⟨3, ![B, 1, 1]⟩ ⟨3, ![B, 1, D]⟩ where
  offsetDims := [2]
  collapsedSliceDims := [0]
  operandBatchingDims := []
  startIndicesBatchingDims := []
  startIndexMap := [0]
  indexVectorDim := 2
  sliceSizes := ![1, D]
  wf := wf

/-- Entry (b, 0, q) of the gathered rows is entry q of the table's row selected by the word at (b, 0, 0). -/
theorem gather_rows3_apply {N B D w : Nat} (hN : 0 < N)
    (wf : GatherDims.WF ⟨2, ![N, D]⟩ ⟨3, ![B, 1, 1]⟩ ⟨3, ![B, 1, D]⟩ [2] [0] [] [0] [] 2 ![1, D])
    (x : (⟨2, ![N, D]⟩ : Shape).Idx → α) (idx : IVec ⟨3, ![B, 1, 1]⟩ w) (b : Fin B) (q : Fin D) :
    Host.gather (rowsDims3 N B D wf) x idx (ix3 b 0 q) = x (ix2 (rowOf N hN (idx (ix3 b 0 0))) q) := by
  unfold Host.gather
  refine congrArg x ?_
  funext a
  refine Fin.ext ?_
  match a with
  | ⟨0, _⟩ =>
    show (rowsDims3 N B D wf).start (ix3 b 0 q) idx (0 : Fin 2) + (rowsDims3 N B D wf).batchCoord (ix3 b 0 q) (0 : Fin 2)
        + (rowsDims3 N B D wf).offCoord (ix3 b 0 q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N B D wf).startIndexMap from List.mem_singleton.mpr rfl)]
    have hsi : (rowsDims3 N B D wf).siIdx (ix3 b 0 q) ⟨List.idxOf (0 : Fin 2) (rowsDims3 N B D wf).startIndexMap,
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    rfl
  | ⟨1, _⟩ =>
    have hs : (rowsDims3 N B D wf).start (ix3 b 0 q) idx (1 : Fin 2) = 0 := by
      unfold GatherDims.start
      rw [dif_neg (show (1 : Fin 2) ∉ [(0 : Fin 2)] from by decide)]
    have ho : (rowsDims3 N B D wf).offCoord (ix3 b 0 q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims3 N B D wf).start (ix3 b 0 q) idx (1 : Fin 2) + (rowsDims3 N B D wf).batchCoord (ix3 b 0 q) (1 : Fin 2)
        + (rowsDims3 N B D wf).offCoord (ix3 b 0 q) (1 : Fin 2) = q.val
    rw [GatherDims.batchCoord_eq_zero _ _ _ List.not_mem_nil, hs, ho]; omega

end Rows

end Cert.Lib.RowGather
-- ==== Proof.Spec.lean ====
/-
  One message-passing layer on a graph, on the extended reals, as functions of the argument arrays.

  Every edge e has a source row and a target row of the node table (its two index words, a negative word counted
  from the end and the result clamped into the table). From the rows of the node features at the two ends, the
  difference of the coordinates, the edge's own features and the source's time features, a perceptron gives the edge a
  message (128 numbers) and a shift of the coordinates (3 numbers). A node's new coordinates are the old ones plus the
  sum of the shifts aimed at it divided by one more than the number of edges aimed at it; its new features are the old
  ones plus a second perceptron of the old features beside the sum of the messages aimed at it.

  The first layer of either perceptron multiplies a row laid side by side out of several pieces by a tall weight
  matrix. That product is the sum of the products of the pieces with the matching bands of rows of the matrix
  (Sums.split329, Sums.split256): only associativity and commutativity of the sum on the extended reals, so no
  finiteness is asked.
-/
import Idealize.ShloMosaic.PureOps.Ideal
import Idealize.ShloMosaic.PureOps.Ideal.Laws
import Idealize.ShloMosaic.Lib.ValueIdx
import proofs.«129725_j23012434772667_2_alg».proof.Proof.LibRowGather

open scoped BigOperators

noncomputable section

namespace Cert.Egnn

open Idealize.ShloMosaic Idealize.ShloMosaic.ValueIdx

abbrev Mat (a b : Nat) := (⟨2, ![a, b]⟩ : Shape).Idx → EReal
abbrev Vct (a : Nat) := (⟨1, ![a]⟩ : Shape).Idx → EReal

/-- The word 1.0. -/
def one : EReal := Ideal.ofBits .f32 0x3F800000#32

/-- A row times a matrix, at column j. -/
def dotc {k n : Nat} (v : Fin k → EReal) (W : Mat k n) (j : Fin n) : EReal := ∑ c : Fin k, v c * W (ix2 c j)

/-- v ↦ v · σ(v). -/
def silu (v : EReal) : EReal := v * Ideal.logistic v

/-- Position c of a band of k rows that starts at row o of a matrix of r rows. -/
def band {k : Nat} (o r : Nat) (h : o + k ≤ r) (c : Fin k) : Fin r := ⟨o + c.val, by have := c.isLt; omega⟩

/-! ## Sums over pieces laid side by side -/

namespace Sums

variable {M : Type*} [AddCommMonoid M]

theorem split2 (a b : Nat) (f : Fin (a + b) → M) :
    ∑ c : Fin (a + b), f c = ∑ c : Fin a, f (Fin.castAdd b c) + ∑ c : Fin b, f (Fin.natAdd a c) :=
  Fin.sum_univ_add f

/-- A sum over 329 positions as the sums over its five bands 128 + 128 + 1 + 8 + 64. -/
theorem split329 (f : Fin 329 → M) :
    ∑ c : Fin 329, f c
      = (((∑ c : Fin 128, f (band 0 329 (by decide) c) + ∑ c : Fin 128, f (band 128 329 (by decide) c))
          + f ⟨256, by decide⟩) + ∑ c : Fin 8, f (band 257 329 (by decide) c))
          + ∑ c : Fin 64, f (band 265 329 (by decide) c) := by
  have e1 := split2 265 64 (fun c => f c)
  have e2 := split2 257 8 (fun c => f (Fin.castAdd 64 c))
  have e3 := split2 256 1 (fun c => f (Fin.castAdd 64 (Fin.castAdd 8 c)))
  have e4 := split2 128 128 (fun c => f (Fin.castAdd 64 (Fin.castAdd 8 (Fin.castAdd 1 c))))
  rw [show (∑ c : Fin 329, f c) = ∑ c : Fin (265 + 64), f c from rfl, e1, e2, e3, e4, Fin.sum_univ_one]
  have b0 : ∀ c : Fin 128, (Fin.castAdd 64 (Fin.castAdd 8 (Fin.castAdd 1 (Fin.castAdd 128 c))) : Fin 329)
      = band 0 329 (by decide) c := fun c => Fin.ext (by simp [band] <;> omega)
  have b1 : ∀ c : Fin 128, (Fin.castAdd 64 (Fin.castAdd 8 (Fin.castAdd 1 (Fin.natAdd 128 c))) : Fin 329)
      = band 128 329 (by decide) c := fun c => Fin.ext (by simp [band] <;> omega)
  have b2 : (Fin.castAdd 64 (Fin.castAdd 8 (Fin.natAdd 256 (0 : Fin 1))) : Fin 329) = ⟨256, by decide⟩ :=
    Fin.ext (by simp)
  have b3 : ∀ c : Fin 8, (Fin.castAdd 64 (Fin.natAdd 257 c) : Fin 329) = band 257 329 (by decide) c :=
    fun c => Fin.ext (by simp [band] <;> omega)
  have b4 : ∀ c : Fin 64, (Fin.natAdd 265 c : Fin 329) = band 265 329 (by decide) c :=
    fun c => Fin.ext (by simp [band] <;> omega)
  simp only [b0, b1, b2, b3, b4]

/-- A sum over 256 positions as the sums over its two halves. -/
theorem split256 (f : Fin 256 → M) :
    ∑ c : Fin 256, f c
      = ∑ c : Fin 128, f (band 0 256 (by decide) c) + ∑ c : Fin 128, f (band 128 256 (by decide) c) := by
  have e1 := split2 128 128 (fun c => f c)
  rw [show (∑ c : Fin 256, f c) = ∑ c : Fin (128 + 128), f c from rfl, e1]
  have b0 : ∀ c : Fin 128, (Fin.castAdd 128 c : Fin 256) = band 0 256 (by decide) c := fun c => Fin.ext (by simp [band] <;> omega)
  have b1 : ∀ c : Fin 128, (Fin.natAdd 128 c : Fin 256) = band 128 256 (by decide) c := fun c => Fin.ext (by simp [band] <;> omega)
  simp only [b0, b1]

end Sums

/-! ## The perceptron of an edge, on rows -/

/-- The weights an edge's perceptron reads: the five bands of the first layer's matrix, each bias as a 1×n row. -/
structure EdgeW where
  Wa : Mat 128 128
  Wb : Mat 128 128
  Wc : Mat 1 128
  Wd : Mat 8 128
  We : Mat 64 128
  b1 : Mat 1 128
  W2 : Mat 128 128
  b2 : Mat 1 128
  Watt : Mat 128 1
  batt : Mat 1 1
  Wx1 : Mat 128 128
  bx1 : Mat 1 128
  Wx2 : Mat 128 1
  bx2 : Mat 1 1

/-- What an edge's perceptron reads of the edge: the feature rows of its two ends, the coordinate difference, its own
    features, the source's time features. -/
structure EdgeIn where
  hs : Fin 128 → EReal
  hd : Fin 128 → EReal
  df : Fin 3 → EReal
  ea : Fin 8 → EReal
  ts : Fin 64 → EReal

namespace EdgeW

variable (w : EdgeW)

/-- The squared length of the coordinate difference. -/
def dsq (df : Fin 3 → EReal) : EReal := ∑ k : Fin 3, df k * df k

/-- The first layer before its nonlinearity: the five pieces' products summed, then the bias. -/
def pre1 (u : EdgeIn) (j : Fin 128) : EReal :=
  ((((dotc u.hs w.Wa j + dotc u.hd w.Wb j) + dsq u.df * w.Wc (ix2 0 j)) + dotc u.ea w.Wd j) + dotc u.ts w.We j)
    + w.b1 (ix2 0 j)

/-- The message before its gate, from the first layer's row p. -/
def m0 (p : Fin 128 → EReal) (j : Fin 128) : EReal := dotc (fun c => silu (p c)) w.W2 j + w.b2 (ix2 0 j)

/-- The gate: a logistic of one number. -/
def gate (p : Fin 128 → EReal) : EReal := Ideal.logistic (dotc (m0 w p) w.Watt 0 + w.batt (ix2 0 0))

/-- The message. -/
def msg (p : Fin 128 → EReal) (j : Fin 128) : EReal := gate w p * m0 w p j

/-- The coordinate perceptron's last product, before its bias. -/
def cdot (p : Fin 128 → EReal) : EReal :=
  dotc (fun c => silu (dotc (msg w p) w.Wx1 c + w.bx1 (ix2 0 c))) w.Wx2 0

/-- The weight of the coordinate shift. -/
def cwt (p : Fin 128 → EReal) : EReal := Ideal.tanh (cdot w p + w.bx2 (ix2 0 0))

end EdgeW

/-! ## The perceptron of a node, on rows -/

structure NodeW where
  Wa : Mat 128 128
  Wb : Mat 128 128
  b1 : Mat 1 128
  W2 : Mat 128 128
  b2 : Mat 1 128

namespace NodeW

variable (w : NodeW) (hrow magg : Fin 128 → EReal)

def pre (j : Fin 128) : EReal := (dotc hrow w.Wa j + dotc magg w.Wb j) + w.b1 (ix2 0 j)

/-- The node's new features. -/
def out (j : Fin 128) : EReal := hrow j + (dotc (fun c => silu (pre w hrow magg c)) w.W2 j + w.b2 (ix2 0 j))

end NodeW

/-! ## The layer as a function of the argument arrays -/

/-- The argument arrays. -/
structure Args where
  h : Mat 50000 128
  x : Mat 50000 3
  ea : Mat 800000 8
  te : Mat 50000 64
  W1 : Mat 329 128
  b1 : Vct 128
  W2 : Mat 128 128
  b2 : Vct 128
  Watt : Mat 128 1
  batt : Vct 1
  Wx1 : Mat 128 128
  bx1 : Vct 128
  Wx2 : Mat 128 1
  bx2 : Vct 1
  Wh1 : Mat 256 128
  bh1 : Vct 128
  Wh2 : Mat 128 128
  bh2 : Vct 128
  ei : (⟨2, ![2, 800000]⟩ : Shape).Idx → BitVec 32

/-- An index word counted from the end of the table when negative. -/
def wrapW (v : BitVec 32) : BitVec 32 := Scalar.select (IntOp.cmpi .slt v 0#32) (IntOp.addi v 50000#32) v

/-- The table row an index word selects: wrapped, read signed, clamped into the table. -/
def rowW (v : BitVec 32) : Fin 50000 := Cert.Lib.RowGather.rowOf 50000 (by decide) (wrapW v)

namespace Args

variable (A : Args)

def srcR (e : Fin 800000) : Fin 50000 := rowW (A.ei (ix2 0 e))
def dstR (e : Fin 800000) : Fin 50000 := rowW (A.ei (ix2 1 e))
/-- The node an edge is aimed at when sums are taken: its target word read signed, nothing wrapped. -/
def dstI (e : Fin 800000) : Int := (A.ei (ix2 1 e)).toInt

def edgeW : EdgeW where
  Wa := fun i => A.W1 (ix2 (band 0 329 (by decide) (i 0)) (i 1))
  Wb := fun i => A.W1 (ix2 (band 128 329 (by decide) (i 0)) (i 1))
  Wc := fun i => A.W1 (ix2 ⟨256, by decide⟩ (i 1))
  Wd := fun i => A.W1 (ix2 (band 257 329 (by decide) (i 0)) (i 1))
  We := fun i => A.W1 (ix2 (band 265 329 (by decide) (i 0)) (i 1))
  b1 := fun i => A.b1 (ix1 (i 1))
  W2 := A.W2
  b2 := fun i => A.b2 (ix1 (i 1))
  Watt := A.Watt
  batt := fun _ => A.batt (ix1 0)
  Wx1 := A.Wx1
  bx1 := fun i => A.bx1 (ix1 (i 1))
  Wx2 := A.Wx2
  bx2 := fun _ => A.bx2 (ix1 0)

def nodeW : NodeW where
  Wa := fun i => A.Wh1 (ix2 (band 0 256 (by decide) (i 0)) (i 1))
  Wb := fun i => A.Wh1 (ix2 (band 128 256 (by decide) (i 0)) (i 1))
  b1 := fun i => A.bh1 (ix1 (i 1))
  W2 := A.Wh2
  b2 := fun i => A.bh2 (ix1 (i 1))

def edgeIn (e : Fin 800000) : EdgeIn where
  hs := fun c => A.h (ix2 (A.srcR e) c)
  hd := fun c => A.h (ix2 (A.dstR e) c)
  df := fun k => A.x (ix2 (A.srcR e) k) - A.x (ix2 (A.dstR e) k)
  ea := fun c => A.ea (ix2 e c)
  ts := fun c => A.te (ix2 (A.srcR e) c)

/-- The sum over the edges aimed at node n. -/
def seg (f : Fin 800000 → EReal) (n : Fin 50000) : EReal :=
  ∑ e : Fin 800000, if A.dstI e = ((n.val : Nat) : Int) then f e else 0

/-- The first layer's row of edge e. -/
def pre (e : Fin 800000) : Fin 128 → EReal := A.edgeW.pre1 (A.edgeIn e)

/-- The message of edge e. -/
def msgE (e : Fin 800000) (c : Fin 128) : EReal := A.edgeW.msg (A.pre e) c

/-- The coordinate shift of edge e. -/
def shiftE (e : Fin 800000) (k : Fin 3) : EReal := (A.edgeIn e).df k * A.edgeW.cwt (A.pre e)

/-- The sum of the messages aimed at a node. -/
def magg (n : Fin 50000) (c : Fin 128) : EReal := A.seg (fun e => A.msgE e c) n

/-- The new coordinates. -/
def xout (i : (⟨2, ![50000, 3]⟩ : Shape).Idx) : EReal :=
  A.x i + Ideal.div (A.seg (fun e => A.shiftE e (i 1)) (i 0)) (A.seg (fun _ => one) (i 0) + one)

/-- The new features. -/
def hout (i : (⟨2, ![50000, 128]⟩ : Shape).Idx) : EReal :=
  A.nodeW.out (fun c => A.h (ix2 (i 0) c)) (A.magg (i 0)) (i 1)

end Args

end Cert.Egnn

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.KBody0.lean ====
/-
  The edge kernel's body, read row by row on the extended reals. Row y of each value the body computes depends only on
  row y of the blocks of per-edge inputs and on the resident weight blocks: the first layer's row is the sum of the five
  pieces' products (before its bias), the message is the gated second layer of it, the last product of the coordinate
  perceptron follows, and the three stored pieces are the message, the coordinate difference times the tanh weight, and
  the word 1.0.
-/
import proofs.«129725_j23012434772667_2_alg».proof.Proof.Gen.KernelIdeal.Skeleton
import proofs.«129725_j23012434772667_2_alg».proof.Proof.Spec
import proofs.«129725_j23012434772667_2_alg».proof.Proof.LibBlockReads
import proofs.«129725_j23012434772667_2_alg».proof.Proof.LibRowReductions
import Idealize.ShloMosaic.Lib.Pipeline.Value
import Idealize.ShloMosaic.Lib.ValueIdx
import Idealize.ShloMosaic.PureOps.Ideal.Laws

open scoped BigOperators

noncomputable section

namespace Cert.KernelIdeal.Layer

open Cert.KernelIdeal Cert.KernelIdeal.Gen Cert.Egnn
open Idealize.ShloMosaic Idealize.ShloMosaic.ValueIdx Cert.Lib.BlockReads Cert.Lib.RowReductions

/-! ## The body's non-pointwise operations at a row -/

theorem mm128 (A : FVec Ideal S3200x128 .bf16) (B : FVec Ideal S128x128 .bf16) (y : Fin 3200) (j : Fin 128) :
    matmul dot_S3200x128_S128x128_S3200x128_1_0_0_1_n_n none A B (constant (F := Ideal) S3200x128 .f32 0x00000000#32) (ix2 y j)
      = dotc (fun c => A (ix2 y c)) B j :=
  matmul_zero_rows_apply dot_S3200x128_S128x128_S3200x128_1_0_0_1_n_n rfl rfl rfl rfl rfl rfl none A B y j

theorem mm8 (A : FVec Ideal S3200x8 .bf16) (B : FVec Ideal S8x128 .bf16) (y : Fin 3200) (j : Fin 128) :
    matmul dot_S3200x8_S8x128_S3200x128_1_0_0_1_n_n none A B (constant (F := Ideal) S3200x128 .f32 0x00000000#32) (ix2 y j)
      = dotc (fun c => A (ix2 y c)) B j :=
  matmul_zero_rows_apply dot_S3200x8_S8x128_S3200x128_1_0_0_1_n_n rfl rfl rfl rfl rfl rfl none A B y j

theorem mm64 (A : FVec Ideal S3200x64 .bf16) (B : FVec Ideal S64x128 .bf16) (y : Fin 3200) (j : Fin 128) :
    matmul dot_S3200x64_S64x128_S3200x128_1_0_0_1_n_n none A B (constant (F := Ideal) S3200x128 .f32 0x00000000#32) (ix2 y j)
      = dotc (fun c => A (ix2 y c)) B j :=
  matmul_zero_rows_apply dot_S3200x64_S64x128_S3200x128_1_0_0_1_n_n rfl rfl rfl rfl rfl rfl none A B y j

theorem mm1 (A : FVec Ideal S3200x128 .bf16) (B : FVec Ideal S128x1 .bf16) (y : Fin 3200) (q : Fin 1) :
    matmul dot_S3200x128_S128x1_S3200x1_1_0_0_1_n_n none A B (constant (F := Ideal) S3200x1 .f32 0x00000000#32) (ix2 y q)
      = dotc (fun c => A (ix2 y c)) B q :=
  matmul_zero_rows_apply dot_S3200x128_S128x1_S3200x1_1_0_0_1_n_n rfl rfl rfl rfl rfl rfl none A B y q

/-- The lane sum of the squared coordinate differences of row y. -/
theorem rowsq (v : FVec Ideal S3200x3 .f32) (y : Fin 3200) :
    multiReduction .add [1] S3200 (mulf v v) 0x00000000#32 reduces_S3200x3_S3200 (.inl rfl) rfl (ix1 y)
      = EdgeW.dsq (fun k => v (ix2 y k)) :=
  rowsum_apply (mulf v v) 0x00000000#32 reduces_S3200x3_S3200 (.inl rfl) rfl y

theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl

/-! ## The payloads at a row -/

theorem pay3_eq (v0 : Vec Ideal S3200x3 .f32) : k0_pay3 (F := Ideal) v0 = v0 := by
  unfold k0_pay3; exact shapeCast_self _ _

/-- The first layer's row before its bias. -/
theorem pay4_apply (v0 : Vec Ideal S3200x3 .f32) (v5 : Vec Ideal S3200x128 .bf16) (v7 : Vec Ideal S128x128 .bf16)
    (v10 : Vec Ideal S3200x128 .bf16) (v12 : Vec Ideal S128x128 .bf16) (v16 : Vec Ideal S1x128 .f32)
    (v22 : Vec Ideal S3200x8 .bf16) (v24 : Vec Ideal S8x128 .bf16) (v28 : Vec Ideal S3200x64 .bf16)
    (v30 : Vec Ideal S64x128 .bf16) (y : Fin 3200) (j : Fin 128) :
    k0_pay4 (F := Ideal) v0 v5 v7 v10 v12 v16 v22 v24 v28 v30 (ix2 y j)
      = (((dotc (fun c => v5 (ix2 y c)) v7 j + dotc (fun c => v10 (ix2 y c)) v12 j)
          + EdgeW.dsq (fun k => v0 (ix2 y k)) * v16 (ix2 0 j)) + dotc (fun c => v22 (ix2 y c)) v24 j)
          + dotc (fun c => v28 (ix2 y c)) v30 j := by
  unfold k0_pay4
  simp only [pay3_eq, shapeCast_self, addf_apply, mulf_apply, mm128, mm8, mm64, broadcast_col_apply,
    broadcast_row_apply, shapeCast_col_apply]
  refine congrArg₂ (· + ·) (congrArg₂ (· + ·) (congrArg₂ (· + ·) rfl (congrArg (· * _) ?_)) rfl) rfl
  exact rowsq v0 y

/-- The block's weights as the perceptron reads them. -/
def blockW (x5 : Vec Ideal S128x128 .bf16) (x6 : Vec Ideal S128x128 .bf16) (x7 : Vec Ideal S1x128 .f32)
    (x8 : Vec Ideal S8x128 .bf16) (x9 : Vec Ideal S64x128 .bf16) (x10 : Vec Ideal S1x128 .f32)
    (x11 : Vec Ideal S128x128 .bf16) (x12 : Vec Ideal S1x128 .f32) (x13 : Vec Ideal S128x1 .bf16)
    (x14 : Vec Ideal S1x1 .f32) (x15 : Vec Ideal S128x128 .bf16) (x16 : Vec Ideal S1x128 .f32)
    (x17 : Vec Ideal S128x1 .bf16) (x18 : Vec Ideal S1x1 .f32) : EdgeW where
  Wa := x5
  Wb := x6
  Wc := x7
  Wd := x8
  We := x9
  b1 := x10
  W2 := x11
  b2 := x12
  Watt := x13
  batt := x14
  Wx1 := x15
  bx1 := x16
  Wx2 := x17
  bx2 := x18

/-- The message of row y, from the first layer's row before its bias. -/
theorem pay5_apply (v33 : FVec Ideal S3200x128 .f32) (v34 : Vec Ideal S1x128 .f32) (v41 : Vec Ideal S128x128 .bf16)
    (v44 : Vec Ideal S1x128 .f32) (v49 : Vec Ideal S128x1 .bf16) (v52 : Vec Ideal S1x1 .f32)
    (w : EdgeW) (h2 : w.W2 = v41) (hb2 : w.b2 = v44) (ha : w.Watt = v49) (hba : w.batt = v52)
    (y : Fin 3200) (j : Fin 128) :
    k0_pay5 (F := Ideal) v33 v34 v41 v44 v49 v52 (ix2 y j)
      = w.msg (fun c => v33 (ix2 y c) + v34 (ix2 0 c)) j := by
  subst h2 hb2 ha hba
  unfold k0_pay5
  simp only [shapeCast_self, addf_apply, mulf_apply, truncf_apply, logistic_apply, mm128, mm1, broadcast_col_apply,
    broadcast_row_apply]
  rfl

/-- The coordinate perceptron's last product at row y. -/
theorem pay6_apply (v33 : FVec Ideal S3200x128 .f32) (v34 : Vec Ideal S1x128 .f32) (v41 : Vec Ideal S128x128 .bf16)
    (v44 : Vec Ideal S1x128 .f32) (v49 : Vec Ideal S128x1 .bf16) (v52 : Vec Ideal S1x1 .f32)
    (v60 : Vec Ideal S128x128 .bf16) (v63 : Vec Ideal S1x128 .f32) (v70 : Vec Ideal S128x1 .bf16)
    (w : EdgeW) (h2 : w.W2 = v41) (hb2 : w.b2 = v44) (ha : w.Watt = v49) (hba : w.batt = v52)
    (hx1 : w.Wx1 = v60) (hbx1 : w.bx1 = v63) (hx2 : w.Wx2 = v70) (y : Fin 3200) :
    k0_pay6 (F := Ideal) v33 v34 v41 v44 v49 v52 v60 v63 v70 (ix2 y 0)
      = w.cdot (fun c => v33 (ix2 y c) + v34 (ix2 0 c)) := by
  subst hx1 hbx1 hx2
  unfold k0_pay6
  simp only [shapeCast_self, addf_apply, mulf_apply, truncf_apply, logistic_apply, mm128, mm1, broadcast_row_apply,
    pay5_apply v33 v34 v41 v44 v49 v52 w h2 hb2 ha hba]
  rfl

/-- The stored coordinate shift at row y. -/
theorem pay1_apply (v1 : FVec Ideal S3200x3 .f32) (v72 : FVec Ideal S3200x1 .f32) (v73 : Vec Ideal S1x1 .f32)
    (y : Fin 3200) (k : Fin 3) :
    k0_pay1 (F := Ideal) v1 v72 v73 (ix2 y k) = v1 (ix2 y k) * Ideal.tanh (v72 (ix2 y 0) + v73 (ix2 0 0)) := by
  unfold k0_pay1
  simp only [shapeCast_self, addf_apply, mulf_apply, tanh_apply, broadcast_col_apply, broadcast_row_apply]

/-- The stored column of ones. -/
theorem pay2_apply (i : S3200x1.Idx) : k0_pay2 (F := Ideal) i = one := rfl

end Cert.KernelIdeal.Layer

end
-- ==== Proof.KComb.lean ====
/-
  The edge kernel's result as one 132-column row per edge: the message in columns 0 … 127, the coordinate shift in
  columns 128 … 130, the word 1.0 in column 131 (so that one sum over the edges aimed at a node gives the aggregated
  message, the aggregated shift and the number of those edges at once).
-/
import proofs.«129725_j23012434772667_2_alg».proof.Proof.Spec

open scoped BigOperators

noncomputable section

namespace Cert.Egnn

open Idealize.ShloMosaic Idealize.ShloMosaic.ValueIdx

/-- The 132-column row of an edge. -/
def EdgeW.comb (w : EdgeW) (u : EdgeIn) (q : Fin 132) : EReal :=
  if h : q.val < 128 then w.msg (w.pre1 u) ⟨q.val, h⟩
  else if h2 : q.val < 131 then u.df ⟨q.val - 128, by omega⟩ * w.cwt (w.pre1 u)
  else one

theorem EdgeW.comb_msg (w : EdgeW) (u : EdgeIn) (c : Fin 128) (q : Fin 132) (hq : q.val = c.val) :
    w.comb u q = w.msg (w.pre1 u) c := by
  have h : q.val < 128 := by have := c.isLt; omega
  unfold EdgeW.comb
  rw [dif_pos h]
  exact congrArg _ (Fin.ext hq)

theorem EdgeW.comb_shift (w : EdgeW) (u : EdgeIn) (k : Fin 3) (q : Fin 132) (hq : q.val = 128 + k.val) :
    w.comb u q = u.df k * w.cwt (w.pre1 u) := by
  have h : ¬ q.val < 128 := by omega
  have h2 : q.val < 131 := by have := k.isLt; omega
  unfold EdgeW.comb
  rw [dif_neg h, dif_pos h2]
  exact congrArg (fun t => u.df t * _) (Fin.ext (by show q.val - 128 = k.val; omega))

theorem EdgeW.comb_one (w : EdgeW) (u : EdgeIn) (q : Fin 132) (hq : q.val = 131) : w.comb u q = one := by
  have h : ¬ q.val < 128 := by omega
  have h2 : ¬ q.val < 131 := by omega
  unfold EdgeW.comb
  rw [dif_neg h, dif_neg h2]

/-- The 132-column row of edge e of the layer. -/
def Args.comb (A : Args) (e : Fin 800000) (q : Fin 132) : EReal := A.edgeW.comb (A.edgeIn e) q

end Cert.Egnn

end
-- ==== Proof.KStores.lean ====
/-
  A 3200×132 block written by three stores — column 131, columns 128 … 130, columns 0 … 127 — read at an index: the
  payload of the store whose columns hold the index's column.
-/
import proofs.«129725_j23012434772667_2_alg».proof.Proof.Gen.KernelIdeal
import Idealize.ShloMosaic.Lib.Pipeline.FrameBody
import Idealize.ShloMosaic.Lib.Pipeline.Value
import Idealize.ShloMosaic.Lib.ValueIdx

set_option maxRecDepth 16384

noncomputable section

namespace Cert.KernelIdeal.Layer

open Cert.KernelIdeal Cert.KernelIdeal.Gen
open Idealize.ShloMosaic Idealize.ShloMosaic.ValueIdx

theorem hz0 : (![0, 0] : Fin 2 → Nat) = fun _ => 0 := funext fun a => by fin_cases a <;> rfl

/-! ## The three stores as one function of the block index -/

set_option maxHeartbeats 4000000 in
/-- The three pieces a 3200×132 block is stored in, last first: column 131, columns 128 … 130, columns 0 … 127. -/
theorem canon3_apply (p2 : S3200x1.Idx → EReal) (p1 : S3200x3.Idx → EReal) (p5 : S3200x128.Idx → EReal)
    (y : Fin 3200) (q : Fin 132) :
    View.canon (Val := Elt Ideal) (s := S3200x132) (e := .f32)
        [⟨Rect.unit ![0, 131] ![3200, 1] inb_S3200x132_S3200x1_0_131, p2⟩,
         ⟨Rect.unit ![0, 128] ![3200, 3] inb_S3200x132_S3200x3_0_128, p1⟩,
         ⟨Rect.unit ![0, 0] ![3200, 128] inb_S3200x132_S3200x128_0_0, p5⟩] (ix2 y q)
      = if h : q.val < 128 then p5 (ix2 y ⟨q.val, h⟩)
        else if h2 : q.val < 131 then p1 (ix2 y ⟨q.val - 128, by omega⟩) else p2 (ix2 y 0) := by
  have hq := q.isLt
  by_cases h : q.val < 128
  · rw [dif_pos h]
    rw [View.canon_cons_of_not_mem _ _ (y := ix2 y q) (fun hm => by
        have hm' : (ix2 y q : S3200x132.Idx) ∈ (Rect.unit ![0, 131] ![3200, 1] inb_S3200x132_S3200x1_0_131).set := hm
        have h1 := (Rect.mem_set_unit.mp hm') (1 : Fin 2)
        have h3 : (131 : Nat) ≤ q.val := h1.1
        omega)]
    rw [View.canon_cons_of_not_mem _ _ (y := ix2 y q) (fun hm => by
        have hm' : (ix2 y q : S3200x132.Idx) ∈ (Rect.unit ![0, 128] ![3200, 3] inb_S3200x132_S3200x3_0_128).set := hm
        have h1 := (Rect.mem_set_unit.mp hm') (1 : Fin 2)
        have h3 : (128 : Nat) ≤ q.val := h1.1
        omega)]
    have he : (ix2 y q : S3200x132.Idx)
        = (Rect.unit ![0, 0] ![3200, 128] inb_S3200x132_S3200x128_0_0).emb (ix2 y ⟨q.val, h⟩) := by
      funext a; apply Fin.ext
      rw [Rect.emb_apply, Rect.off_unit, Rect.stride_unit]
      match a with
      | ⟨0, _⟩ => show y.val = 0 + 1 * y.val; omega
      | ⟨1, _⟩ => show q.val = 0 + 1 * q.val; omega
    rw [he]
    exact View.canon_cons_emb (Val := Elt Ideal) (s := S3200x132) (e := .f32)
      (Rect.unit (s := S3200x132) ![0, 0] ![3200, 128] inb_S3200x132_S3200x128_0_0) p5 [] (ix2 y ⟨q.val, h⟩)
  · rw [dif_neg h]
    by_cases h2 : q.val < 131
    · rw [dif_pos h2]
      rw [View.canon_cons_of_not_mem _ _ (y := ix2 y q) (fun hm => by
        have hm' : (ix2 y q : S3200x132.Idx) ∈ (Rect.unit ![0, 131] ![3200, 1] inb_S3200x132_S3200x1_0_131).set := hm
        have h1 := (Rect.mem_set_unit.mp hm') (1 : Fin 2)
        have h3 : (131 : Nat) ≤ q.val := h1.1
        omega)]
      have he : (ix2 y q : S3200x132.Idx)
          = (Rect.unit ![0, 128] ![3200, 3] inb_S3200x132_S3200x3_0_128).emb (ix2 y ⟨q.val - 128, by omega⟩) := by
        funext a; apply Fin.ext
        rw [Rect.emb_apply, Rect.off_unit, Rect.stride_unit]
        match a with
        | ⟨0, _⟩ => show y.val = 0 + 1 * y.val; omega
        | ⟨1, _⟩ => show q.val = 128 + 1 * (q.val - 128); omega
      rw [he]
      exact View.canon_cons_emb (Val := Elt Ideal) (s := S3200x132) (e := .f32)
        (Rect.unit (s := S3200x132) ![0, 128] ![3200, 3] inb_S3200x132_S3200x3_0_128) p1 _ (ix2 y ⟨q.val - 128, by omega⟩)
    · rw [dif_neg h2]
      have he : (ix2 y q : S3200x132.Idx)
          = (Rect.unit ![0, 131] ![3200, 1] inb_S3200x132_S3200x1_0_131).emb (ix2 y (0 : Fin 1)) := by
        funext a; apply Fin.ext
        rw [Rect.emb_apply, Rect.off_unit, Rect.stride_unit]
        match a with
        | ⟨0, _⟩ => show y.val = 0 + 1 * y.val; omega
        | ⟨1, _⟩ => show q.val = 131 + 1 * 0; omega
      rw [he]
      exact View.canon_cons_emb (Val := Elt Ideal) (s := S3200x132) (e := .f32)
        (Rect.unit (s := S3200x132) ![0, 131] ![3200, 1] inb_S3200x132_S3200x1_0_131) p2 _ (ix2 y (0 : Fin 1))

end Cert.KernelIdeal.Layer

end
-- ==== Proof.KRegion0.lean ====
/-
  The edge kernel's pipeline at any entry contents V: every grid point t reads rows 3200·t … 3200·t + 3199 of the five
  per-edge arrays and the fourteen weight blocks whole, and writes back the same rows of the 132-column result. The body's
  three stores fill columns 0 … 127 (the message), 128 … 130 (the coordinate shift) and 131 (ones) of its block, so the
  result array ends as the 132-column row of every edge.
-/
import proofs.«129725_j23012434772667_2_alg».proof.Proof.FrameKI
import proofs.«129725_j23012434772667_2_alg».proof.Proof.KBody0
import proofs.«129725_j23012434772667_2_alg».proof.Proof.KComb
import proofs.«129725_j23012434772667_2_alg».proof.Proof.KStores
import Idealize.ShloMosaic.Lib.Pipeline.Value
import Idealize.ShloMosaic.Lib.ValueIdx
import Idealize.ShloMosaic.Lib.Tactic

set_option maxRecDepth 16384

open scoped BigOperators

noncomputable section

namespace Cert.KernelIdeal.Layer

open Cert.KernelIdeal Cert.KernelIdeal.Gen Cert.KernelIdeal.GenP Cert.Egnn
open Idealize.ShloMosaic Idealize.ShloMosaic.TcCoe Idealize.ShloMosaic.ValueIdx Idealize.SL.Sem Idealize.ShloMosaic.Tactic
open Idealize.ShloMosaic.Pipeline (Dat)

/-- What the run's stores leave in the result block: the three payloads as pieces. -/
theorem out0_eq (c : Dev nD) (i : grid0.Coords) (arg1 : Memref sig .tc .vmem S3200x128 .bf16) (harg1 : arg1.IsWhole) (arg2 : Memref sig .tc .vmem S3200x128 .bf16) (harg2 : arg2.IsWhole) (arg3 : Memref sig .tc .vmem S3200x3 .f32) (harg3 : arg3.IsWhole) (arg4 : Memref sig .tc .vmem S3200x8 .bf16) (harg4 : arg4.IsWhole) (arg5 : Memref sig .tc .vmem S3200x64 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S8x128 .bf16) (harg9 : arg9.IsWhole) (arg10 : Memref sig .tc .vmem S64x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S128x1 .bf16) (harg14 : arg14.IsWhole) (arg15 : Memref sig .tc .vmem S1x1 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x1 .bf16) (harg18 : arg18.IsWhole) (arg19 : Memref sig .tc .vmem S1x1 .f32) (harg19 : arg19.IsWhole) (arg20 : Memref sig .tc .vmem S3200x132 .f32) (harg20 : arg20.IsWhole)
    (x0 : Vec Ideal S3200x128 .bf16) (x1 : Vec Ideal S3200x128 .bf16) (x2 : Vec Ideal S3200x3 .f32) (x3 : Vec Ideal S3200x8 .bf16) (x4 : Vec Ideal S3200x64 .bf16) (x5 : Vec Ideal S128x128 .bf16) (x6 : Vec Ideal S128x128 .bf16) (x7 : Vec Ideal S1x128 .f32) (x8 : Vec Ideal S8x128 .bf16) (x9 : Vec Ideal S64x128 .bf16) (x10 : Vec Ideal S1x128 .f32) (x11 : Vec Ideal S128x128 .bf16) (x12 : Vec Ideal S1x128 .f32) (x13 : Vec Ideal S128x1 .bf16) (x14 : Vec Ideal S1x1 .f32) (x15 : Vec Ideal S128x128 .bf16) (x16 : Vec Ideal S1x128 .f32) (x17 : Vec Ideal S128x1 .bf16) (x18 : Vec Ideal S1x1 .f32) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18
      = View.canon [⟨Rect.unit ![0, 131] ![3200, 1] inb_S3200x132_S3200x1_0_131, k0_pay2 (F := Ideal)⟩,
          ⟨Rect.unit ![0, 128] ![3200, 3] inb_S3200x132_S3200x3_0_128,
            k0_pay1 (k0_pay3 x2) (k0_pay6 (k0_pay4 x2 x0 x5 x1 x6 x7 x3 x8 x4 x9) x10 x11 x12 x13 x14 x15 x16 x17) x18⟩,
          ⟨Rect.unit ![0, 0] ![3200, 128] inb_S3200x132_S3200x128_0_0, k0_pay5 (k0_pay4 x2 x0 x5 x1 x6 x7 x3 x8 x4 x9) x10 x11 x12 x13 x14⟩] := by
  unfold out0_A_19
  rw [View.read_writes_junk_eq_canon]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S3200x128) hz0, View.ld_unit_zero (S := S3200x3) hz0, View.ld_unit_zero (S := S3200x8) hz0, View.ld_unit_zero (S := S3200x64) hz0, View.ld_unit_zero (S := S128x128) hz0, View.ld_unit_zero (S := S1x128) hz0, View.ld_unit_zero (S := S8x128) hz0, View.ld_unit_zero (S := S64x128) hz0, View.ld_unit_zero (S := S128x1) hz0, View.ld_unit_zero (S := S1x1) hz0]

/-- Row y of the per-edge input blocks. -/
def blockIn (x0 : Vec Ideal S3200x128 .bf16) (x1 : Vec Ideal S3200x128 .bf16) (x2 : Vec Ideal S3200x3 .f32)
    (x3 : Vec Ideal S3200x8 .bf16) (x4 : Vec Ideal S3200x64 .bf16) (y : Fin 3200) : EdgeIn where
  hs := fun c => x0 (ix2 y c)
  hd := fun c => x1 (ix2 y c)
  df := fun k => x2 (ix2 y k)
  ea := fun c => x3 (ix2 y c)
  ts := fun c => x4 (ix2 y c)

/-- The first layer's row, from the payload of the five products and the bias block. -/
theorem pre_row (x0 : Vec Ideal S3200x128 .bf16) (x1 : Vec Ideal S3200x128 .bf16) (x2 : Vec Ideal S3200x3 .f32)
    (x3 : Vec Ideal S3200x8 .bf16) (x4 : Vec Ideal S3200x64 .bf16) (x5 : Vec Ideal S128x128 .bf16)
    (x6 : Vec Ideal S128x128 .bf16) (x7 : Vec Ideal S1x128 .f32) (x8 : Vec Ideal S8x128 .bf16)
    (x9 : Vec Ideal S64x128 .bf16) (x10 : Vec Ideal S1x128 .f32) (x11 : Vec Ideal S128x128 .bf16)
    (x12 : Vec Ideal S1x128 .f32) (x13 : Vec Ideal S128x1 .bf16) (x14 : Vec Ideal S1x1 .f32)
    (x15 : Vec Ideal S128x128 .bf16) (x16 : Vec Ideal S1x128 .f32) (x17 : Vec Ideal S128x1 .bf16)
    (x18 : Vec Ideal S1x1 .f32) (y : Fin 3200) :
    (fun c : Fin 128 => ((k0_pay4 x2 x0 x5 x1 x6 x7 x3 x8 x4 x9) (ix2 y c) : EReal) + x10 (ix2 0 c))
      = (blockW x5 x6 x7 x8 x9 x10 x11 x12 x13 x14 x15 x16 x17 x18).pre1 (blockIn x0 x1 x2 x3 x4 y) := by
  funext c
  rw [pay4_apply]
  rfl

/-- The result block at (y, q): the 132-column row of the block's row y. -/
theorem out0_apply (c : Dev nD) (i : grid0.Coords) (arg1 : Memref sig .tc .vmem S3200x128 .bf16) (harg1 : arg1.IsWhole) (arg2 : Memref sig .tc .vmem S3200x128 .bf16) (harg2 : arg2.IsWhole) (arg3 : Memref sig .tc .vmem S3200x3 .f32) (harg3 : arg3.IsWhole) (arg4 : Memref sig .tc .vmem S3200x8 .bf16) (harg4 : arg4.IsWhole) (arg5 : Memref sig .tc .vmem S3200x64 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S8x128 .bf16) (harg9 : arg9.IsWhole) (arg10 : Memref sig .tc .vmem S64x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S128x1 .bf16) (harg14 : arg14.IsWhole) (arg15 : Memref sig .tc .vmem S1x1 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x1 .bf16) (harg18 : arg18.IsWhole) (arg19 : Memref sig .tc .vmem S1x1 .f32) (harg19 : arg19.IsWhole) (arg20 : Memref sig .tc .vmem S3200x132 .f32) (harg20 : arg20.IsWhole)
    (x0 : Vec Ideal S3200x128 .bf16) (x1 : Vec Ideal S3200x128 .bf16) (x2 : Vec Ideal S3200x3 .f32) (x3 : Vec Ideal S3200x8 .bf16) (x4 : Vec Ideal S3200x64 .bf16) (x5 : Vec Ideal S128x128 .bf16) (x6 : Vec Ideal S128x128 .bf16) (x7 : Vec Ideal S1x128 .f32) (x8 : Vec Ideal S8x128 .bf16) (x9 : Vec Ideal S64x128 .bf16) (x10 : Vec Ideal S1x128 .f32) (x11 : Vec Ideal S128x128 .bf16) (x12 : Vec Ideal S1x128 .f32) (x13 : Vec Ideal S128x1 .bf16) (x14 : Vec Ideal S1x1 .f32) (x15 : Vec Ideal S128x128 .bf16) (x16 : Vec Ideal S1x128 .f32) (x17 : Vec Ideal S128x1 .bf16) (x18 : Vec Ideal S1x1 .f32) (y : Fin 3200) (q : Fin 132) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 (ix2 y q)
      = (blockW x5 x6 x7 x8 x9 x10 x11 x12 x13 x14 x15 x16 x17 x18).comb (blockIn x0 x1 x2 x3 x4 y) q := by
  rw [out0_eq, canon3_apply]
  unfold EdgeW.comb
  have hp := pre_row x0 x1 x2 x3 x4 x5 x6 x7 x8 x9 x10 x11 x12 x13 x14 x15 x16 x17 x18 y
  split_ifs with h h2
  · rw [pay5_apply (k0_pay4 x2 x0 x5 x1 x6 x7 x3 x8 x4 x9) x10 x11 x12 x13 x14 (blockW x5 x6 x7 x8 x9 x10 x11 x12 x13 x14 x15 x16 x17 x18) rfl rfl rfl rfl y ⟨q.val, h⟩, hp]
  · rw [pay1_apply, pay3_eq,
      pay6_apply (k0_pay4 x2 x0 x5 x1 x6 x7 x3 x8 x4 x9) x10 x11 x12 x13 x14 x15 x16 x17 (blockW x5 x6 x7 x8 x9 x10 x11 x12 x13 x14 x15 x16 x17 x18) rfl rfl rfl rfl rfl rfl rfl y, hp]
    rfl
  · rfl

/-! ## The blocks -/

variable (V : (c : Dev nD) → (b : Ref sig .tc) → Buf (Elt Ideal) ((c : Thread nD τ).loc b))

/-- The printed index maps over the grid: the six row-blocked windows move with the point, the weights stay. -/
theorem idx0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_19.index t (0 : Fin 2) = t.val
    ∧ win0_19.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = 0
    ∧ win0_16.index t (1 : Fin 2) = 0
    ∧ win0_17.index t (0 : Fin 2) = 0
    ∧ win0_17.index t (1 : Fin 2) = 0
    ∧ win0_18.index t (0 : Fin 2) = 0
    ∧ win0_18.index t (1 : Fin 2) = 0 :=
  (by decide +kernel : ∀ t : Fin grid0.N, _)

/-- Row y of point t's blocks is row 3200·t + y of the arrays. -/
def rowAt (t : Fin cfg0.N) (y : Fin 3200) : Fin 800000 :=
  ⟨t.val * 3200 + y.val, by
    have h : t.val < 250 := lt_of_lt_of_eq t.isLt N_0
    have := y.isLt; omega⟩

theorem iblk0_0 (c : Dev nD) (t : Fin cfg0.N) :
    (iblk0 V c 0 t : Vec Ideal S3200x128 .bf16)
      = fun j => (V c main_v29 : Mat 800000 128) (ix2 (rowAt t ⟨(j 0).val, (j 0).isLt⟩) ⟨(j 1).val, (j 1).isLt⟩) := by
  obtain ⟨e0, e1, -⟩ := idx0 t
  funext j
  unfold iblk0
  rw [View.read_apply]
  refine congrArg (V c main_v29 : Mat 800000 128) ?_
  funext a; apply Fin.ext
  match a with
  | ⟨0, _⟩ => show win0_0.index t (0 : Fin 2) * 3200 + 1 * (j 0).val = t.val * 3200 + (j 0).val; rw [e0]; omega
  | ⟨1, _⟩ => show win0_0.index t (1 : Fin 2) * 128 + 1 * (j 1).val = (j 1).val; rw [e1]; omega

theorem iblk0_1 (c : Dev nD) (t : Fin cfg0.N) :
    (iblk0 V c 1 t : Vec Ideal S3200x128 .bf16)
      = fun j => (V c main_v37 : Mat 800000 128) (ix2 (rowAt t ⟨(j 0).val, (j 0).isLt⟩) ⟨(j 1).val, (j 1).isLt⟩) := by
  obtain ⟨-, -, e0, e1, -⟩ := idx0 t
  funext j
  unfold iblk0
  rw [View.read_apply]
  refine congrArg (V c main_v37 : Mat 800000 128) ?_
  funext a; apply Fin.ext
  match a with
  | ⟨0, _⟩ => show win0_1.index t (0 : Fin 2) * 3200 + 1 * (j 0).val = t.val * 3200 + (j 0).val; rw [e0]; omega
  | ⟨1, _⟩ => show win0_1.index t (1 : Fin 2) * 128 + 1 * (j 1).val = (j 1).val; rw [e1]; omega

theorem iblk0_2 (c : Dev nD) (t : Fin cfg0.N) :
    (iblk0 V c 2 t : Vec Ideal S3200x3 .f32)
      = fun j => (V c main_v18 : Mat 800000 3) (ix2 (rowAt t ⟨(j 0).val, (j 0).isLt⟩) ⟨(j 1).val, (j 1).isLt⟩) := by
  obtain ⟨-, -, -, -, e0, e1, -⟩ := idx0 t
  funext j
  unfold iblk0
  rw [View.read_apply]
  refine congrArg (V c main_v18 : Mat 800000 3) ?_
  funext a; apply Fin.ext
  match a with
  | ⟨0, _⟩ => show win0_2.index t (0 : Fin 2) * 3200 + 1 * (j 0).val = t.val * 3200 + (j 0).val; rw [e0]; omega
  | ⟨1, _⟩ => show win0_2.index t (1 : Fin 2) * 3 + 1 * (j 1).val = (j 1).val; rw [e1]; omega

theorem iblk0_3 (c : Dev nD) (t : Fin cfg0.N) :
    (iblk0 V c 3 t : Vec Ideal S3200x8 .bf16)
      = fun j => (V c main_v38 : Mat 800000 8) (ix2 (rowAt t ⟨(j 0).val, (j 0).isLt⟩) ⟨(j 1).val, (j 1).isLt⟩) := by
  obtain ⟨-, -, -, -, -, -, e0, e1, -⟩ := idx0 t
  funext j
  unfold iblk0
  rw [View.read_apply]
  refine congrArg (V c main_v38 : Mat 800000 8) ?_
  funext a; apply Fin.ext
  match a with
  | ⟨0, _⟩ => show win0_3.index t (0 : Fin 2) * 3200 + 1 * (j 0).val = t.val * 3200 + (j 0).val; rw [e0]; omega
  | ⟨1, _⟩ => show win0_3.index t (1 : Fin 2) * 8 + 1 * (j 1).val = (j 1).val; rw [e1]; omega

theorem iblk0_4 (c : Dev nD) (t : Fin cfg0.N) :
    (iblk0 V c 4 t : Vec Ideal S3200x64 .bf16)
      = fun j => (V c main_v30 : Mat 800000 64) (ix2 (rowAt t ⟨(j 0).val, (j 0).isLt⟩) ⟨(j 1).val, (j 1).isLt⟩) := by
  obtain ⟨-, -, -, -, -, -, -, -, e0, e1, -⟩ := idx0 t
  funext j
  unfold iblk0
  rw [View.read_apply]
  refine congrArg (V c main_v30 : Mat 800000 64) ?_
  funext a; apply Fin.ext
  match a with
  | ⟨0, _⟩ => show win0_4.index t (0 : Fin 2) * 3200 + 1 * (j 0).val = t.val * 3200 + (j 0).val; rw [e0]; omega
  | ⟨1, _⟩ => show win0_4.index t (1 : Fin 2) * 64 + 1 * (j 1).val = (j 1).val; rw [e1]; omega

theorem iblk0_5 (c : Dev nD) (t : Fin cfg0.N) :
    (iblk0 V c 5 t : Vec Ideal S128x128 .bf16) = (V c main_v40 : Mat 128 128) := by
  obtain ⟨-, -, -, -, -, -, -, -, -, -, -, -, e0, e1, -⟩ := idx0 t
  funext j
  unfold iblk0
  rw [View.read_apply]
  refine congrArg (V c main_v40 : Mat 128 128) ?_
  funext a; apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

theorem iblk0_6 (c : Dev nD) (t : Fin cfg0.N) :
    (iblk0 V c 6 t : Vec Ideal S128x128 .bf16) = (V c main_v42 : Mat 128 128) := by
  obtain ⟨-, -, -, -, -, -, -, -, -, -, -, -, -, -, e0, e1, -⟩ := idx0 t
  funext j
  unfold iblk0
  rw [View.read_apply]
  refine congrArg (V c main_v42 : Mat 128 128) ?_
  funext a; apply Fin.ext
  match a with
  | ⟨0, _⟩ => show win0_6.index t (0 : Fin 2) * 128 + 1 * (j 0).val = (j 0).val; rw [e0]; omega
  | ⟨1, _⟩ => show win0_6.index t (1 : Fin 2) * 128 + 1 * (j 1).val = (j 1).val; rw [e1]; omega

theorem iblk0_7 (c : Dev nD) (t : Fin cfg0.N) :
    (iblk0 V c 7 t : Vec Ideal S1x128 .f32) = (V c main_v43 : Mat 1 128) := by
  obtain ⟨-, -, -, -, -, -, -, -, -, -, -, -, -, -, -, -, e0, e1, -⟩ := idx0 t
  funext j
  unfold iblk0
  rw [View.read_apply]
  refine congrArg (V c main_v43 : Mat 1 128) ?_
  funext a; apply Fin.ext
  match a with
  | ⟨0, _⟩ => show win0_7.index t (0 : Fin 2) * 1 + 1 * (j 0).val = (j 0).val; rw [e0]; omega
  | ⟨1, _⟩ => show win0_7.index t (1 : Fin 2) * 128 + 1 * (j 1).val = (j 1).val; rw [e1]; omega

theorem iblk0_8 (c : Dev nD) (t : Fin cfg0.N) :
    (iblk0 V c 8 t : Vec Ideal S8x128 .bf16) = (V c main_v45 : Mat 8 128) := by
  obtain ⟨-, -, -, -, -, -, -, -, -, -, -, -, -, -, -, -, -, -, e0, e1, -⟩ := idx0 t
  funext j
  unfold iblk0
  rw [View.read_apply]
  refine congrArg (V c main_v45 : Mat 8 128) ?_
  funext a; apply Fin.ext
  match a with
  | ⟨0, _⟩ => show win0_8.index t (0 : Fin 2) * 8 + 1 * (j 0).val = (j 0).val; rw [e0]; omega
  | ⟨1, _⟩ => show win0_8.index t (1 : Fin 2) * 128 + 1 * (j 1).val = (j 1).val; rw [e1]; omega

theorem iblk0_9 (c : Dev nD) (t : Fin cfg0.N) :
    (iblk0 V c 9 t : Vec Ideal S64x128 .bf16) = (V c main_v47 : Mat 64 128) := by
  obtain ⟨-, -, -, -, -, -, -, -, -, -, -, -, -, -, -, -, -, -, -, -, e0, e1, -⟩ := idx0 t
  funext j
  unfold iblk0
  rw [View.read_apply]
  refine congrArg (V c main_v47 : Mat 64 128) ?_
  funext a; apply Fin.ext
  match a with
  | ⟨0, _⟩ => show win0_9.index t (0 : Fin 2) * 64 + 1 * (j 0).val = (j 0).val; rw [e0]; omega
  | ⟨1, _⟩ => show win0_9.index t (1 : Fin 2) * 128 + 1 * (j 1).val = (j 1).val; rw [e1]; omega

theorem iblk0_10 (c : Dev nD) (t : Fin cfg0.N) :
    (iblk0 V c 10 t : Vec Ideal S1x128 .f32) = (V c main_v48 : Mat 1 128) := by
  obtain ⟨-, -, -, -, -, -, -, -, -, -, -, -, -, -, -, -, -, -, -, -, -, -, e0, e1, -⟩ := idx0 t
  funext j
  unfold iblk0
  rw [View.read_apply]
  refine congrArg (V c main_v48 : Mat 1 128) ?_
  funext a; apply Fin.ext
  match a with
  | ⟨0, _⟩ => show win0_10.index t (0 : Fin 2) * 1 + 1 * (j 0).val = (j 0).val; rw [e0]; omega
  | ⟨1, _⟩ => show win0_10.index t (1 : Fin 2) * 128 + 1 * (j 1).val = (j 1).val; rw [e1]; omega

theorem iblk0_11 (c : Dev nD) (t : Fin cfg0.N) :
    (iblk0 V c 11 t : Vec Ideal S128x128 .bf16) = (V c main_v49 : Mat 128 128) := by
  obtain ⟨-, -, -, -, -, -, -, -, -, -, -, -, -, -, -, -, -, -, -, -, -, -, -, -, e0, e1, -⟩ := idx0 t
  funext j
  unfold iblk0
  rw [View.read_apply]
  refine congrArg (V c main_v49 : Mat 128 128) ?_
  funext a; apply Fin.ext
  match a with
  | ⟨0, _⟩ => show win0_11.index t (0 : Fin 2) * 128 + 1 * (j 0).val = (j 0).val; rw [e0]; omega
  | ⟨1, _⟩ => show win0_11.index t (1 : Fin 2) * 128 + 1 * (j 1).val = (j 1).val; rw [e1]; omega

theorem iblk0_12 (c : Dev nD) (t : Fin cfg0.N) :
    (iblk0 V c 12 t : Vec Ideal S1x128 .f32) = (V c main_v50 : Mat 1 128) := by
  obtain ⟨-, -, -, -, -, -, -, -, -, -, -, -, -, -, -, -, -, -, -, -, -, -, -, -, -, -, e0, e1, -⟩ := idx0 t
  funext j
  unfold iblk0
  rw [View.read_apply]
  refine congrArg (V c main_v50 : Mat 1 128) ?_
  funext a; apply Fin.ext
  match a with
  | ⟨0, _⟩ => show win0_12.index t (0 : Fin 2) * 1 + 1 * (j 0).val = (j 0).val; rw [e0]; omega
  | ⟨1, _⟩ => show win0_12.index t (1 : Fin 2) * 128 + 1 * (j 1).val = (j 1).val; rw [e1]; omega

theorem iblk0_13 (c : Dev nD) (t : Fin cfg0.N) :
    (iblk0 V c 13 t : Vec Ideal S128x1 .bf16) = (V c main_v51 : Mat 128 1) := by
  obtain ⟨-, -, -, -, -, -, -, -, -, -, -, -, -, -, -, -, -, -, -, -, -, -, -, -, -, -, -, -, e0, e1, -⟩ := idx0 t
  funext j
  unfold iblk0
  rw [View.read_apply]
  refine congrArg (V c main_v51 : Mat 128 1) ?_
  funext a; apply Fin.ext
  match a with
  | ⟨0, _⟩ => show win0_13.index t (0 : Fin 2) * 128 + 1 * (j 0).val = (j 0).val; rw [e0]; omega
  | ⟨1, _⟩ => show win0_13.index t (1 : Fin 2) * 1 + 1 * (j 1).val = (j 1).val; rw [e1]; omega

theorem iblk0_14 (c : Dev nD) (t : Fin cfg0.N) :
    (iblk0 V c 14 t : Vec Ideal S1x1 .f32) = (V c main_v52 : Mat 1 1) := by
  obtain ⟨-, -, -, -, -, -, -, -, -, -, -, -, -, -, -, -, -, -, -, -, -, -, -, -, -, -, -, -, -, -, e0, e1, -⟩ := idx0 t
  funext j
  unfold iblk0
  rw [View.read_apply]
  refine congrArg (V c main_v52 : Mat 1 1) ?_
  funext a; apply Fin.ext
  match a with
  | ⟨0, _⟩ => show win0_14.index t (0 : Fin 2) * 1 + 1 * (j 0).val = (j 0).val; rw [e0]; omega
  | ⟨1, _⟩ => show win0_14.index t (1 : Fin 2) * 1 + 1 * (j 1).val = (j 1).val; rw [e1]; omega

theorem iblk0_15 (c : Dev nD) (t : Fin cfg0.N) :
    (iblk0 V c 15 t : Vec Ideal S128x128 .bf16) = (V c main_v53 : Mat 128 128) := by
  obtain ⟨-, -, -, -, -, -, -, -, -, -, -, -, -, -, -, -, -, -, -, -, -, -, -, -, -, -, -, -, -, -, -, -, e0, e1, -⟩ := idx0 t
  funext j
  unfold iblk0
  rw [View.read_apply]
  refine congrArg (V c main_v53 : Mat 128 128) ?_
  funext a; apply Fin.ext
  match a with
  | ⟨0, _⟩ => show win0_15.index t (0 : Fin 2) * 128 + 1 * (j 0).val = (j 0).val; rw [e0]; omega
  | ⟨1, _⟩ => show win0_15.index t (1 : Fin 2) * 128 + 1 * (j 1).val = (j 1).val; rw [e1]; omega

theorem iblk0_16 (c : Dev nD) (t : Fin cfg0.N) :
    (iblk0 V c 16 t : Vec Ideal S1x128 .f32) = (V c main_v54 : Mat 1 128) := by
  obtain ⟨-, -, -, -, -, -, -, -, -, -, -, -, -, -, -, -, -, -, -, -, -, -, -, -, -, -, -, -, -, -, -, -, -, -, e0, e1, -⟩ := idx0 t
  funext j
  unfold iblk0
  rw [View.read_apply]
  refine congrArg (V c main_v54 : Mat 1 128) ?_
  funext a; apply Fin.ext
  match a with
  | ⟨0, _⟩ => show win0_16.index t (0 : Fin 2) * 1 + 1 * (j 0).val = (j 0).val; rw [e0]; omega
  | ⟨1, _⟩ => show win0_16.index t (1 : Fin 2) * 128 + 1 * (j 1).val = (j 1).val; rw [e1]; omega

theorem iblk0_17 (c : Dev nD) (t : Fin cfg0.N) :
    (iblk0 V c 17 t : Vec Ideal S128x1 .bf16) = (V c main_v55 : Mat 128 1) := by
  obtain ⟨-, -, -, -, -, -, -, -, -, -, -, -, -, -, -, -, -, -, -, -, -, -, -, -, -, -, -, -, -, -, -, -, -, -, -, -, e0, e1, -⟩ := idx0 t
  funext j
  unfold iblk0
  rw [View.read_apply]
  refine congrArg (V c main_v55 : Mat 128 1) ?_
  funext a; apply Fin.ext
  match a with
  | ⟨0, _⟩ => show win0_17.index t (0 : Fin 2) * 128 + 1 * (j 0).val = (j 0).val; rw [e0]; omega
  | ⟨1, _⟩ => show win0_17.index t (1 : Fin 2) * 1 + 1 * (j 1).val = (j 1).val; rw [e1]; omega

theorem iblk0_18 (c : Dev nD) (t : Fin cfg0.N) :
    (iblk0 V c 18 t : Vec Ideal S1x1 .f32) = (V c main_v56 : Mat 1 1) := by
  obtain ⟨-, -, -, -, -, -, -, -, -, -, -, -, -, -, -, -, -, -, -, -, -, -, -, -, -, -, -, -, -, -, -, -, -, -, -, -, -, -, e0, e1⟩ := idx0 t
  funext j
  unfold iblk0
  rw [View.read_apply]
  refine congrArg (V c main_v56 : Mat 1 1) ?_
  funext a; apply Fin.ext
  match a with
  | ⟨0, _⟩ => show win0_18.index t (0 : Fin 2) * 1 + 1 * (j 0).val = (j 0).val; rw [e0]; omega
  | ⟨1, _⟩ => show win0_18.index t (1 : Fin 2) * 1 + 1 * (j 1).val = (j 1).val; rw [e1]; omega

/-- The result window's block of any array G at point t. -/
theorem read0_19 (c : Dev nD) (t : Fin cfg0.N) (G : Mat 800000 132) :
    (((cfg0.win 19).blk t).view.read (Elt Ideal) G : Vec Ideal S3200x132 .f32)
      = fun j => G (ix2 (rowAt t ⟨(j 0).val, (j 0).isLt⟩) ⟨(j 1).val, (j 1).isLt⟩) := by
  obtain ⟨-, -, -, -, -, -, -, -, -, -, e0, e1, -⟩ := idx0 t
  funext j
  rw [View.read_apply]
  refine congrArg G ?_
  funext a; apply Fin.ext
  match a with
  | ⟨0, _⟩ => show win0_19.index t (0 : Fin 2) * 3200 + 1 * (j 0).val = t.val * 3200 + (j 0).val; rw [e0]; omega
  | ⟨1, _⟩ => show win0_19.index t (1 : Fin 2) * 132 + 1 * (j 1).val = (j 1).val; rw [e1]; omega

/-- What the perceptron reads of edge e of the arrays the region finds. -/
def rowIn (c : Dev nD) (e : Fin 800000) : EdgeIn where
  hs := fun q => (V c main_v29 : Mat 800000 128) (ix2 e q)
  hd := fun q => (V c main_v37 : Mat 800000 128) (ix2 e q)
  df := fun k => (V c main_v18 : Mat 800000 3) (ix2 e k)
  ea := fun q => (V c main_v38 : Mat 800000 8) (ix2 e q)
  ts := fun q => (V c main_v30 : Mat 800000 64) (ix2 e q)

/-- The weights the region finds. -/
def regW (c : Dev nD) : EdgeW := blockW (V c main_v40 : Mat 128 128) (V c main_v42 : Mat 128 128) (V c main_v43 : Mat 1 128) (V c main_v45 : Mat 8 128) (V c main_v47 : Mat 64 128) (V c main_v48 : Mat 1 128) (V c main_v49 : Mat 128 128) (V c main_v50 : Mat 1 128) (V c main_v51 : Mat 128 1) (V c main_v52 : Mat 1 1) (V c main_v53 : Mat 128 128) (V c main_v54 : Mat 1 128) (V c main_v55 : Mat 128 1) (V c main_v56 : Mat 1 1)

/-- The array the region leaves: the 132-column row of every edge. -/
def comb0 (c : Dev nD) : Mat 800000 132 := fun i => (regW V c).comb (rowIn V c (i 0)) (i 1)

/-- What point t writes back is block t of that array. -/
theorem flushed0 (c : Dev nD) (t : Fin cfg0.N) :
    (dat0 (F := Ideal) V c).flushed 19 t = ((cfg0.win 19).blk t).view.read (Elt Ideal) (comb0 V c) := by
  show (cfg0.win 19).cut (grid0.coords t) ((dat0 V c).after 19 t) = _
  rw [after0_19, read0_19 c t]
  unfold outsAt0
  funext j
  obtain ⟨y, q, rfl⟩ : ∃ (y : Fin 3200) (q : Fin 132), j = ix2 y q := ⟨j 0, j 1, eq_ix2 j⟩
  refine (out0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) y q).trans ?_
  rw [iblk0_0 V c t, iblk0_1 V c t, iblk0_2 V c t, iblk0_3 V c t, iblk0_4 V c t, iblk0_5 V c t, iblk0_6 V c t, iblk0_7 V c t, iblk0_8 V c t, iblk0_9 V c t, iblk0_10 V c t, iblk0_11 V c t, iblk0_12 V c t, iblk0_13 V c t, iblk0_14 V c t, iblk0_15 V c t, iblk0_16 V c t, iblk0_17 V c t, iblk0_18 V c t]
  rfl

/-- Every index of the result array is in some point's block: the point that holds row r is r / 3200. -/
theorem cover0 (i : S800000x132.Idx) :
    ∃ t : Fin cfg0.N, (cfg0.win 19).flush t = true ∧ i ∈ ((cfg0.win 19).blk t).view.set := by
  have hN : cfg0.N = 250 := N_0
  have hi0 : (i 0).val < 800000 := (i 0).isLt
  have hi1 : (i 1).val < 132 := (i 1).isLt
  let t : Fin cfg0.N := ⟨(i 0).val / 3200, by rw [hN]; omega⟩
  obtain ⟨-, -, -, -, -, -, -, -, -, -, e0, e1, -⟩ := idx0 t
  refine ⟨t, flush0_19 t, ?_⟩
  show i ∈ ((View.whole main_v57).slice (win0_19.rect t)).set
  rw [View.set_slice_whole, Rect.mem_set_unit]
  intro a
  match a with
  | ⟨0, _⟩ =>
    show win0_19.index t (0 : Fin 2) * 3200 ≤ (i 0).val ∧ (i 0).val < win0_19.index t (0 : Fin 2) * 3200 + 3200
    rw [e0]; show (i 0).val / 3200 * 3200 ≤ (i 0).val ∧ (i 0).val < (i 0).val / 3200 * 3200 + 3200; omega
  | ⟨1, _⟩ =>
    show win0_19.index t (1 : Fin 2) * 132 ≤ (i 1).val ∧ (i 1).val < win0_19.index t (1 : Fin 2) * 132 + 132
    rw [e1]; omega

/-- The result array after the region. -/
theorem final0 (c : Dev nD) : (dat0 (F := Ideal) V c).arrAt 19 cfg0.N = comb0 V c :=
  (dat0 V c).arrAt_eq_of_cover 19 (comb0 V c) (fun t _ => flushed0 V c t) cover0

end Cert.KernelIdeal.Layer

end
-- ==== Proof.KBody1.lean ====
/-
  The node kernel's body, read row by row on the extended reals: row y of the stored block is the node perceptron of
  row y of the feature block beside row y of the aggregated-message block.
-/
import proofs.«129725_j23012434772667_2_alg».proof.Proof.Gen.KernelIdeal.Skeleton
import proofs.«129725_j23012434772667_2_alg».proof.Proof.Spec
import proofs.«129725_j23012434772667_2_alg».proof.Proof.LibBlockReads
import Idealize.ShloMosaic.Lib.Pipeline.Value
import Idealize.ShloMosaic.Lib.ValueIdx
import Idealize.ShloMosaic.PureOps.Ideal.Laws

open scoped BigOperators

noncomputable section

namespace Cert.KernelIdeal.Layer

open Cert.KernelIdeal Cert.KernelIdeal.Gen Cert.Egnn
open Idealize.ShloMosaic Idealize.ShloMosaic.ValueIdx Cert.Lib.BlockReads

theorem mmN (A : FVec Ideal S5000x128 .bf16) (B : FVec Ideal S128x128 .bf16) (y : Fin 5000) (j : Fin 128) :
    matmul dot_S5000x128_S128x128_S5000x128_1_0_0_1_n_n none A B (constant (F := Ideal) S5000x128 .f32 0x00000000#32) (ix2 y j)
      = dotc (fun c => A (ix2 y c)) B j :=
  matmul_zero_rows_apply dot_S5000x128_S128x128_S5000x128_1_0_0_1_n_n rfl rfl rfl rfl rfl rfl none A B y j

theorem logisticN_apply {s : Shape} (v : FVec Ideal s .f32) (i : s.Idx) : logistic v i = Ideal.logistic (v i) := rfl

/-- The block's weights as the node perceptron reads them. -/
def blockNW (x2 : Vec Ideal S128x128 .bf16) (x3 : Vec Ideal S128x128 .bf16) (x4 : Vec Ideal S1x128 .f32)
    (x5 : Vec Ideal S128x128 .bf16) (x6 : Vec Ideal S1x128 .f32) : NodeW where
  Wa := x2
  Wb := x3
  b1 := x4
  W2 := x5
  b2 := x6

/-- The stored block at row y. -/
theorem pay_node_apply (v0 : Vec Ideal S5000x128 .f32) (v2 : Vec Ideal S5000x128 .f32) (v5 : Vec Ideal S128x128 .bf16)
    (v8 : Vec Ideal S128x128 .bf16) (v12 : Vec Ideal S1x128 .f32) (v19 : Vec Ideal S128x128 .bf16)
    (v22 : Vec Ideal S1x128 .f32) (y : Fin 5000) (j : Fin 128) :
    k1_pay1 (F := Ideal) v0 v2 v5 v8 v12 v19 v22 (ix2 y j)
      = (blockNW v5 v8 v12 v19 v22).out (fun c => v0 (ix2 y c)) (fun c => v2 (ix2 y c)) j := by
  unfold k1_pay1
  simp only [shapeCast_self, addf_apply, mulf_apply, truncf_apply, logisticN_apply, mmN, broadcast_row_apply]
  rfl

end Cert.KernelIdeal.Layer

end
-- ==== Proof.KRegion1.lean ====
/-
  The node kernel's pipeline at any entry contents V: every grid point t reads rows 5000·t … 5000·t + 4999 of the
  feature array and of the aggregated-message array, the five weight blocks whole, and writes back the same rows of the
  result. So the result array ends as the node perceptron applied row by row.
-/
import proofs.«129725_j23012434772667_2_alg».proof.Proof.FrameKI
import proofs.«129725_j23012434772667_2_alg».proof.Proof.KBody1
import proofs.«129725_j23012434772667_2_alg».proof.Proof.Spec
import Idealize.ShloMosaic.Lib.Pipeline.Value
import Idealize.ShloMosaic.Lib.ValueIdx
import Idealize.ShloMosaic.Lib.Tactic

set_option maxRecDepth 16384

open scoped BigOperators

noncomputable section

namespace Cert.KernelIdeal.Layer

open Cert.KernelIdeal Cert.KernelIdeal.Gen Cert.KernelIdeal.GenP Cert.Egnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The node perceptron applied to every row of an array of features beside an array of aggregated messages. -/
def nodeArr (w : NodeW) (H MG : Mat 50000 128) : Mat 50000 128 :=
  fun i => w.out (fun c => H (ix2 (i 0) c)) (fun c => MG (ix2 (i 0) c)) (i 1)

/-- The one store's payload is what the body leaves. -/
theorem out1_7_eq (x0 : Vec Ideal S5000x128 .f32) (x1 : Vec Ideal S5000x128 .f32) (x2 : Vec Ideal S128x128 .bf16)
    (x3 : Vec Ideal S128x128 .bf16) (x4 : Vec Ideal S1x128 .f32) (x5 : Vec Ideal S128x128 .bf16)
    (x6 : Vec Ideal S1x128 .f32) :
    out1_7 (F := Ideal) x0 x1 x2 x3 x4 x5 x6 = k1_pay1 x0 x1 x2 x3 x4 x5 x6 := by
  unfold out1_7
  rw [View.canon_unit_zero hz2]
  have e0 : View.ld x0 r1_0 = x0 := View.ld_unit_zero (S := S5000x128) hz2 _ x0
  have e1 : View.ld x1 r1_0 = x1 := View.ld_unit_zero (S := S5000x128) hz2 _ x1
  have e2 : View.ld x2 r1_1 = x2 := View.ld_unit_zero (S := S128x128) hz2 _ x2
  have e3 : View.ld x3 r1_1 = x3 := View.ld_unit_zero (S := S128x128) hz2 _ x3
  have e4 : View.ld x4 r1_2 = x4 := View.ld_unit_zero (S := S1x128) hz2 _ x4
  have e5 : View.ld x5 r1_1 = x5 := View.ld_unit_zero (S := S128x128) hz2 _ x5
  have e6 : View.ld x6 r1_2 = x6 := View.ld_unit_zero (S := S1x128) hz2 _ x6
  rw [e0, e1, e2, e3, e4, e5, e6]

/-- A block of rows through the body is the same rows of the row-by-row perceptron: the two row-blocked inputs read
    through one embedding e of block indices into array indices that keeps the column and sends a row to a row. -/
theorem node_block (H MG : Mat 50000 128) (x2 : Vec Ideal S128x128 .bf16) (x3 : Vec Ideal S128x128 .bf16)
    (x4 : Vec Ideal S1x128 .f32) (x5 : Vec Ideal S128x128 .bf16) (x6 : Vec Ideal S1x128 .f32)
    (e : (⟨2, ![5000, 128]⟩ : Shape).Idx → (⟨2, ![50000, 128]⟩ : Shape).Idx)
    (hrow : ∀ (y : Fin 5000) (q q' : Fin 128), ((e (ix2 y q)) 0).val = ((e (ix2 y q')) 0).val)
    (hcol : ∀ (y : Fin 5000) (q : Fin 128), ((e (ix2 y q)) 1).val = q.val) :
    k1_pay1 (F := Ideal) (fun j => H (e j)) (fun j => MG (e j)) x2 x3 x4 x5 x6
      = fun j => nodeArr (blockNW x2 x3 x4 x5 x6) H MG (e j) := by
  funext j
  obtain ⟨y, q, rfl⟩ : ∃ (y : Fin 5000) (q : Fin 128), j = ix2 y q := ⟨j 0, j 1, eq_ix2 j⟩
  rw [pay_node_apply]
  have key : ∀ c : Fin 128, e (ix2 y c) = ix2 ((e (ix2 y q)) 0) c := fun c => by
    funext a; apply Fin.ext
    match a with
    | ⟨0, _⟩ => exact hrow y c q
    | ⟨1, _⟩ => exact hcol y c
  have kq : ((e (ix2 y q)) 1 : Fin 128) = q := Fin.ext (hcol y q)
  have hH : (fun c : Fin 128 => H (e (ix2 y c))) = fun c => H (ix2 ((e (ix2 y q)) 0) c) :=
    funext fun c => congrArg H (key c)
  have hM : (fun c : Fin 128 => MG (e (ix2 y c))) = fun c => MG (ix2 ((e (ix2 y q)) 0) c) :=
    funext fun c => congrArg MG (key c)
  show (blockNW x2 x3 x4 x5 x6).out (fun c => H (e (ix2 y c))) (fun c => MG (e (ix2 y c))) q
    = (blockNW x2 x3 x4 x5 x6).out (fun c => H (ix2 ((e (ix2 y q)) 0) c)) (fun c => MG (ix2 ((e (ix2 y q)) 0) c))
        ((e (ix2 y q)) 1)
  rw [hH, hM]
  exact congrArg _ kq.symm

/-- The printed index maps over the grid: the three row-blocked windows move with the point, the weights stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Where a block index of point t sits in the array: row 5000·t + its row, the same column (one embedding for the three
    row-blocked windows). -/
def emb1 (t : Fin cfg1.N) : (⟨2, ![5000, 128]⟩ : Shape).Idx → (⟨2, ![50000, 128]⟩ : Shape).Idx := fun j =>
  ix2 ⟨t.val * 5000 + (j 0).val, by
        have h : t.val < 10 := lt_of_lt_of_eq t.isLt N_1
        have h2 : (j 0).val < 5000 := (j 0).isLt
        show t.val * 5000 + (j 0).val < 50000; omega⟩
      ⟨(j 1).val, (j 1).isLt⟩

theorem emb1_row (t : Fin cfg1.N) (y : Fin 5000) (q q' : Fin 128) :
    ((emb1 t (ix2 y q)) 0).val = ((emb1 t (ix2 y q')) 0).val := rfl
theorem emb1_col (t : Fin cfg1.N) (y : Fin 5000) (q : Fin 128) : ((emb1 t (ix2 y q)) 1).val = q.val := rfl

/-- The feature window's block at point t. -/
theorem iblk1_0 (c : Dev nD) (t : Fin cfg1.N) :
    (iblk1 V c 0 t : Vec Ideal S5000x128 .f32) = fun j => (V c main_arg0 : Mat 50000 128) (emb1 t j) := by
  obtain ⟨e0, e1, -⟩ := idx1 t
  funext j
  unfold iblk1
  rw [View.read_apply]
  refine congrArg (V c main_arg0 : Mat 50000 128) ?_
  funext a; apply Fin.ext
  match a with
  | ⟨0, _⟩ => show win1_0.index t (0 : Fin 2) * 5000 + 1 * (j 0).val = t.val * 5000 + (j 0).val; rw [e0]; omega
  | ⟨1, _⟩ => show win1_0.index t (1 : Fin 2) * 128 + 1 * (j 1).val = (j 1).val; rw [e1]; omega

/-- The aggregated-message window's block at point t. -/
theorem iblk1_1 (c : Dev nD) (t : Fin cfg1.N) :
    (iblk1 V c 1 t : Vec Ideal S5000x128 .f32) = fun j => (V c main_v61 : Mat 50000 128) (emb1 t j) := by
  obtain ⟨-, -, e0, e1, -⟩ := idx1 t
  funext j
  unfold iblk1
  rw [View.read_apply]
  refine congrArg (V c main_v61 : Mat 50000 128) ?_
  funext a; apply Fin.ext
  match a with
  | ⟨0, _⟩ => show win1_1.index t (0 : Fin 2) * 5000 + 1 * (j 0).val = t.val * 5000 + (j 0).val; rw [e0]; omega
  | ⟨1, _⟩ => show win1_1.index t (1 : Fin 2) * 128 + 1 * (j 1).val = (j 1).val; rw [e1]; omega

/-- A weight window's block is its whole array, at every point. -/
theorem iblk1_2 (c : Dev nD) (t : Fin cfg1.N) : (iblk1 V c 2 t : Vec Ideal S128x128 .bf16) = (V c main_v70 : Mat 128 128) := by
  obtain ⟨-, -, -, -, -, -, e0, e1, -⟩ := idx1 t
  funext j
  unfold iblk1
  rw [View.read_apply]
  refine congrArg (V c main_v70 : Mat 128 128) ?_
  funext a; apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega
theorem iblk1_3 (c : Dev nD) (t : Fin cfg1.N) : (iblk1 V c 3 t : Vec Ideal S128x128 .bf16) = (V c main_v72 : Mat 128 128) := by
  obtain ⟨-, -, -, -, -, -, -, -, e0, e1, -⟩ := idx1 t
  funext j
  unfold iblk1
  rw [View.read_apply]
  refine congrArg (V c main_v72 : Mat 128 128) ?_
  funext a; apply Fin.ext
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega
theorem iblk1_4 (c : Dev nD) (t : Fin cfg1.N) : (iblk1 V c 4 t : Vec Ideal S1x128 .f32) = (V c main_v73 : Mat 1 128) := by
  obtain ⟨-, -, -, -, -, -, -, -, -, -, e0, e1, -⟩ := idx1 t
  funext j
  unfold iblk1
  rw [View.read_apply]
  refine congrArg (V c main_v73 : Mat 1 128) ?_
  funext a; apply Fin.ext
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega
theorem iblk1_5 (c : Dev nD) (t : Fin cfg1.N) : (iblk1 V c 5 t : Vec Ideal S128x128 .bf16) = (V c main_v74 : Mat 128 128) := by
  obtain ⟨-, -, -, -, -, -, -, -, -, -, -, -, e0, e1, -⟩ := idx1 t
  funext j
  unfold iblk1
  rw [View.read_apply]
  refine congrArg (V c main_v74 : Mat 128 128) ?_
  funext a; apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega
theorem iblk1_6 (c : Dev nD) (t : Fin cfg1.N) : (iblk1 V c 6 t : Vec Ideal S1x128 .f32) = (V c main_v75 : Mat 1 128) := by
  obtain ⟨-, -, -, -, -, -, -, -, -, -, -, -, -, -, e0, e1⟩ := idx1 t
  funext j
  unfold iblk1
  rw [View.read_apply]
  refine congrArg (V c main_v75 : Mat 1 128) ?_
  funext a; apply Fin.ext
  match a with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

/-- The result window's block of any array G at point t. -/
theorem read1_7 (c : Dev nD) (t : Fin cfg1.N) (G : Mat 50000 128) :
    (((cfg1.win 7).blk t).view.read (Elt Ideal) G : Vec Ideal S5000x128 .f32) = fun j => G (emb1 t j) := by
  obtain ⟨-, -, -, -, e0, e1, -⟩ := idx1 t
  funext j
  rw [View.read_apply]
  refine congrArg G ?_
  funext a; apply Fin.ext
  match a with
  | ⟨0, _⟩ => show win1_7.index t (0 : Fin 2) * 5000 + 1 * (j 0).val = t.val * 5000 + (j 0).val; rw [e0]; omega
  | ⟨1, _⟩ => show win1_7.index t (1 : Fin 2) * 128 + 1 * (j 1).val = (j 1).val; rw [e1]; omega

/-- The array the region leaves: the node perceptron, row by row, of the arrays the region finds. -/
def node1 (c : Dev nD) : Mat 50000 128 :=
  nodeArr (blockNW (V c main_v70 : Mat 128 128) (V c main_v72 : Mat 128 128) (V c main_v73 : Mat 1 128)
    (V c main_v74 : Mat 128 128) (V c main_v75 : Mat 1 128)) (V c main_arg0 : Mat 50000 128) (V c main_v61 : Mat 50000 128)

/-- What point t writes back is block t of that array. -/
theorem flushed1 (c : Dev nD) (t : Fin cfg1.N) :
    (dat1 (F := Ideal) V c).flushed 7 t = ((cfg1.win 7).blk t).view.read (Elt Ideal) (node1 V c) := by
  show (cfg1.win 7).cut (grid1.coords t) ((dat1 V c).after 7 t) = _
  rw [after1_7, out1_7_eq, iblk1_0, iblk1_1, iblk1_2, iblk1_3, iblk1_4, iblk1_5, iblk1_6]
  refine (node_block (V c main_arg0 : Mat 50000 128) (V c main_v61 : Mat 50000 128) _ _ _ _ _ (emb1 t)
    (emb1_row t) (emb1_col t)).trans ?_
  exact (read1_7 c t (node1 V c)).symm

/-- Every index of the result array is in some point's block: the point that holds row r is r / 5000. -/
theorem cover1 (i : S50000x128.Idx) :
    ∃ t : Fin cfg1.N, (cfg1.win 7).flush t = true ∧ i ∈ ((cfg1.win 7).blk t).view.set := by
  have hN : cfg1.N = 10 := N_1
  have hi0 : (i 0).val < 50000 := (i 0).isLt
  have hi1 : (i 1).val < 128 := (i 1).isLt
  let t : Fin cfg1.N := ⟨(i 0).val / 5000, by rw [hN]; omega⟩
  obtain ⟨-, -, -, -, e0, e1, -⟩ := idx1 t
  refine ⟨t, flush1_7 t, ?_⟩
  show i ∈ ((View.whole main_v76).slice (win1_7.rect t)).set
  rw [View.set_slice_whole, Rect.mem_set_unit]
  intro a
  match a with
  | ⟨0, _⟩ =>
    show win1_7.index t (0 : Fin 2) * 5000 ≤ (i 0).val ∧ (i 0).val < win1_7.index t (0 : Fin 2) * 5000 + 5000
    rw [e0]; show (i 0).val / 5000 * 5000 ≤ (i 0).val ∧ (i 0).val < (i 0).val / 5000 * 5000 + 5000; omega
  | ⟨1, _⟩ =>
    show win1_7.index t (1 : Fin 2) * 128 ≤ (i 1).val ∧ (i 1).val < win1_7.index t (1 : Fin 2) * 128 + 128
    rw [e1]; omega

/-- The result array after the region. -/
theorem final1 (c : Dev nD) : (dat1 (F := Ideal) V c).arrAt 7 cfg1.N = node1 V c :=
  (dat1 V c).arrAt_eq_of_cover 7 (node1 V c) (fun t _ => flushed1 V c t) cover1

end Cert.KernelIdeal.Layer

end
-- ==== Proof.LibGraphHost.lean ====
/-
  Host-side forms of a graph layer read at an index (nothing here mentions a program):
  · the column of row numbers the host builds from row r of a 2×E array of index words — slice the row, drop the unit
    axis, add the table's length to the negative words, lay the words out as an E×1 column — at (e, 0) is the wrapped
    word of (r, e), and without the wrapping it is the word itself;
  · a band of k rows sliced out of a taller matrix at row o reads the matrix at row o + c;
  · two arrays laid side by side along the columns read the left one at a column below its width and the right one,
    its width less, past it.
-/
import Idealize.ShloMosaic.PureOps.Ideal
import Idealize.ShloMosaic.Lib.ValueIdx
import Idealize.ShloMosaic.Lib.Pipeline.Value
import proofs.«129725_j23012434772667_2_alg».proof.Proof.LibRowReductions

noncomputable section

namespace Cert.Lib.GraphHost

open Idealize.ShloMosaic Idealize.ShloMosaic.ValueIdx Cert.Lib.RowReductions

variable {α : Type}

/-! ## Index words -/

/-- Row r of a 2×E array of words, sliced out and with its unit axis dropped, at e. -/
theorem row_word {E : Nat} (ei : (⟨2, ![2, E]⟩ : Shape).Idx → α) (off : Fin 2 → Nat) (r : Fin 2)
    (hoff : off = ![r.val, 0])
    (hs : (⟨2, ![2, E]⟩ : Shape).Slices off ⟨2, ![1, E]⟩) (hc : (⟨2, ![1, E]⟩ : Shape).ShapeCasts ⟨1, ![E]⟩)
    (e : Fin E) :
    shapeCast ⟨1, ![E]⟩ (extractStridedSlice ⟨2, ![1, E]⟩ off ei hs) hc (ix1 e) = ei (ix2 r e) := by
  subst hoff
  refine (shapeCast_apply _ hc (ix1 e) (ix2 (0 : Fin 1) e) ?_).trans ?_
  · rw [Shape.rowMajor_val_two, Shape.rowMajor_val_one]
    show (0 : Nat) * E + e.val = e.val
    rw [Nat.zero_mul, Nat.zero_add]
  · refine extractStridedSlice_apply _ ei hs (ix2 (0 : Fin 1) e) (ix2 r e) fun a => ?_
    match a with
    | ⟨0, _⟩ => show r.val = r.val + 0; omega
    | ⟨1, _⟩ => show e.val = 0 + e.val; omega

/-- A vector of words laid out as an E×1 column reads the word. -/
theorem col_word {E w : Nat} (v : IVec ⟨1, ![E]⟩ w) (hb : (⟨1, ![E]⟩ : Shape).BroadcastsInDim ⟨2, ![E, 1]⟩ ![0])
    (e : Fin E) : broadcastInDim ⟨2, ![E, 1]⟩ ![0] hb v (ix2 e 0) = v (ix1 e) :=
  bcastInDim_col_apply v hb e

/-- The host's negative-index wrap of a vector of words, entry by entry: a word below zero has the table's length n
    added. -/
theorem wrap_word {E : Nat} (v : IVec ⟨1, ![E]⟩ 32) (n : BitVec 32)
    (hb0 : (⟨0, ![]⟩ : Shape).BroadcastsInDim ⟨1, ![E]⟩ ![]) (hb0' : (⟨0, ![]⟩ : Shape).BroadcastsInDim ⟨1, ![E]⟩ ![])
    (i : (⟨1, ![E]⟩ : Shape).Idx) :
    select (cmpi .slt v (broadcastInDim ⟨1, ![E]⟩ ![] hb0 (constantI ⟨0, ![]⟩ 32 0#32)))
        (addi v (broadcastInDim ⟨1, ![E]⟩ ![] hb0' (constantI ⟨0, ![]⟩ 32 n))) v i
      = Scalar.select (IntOp.cmpi .slt (v i) 0#32) (IntOp.addi (v i) n) (v i) := rfl

/-! ## Bands of rows and side-by-side columns -/

/-- A band of k rows sliced out of an r×n matrix at row o, at (c, j), is the matrix at (o + c, j). -/
theorem band_rows_apply {r n k : Nat} (o : Nat) (W : (⟨2, ![r, n]⟩ : Shape).Idx → α)
    (hs : (⟨2, ![r, n]⟩ : Shape).Slices ![o, 0] ⟨2, ![k, n]⟩) (c : Fin k) (j : Fin n) (row : Fin r)
    (hrow : row.val = o + c.val) :
    extractStridedSlice ⟨2, ![k, n]⟩ ![o, 0] W hs (ix2 c j) = W (ix2 row j) :=
  extractStridedSlice_apply _ W hs (ix2 c j) (ix2 row j) fun a => by
    match a with
    | ⟨0, _⟩ => exact hrow
    | ⟨1, _⟩ => show j.val = 0 + j.val; omega

/-- A band of k columns sliced out of an n×N array at column o, at (p, q), is the array at (p, o + q). -/
theorem band_cols_apply {n N k : Nat} (o : Nat) (Z : (⟨2, ![n, N]⟩ : Shape).Idx → α)
    (hs : (⟨2, ![n, N]⟩ : Shape).Slices ![0, o] ⟨2, ![n, k]⟩) (p : Fin n) (q : Fin k) (col : Fin N)
    (hcol : col.val = o + q.val) :
    extractStridedSlice ⟨2, ![n, k]⟩ ![0, o] Z hs (ix2 p q) = Z (ix2 p col) :=
  extractStridedSlice_apply _ Z hs (ix2 p q) (ix2 p col) fun a => by
    match a with
    | ⟨0, _⟩ => show p.val = 0 + p.val; omega
    | ⟨1, _⟩ => exact hcol

/-- Two arrays side by side along the columns, at a column of the left one. -/
theorem beside_left {n a b t : Nat} (X : (⟨2, ![n, a]⟩ : Shape).Idx → α) (Y : (⟨2, ![n, b]⟩ : Shape).Idx → α)
    (h : Shape.Concatenates [(⟨2, ![n, a]⟩ : Shape), ⟨2, ![n, b]⟩] ⟨2, ![n, t]⟩ (1 : Fin 2))
    (p : Fin n) (q : Fin a) (col : Fin t) (hcol : col.val = q.val) :
    concatenate ⟨2, ![n, t]⟩ (1 : Fin 2) [⟨⟨2, ![n, a]⟩, X⟩, ⟨⟨2, ![n, b]⟩, Y⟩] h (ix2 p col) = X (ix2 p q) :=
  concatenate_pair_apply_left (1 : Fin 2) X Y h (ix2 p col) rfl (ix2 p q) fun bb => by
    match bb with
    | ⟨0, _⟩ => rfl
    | ⟨1, _⟩ => exact hcol.symm

/-- Two arrays side by side along the columns, at a column of the right one. -/
theorem beside_right {n a b t : Nat} (X : (⟨2, ![n, a]⟩ : Shape).Idx → α) (Y : (⟨2, ![n, b]⟩ : Shape).Idx → α)
    (h : Shape.Concatenates [(⟨2, ![n, a]⟩ : Shape), ⟨2, ![n, b]⟩] ⟨2, ![n, t]⟩ (1 : Fin 2))
    (p : Fin n) (q : Fin b) (col : Fin t) (hcol : col.val = a + q.val) :
    concatenate ⟨2, ![n, t]⟩ (1 : Fin 2) [⟨⟨2, ![n, a]⟩, X⟩, ⟨⟨2, ![n, b]⟩, Y⟩] h (ix2 p col) = Y (ix2 p q) :=
  concatenate_pair_apply_right (1 : Fin 2) X Y h (ix2 p col) rfl rfl (ix2 p q)
    (fun bb hb => by
      match bb with
      | ⟨0, _⟩ => rfl
      | ⟨1, _⟩ => exact absurd rfl hb)
    (by show q.val + a = col.val; omega)

end Cert.Lib.GraphHost

end
-- ==== Proof.LibConcatCongr.lean ====
/-
  Concatenations with equal operands are equal. A concatenation takes, beside its list of operands, a proof about the
  operands' shapes, so a rewriting pass does not enter the operands by itself; these two congruences (two operands, four
  operands) let it. Nothing here mentions a program.
-/
import Idealize.ShloMosaic.Lib.Pipeline.Value

namespace Cert.Lib.ConcatCongr

open Idealize.ShloMosaic

/-- Two-operand concatenations with equal operands are equal. -/
theorem concatenate_pair_congr {α : Type} {t s₁ s₂ : Shape} (a : Fin t.rank) (x₁ : s₁.Idx → α) (x₂ : s₂.Idx → α)
    {x₁' : s₁.Idx → α} {x₂' : s₂.Idx → α}
    (h : Shape.Concatenates (([⟨s₁, x₁⟩, ⟨s₂, x₂⟩] : List ((s : Shape) × (s.Idx → α))).map (·.1)) t a)
    (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- Four-operand concatenations with equal operands are equal. -/
theorem concatenate_quad_congr {α : Type} {t s₁ s₂ s₃ s₄ : Shape} (a : Fin t.rank)
    (x₁ : s₁.Idx → α) (x₂ : s₂.Idx → α) (x₃ : s₃.Idx → α) (x₄ : s₄.Idx → α)
    {x₁' : s₁.Idx → α} {x₂' : s₂.Idx → α} {x₃' : s₃.Idx → α} {x₄' : s₄.Idx → α}
    (h : Shape.Concatenates (([⟨s₁, x₁⟩, ⟨s₂, x₂⟩, ⟨s₃, x₃⟩, ⟨s₄, x₄⟩] : List ((s : Shape) × (s.Idx → α))).map (·.1)) t a)
    (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h
      = concatenate t a [⟨s₁, x₁'⟩, ⟨s₂, x₂'⟩, ⟨s₃, x₃'⟩, ⟨s₄, x₄'⟩] h := by
  subst e₁ e₂ e₃ e₄; rfl

end Cert.Lib.ConcatCongr
-- ==== Proof.KHost0.lean ====
/-
  The host operations before the edge kernel, read at an index at any buffer contents Wv. Each of the edge kernel's
  nineteen operands is a plain re-laying of the argument arrays: the rows of the node features (beside the time features)
  selected by the source words and the target words of the edges, the difference of the two selected coordinate rows, the
  edge features, the five bands of rows of the first layer's matrix, the other matrices, and every bias as a 1×n row.
-/
import proofs.«129725_j23012434772667_2_alg».proof.Proof.Gen.KernelIdeal.Launch
import proofs.«129725_j23012434772667_2_alg».proof.Proof.Spec
import proofs.«129725_j23012434772667_2_alg».proof.Proof.LibGraphHost
import proofs.«129725_j23012434772667_2_alg».proof.Proof.LibRowGather
import proofs.«129725_j23012434772667_2_alg».proof.Proof.LibRowReductions
import proofs.«129725_j23012434772667_2_alg».proof.Proof.LibConcatCongr
import Idealize.ShloMosaic.Lib.StableHlo.Run
import Idealize.ShloMosaic.Lib.Pipeline.Value
import Idealize.ShloMosaic.Lib.ValueIdx

set_option maxRecDepth 16384

open scoped BigOperators

noncomputable section

namespace Cert.KernelIdeal.Layer

open Cert.KernelIdeal Cert.KernelIdeal.Gen Cert.Egnn
open Idealize.ShloMosaic Idealize.ShloMosaic.TcCoe Idealize.ShloMosaic.ValueIdx Idealize.ShloMosaic.StableHlo
open Cert.Lib.GraphHost Cert.Lib.RowReductions Cert.Lib.RowGather

/-! ## The forms, over arrays -/

/-- Row r of the index words as a vector. -/
def wordsRow (ei : IVec S2x800000 32) (off : Fin 2 → Nat) (hs : S2x800000.Slices off S1x800000) : IVec S800000 32 :=
  shapeCast S800000 (extractStridedSlice S1x800000 off ei hs) shapeCasts_S1x800000_S800000

/-- A vector of index words wrapped (a negative word counted from the table's end) and laid out as a column. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

theorem wordsRow_apply (ei : IVec S2x800000 32) (off : Fin 2 → Nat) (r : Fin 2) (hoff : off = ![r.val, 0])
    (hs : S2x800000.Slices off S1x800000) (e : Fin 800000) : wordsRow ei off hs (ix1 e) = ei (ix2 r e) :=
  row_word ei off r hoff hs shapeCasts_S1x800000_S800000 e

theorem wrapCol_apply (v : IVec S800000 32) (e : Fin 800000) : wrapCol v (ix2 e 0) = wrapW (v (ix1 e)) :=
  (col_word _ bcast_S800000_S800000x1_0 e).trans (wrap_word v 50000#32 bcast_S_S800000 bcast_S_S800000 (ix1 e))

abbrev srcCol (ei : IVec S2x800000 32) : IVec S800000x1 32 := wrapCol (wordsRow ei ![0, 0] slices_S2x800000_S1x800000_0_0)
abbrev dstCol (ei : IVec S2x800000 32) : IVec S800000x1 32 := wrapCol (wordsRow ei ![1, 0] slices_S2x800000_S1x800000_1_0)

theorem srcCol_apply (ei : IVec S2x800000 32) (e : Fin 800000) : srcCol ei (ix2 e 0) = wrapW (ei (ix2 0 e)) :=
  (wrapCol_apply _ e).trans (congrArg wrapW (wordsRow_apply ei _ 0 rfl slices_S2x800000_S1x800000_0_0 e))
theorem dstCol_apply (ei : IVec S2x800000 32) (e : Fin 800000) : dstCol ei (ix2 e 0) = wrapW (ei (ix2 1 e)) :=
  (wrapCol_apply _ e).trans (congrArg wrapW (wordsRow_apply ei _ 1 rfl slices_S2x800000_S1x800000_1_0 e))

/-- The three row gathers at an entry: the table's row that the wrapped word selects. -/
theorem gather3_apply (x : FVec Ideal S50000x3 .f32) (col : IVec S800000x1 32) (e : Fin 800000) (k : Fin 3) :
    Host.gather gather_S50000x3_S800000x1_S800000x3_1_0_n_n_0_1_13 x col (ix2 e k)
      = x (ix2 (rowOf 50000 (by decide) (col (ix2 e 0))) k) :=
  gather_rows_apply (by decide) gather_S50000x3_S800000x1_S800000x3_1_0_n_n_0_1_13_wf x col e k
theorem gather128_apply (x : FVec Ideal S50000x128 .bf16) (col : IVec S800000x1 32) (e : Fin 800000) (k : Fin 128) :
    Host.gather gather_S50000x128_S800000x1_S800000x128_1_0_n_n_0_1_1128 x col (ix2 e k)
      = x (ix2 (rowOf 50000 (by decide) (col (ix2 e 0))) k) :=
  gather_rows_apply (by decide) gather_S50000x128_S800000x1_S800000x128_1_0_n_n_0_1_1128_wf x col e k
theorem gather192_apply (x : FVec Ideal S50000x192 .bf16) (col : IVec S800000x1 32) (e : Fin 800000) (k : Fin 192) :
    Host.gather gather_S50000x192_S800000x1_S800000x192_1_0_n_n_0_1_1192 x col (ix2 e k)
      = x (ix2 (rowOf 50000 (by decide) (col (ix2 e 0))) k) :=
  gather_rows_apply (by decide) gather_S50000x192_S800000x1_S800000x192_1_0_n_n_0_1_1192_wf x col e k

/-- The node features beside the time features, 192 columns. -/
def hte (h : FVec Ideal S50000x128 .f32) (te : FVec Ideal S50000x64 .f32) : FVec Ideal S50000x192 .bf16 :=
  truncf .bf16 (concatenate S50000x192 1 [⟨S50000x128, h⟩, ⟨S50000x64, te⟩] concatenates_S50000x128_S50000x64_S50000x192_d1)
    bitsLt_bf16_f32

theorem hte_left (h : FVec Ideal S50000x128 .f32) (te : FVec Ideal S50000x64 .f32) (n : Fin 50000) (q : Fin 128)
    (col : Fin 192) (hcol : col.val = q.val) : hte h te (ix2 n col) = h (ix2 n q) :=
  beside_left h te concatenates_S50000x128_S50000x64_S50000x192_d1 n q col hcol
theorem hte_right (h : FVec Ideal S50000x128 .f32) (te : FVec Ideal S50000x64 .f32) (n : Fin 50000) (q : Fin 64)
    (col : Fin 192) (hcol : col.val = 128 + q.val) : hte h te (ix2 n col) = te (ix2 n q) :=
  beside_right h te concatenates_S50000x128_S50000x64_S50000x192_d1 n q col hcol

/-! ## The edge kernel's operands after the first host stretch -/

attribute [local congr] Cert.Lib.ConcatCongr.concatenate_pair_congr

variable (Wv : Valuation τ sig (Elt Ideal))

/-- The argument arrays as a valuation holds them. -/
def argsW : Args where
  h := (Wv (Proc.devRef .tc main_arg0) : FVec Ideal S50000x128 .f32)
  x := (Wv (Proc.devRef .tc main_arg1) : FVec Ideal S50000x3 .f32)
  ea := (Wv (Proc.devRef .tc main_arg2) : FVec Ideal S800000x8 .f32)
  te := (Wv (Proc.devRef .tc main_arg3) : FVec Ideal S50000x64 .f32)
  W1 := (Wv (Proc.devRef .tc main_arg4) : FVec Ideal S329x128 .f32)
  b1 := (Wv (Proc.devRef .tc main_arg5) : FVec Ideal S128 .f32)
  W2 := (Wv (Proc.devRef .tc main_arg6) : FVec Ideal S128x128 .f32)
  b2 := (Wv (Proc.devRef .tc main_arg7) : FVec Ideal S128 .f32)
  Watt := (Wv (Proc.devRef .tc main_arg8) : FVec Ideal S128x1 .f32)
  batt := (Wv (Proc.devRef .tc main_arg9) : FVec Ideal S1 .f32)
  Wx1 := (Wv (Proc.devRef .tc main_arg10) : FVec Ideal S128x128 .f32)
  bx1 := (Wv (Proc.devRef .tc main_arg11) : FVec Ideal S128 .f32)
  Wx2 := (Wv (Proc.devRef .tc main_arg12) : FVec Ideal S128x1 .f32)
  bx2 := (Wv (Proc.devRef .tc main_arg13) : FVec Ideal S1 .f32)
  Wh1 := (Wv (Proc.devRef .tc main_arg14) : FVec Ideal S256x128 .f32)
  bh1 := (Wv (Proc.devRef .tc main_arg15) : FVec Ideal S128 .f32)
  Wh2 := (Wv (Proc.devRef .tc main_arg16) : FVec Ideal S128x128 .f32)
  bh2 := (Wv (Proc.devRef .tc main_arg17) : FVec Ideal S128 .f32)
  ei := (Wv (Proc.devRef .tc main_arg18) : IVec S2x800000 32)

local notation "A₀" => argsW Wv
local notation "H₀" => StableHlo.after (hostOps0 (F := Ideal)) Wv

theorem op0 (e : Fin 800000) (q : Fin 128) :
    ((H₀ (Proc.devRef .tc main_v29) : FVec Ideal S800000x128 .bf16) (ix2 e q) : EReal) = (A₀).h (ix2 ((A₀).srcR e) q) := by
  after_results_simp
  refine (band_cols_apply 0 _ slices_S800000x192_S800000x128_0_0 e q ⟨q.val, by have := q.isLt; omega⟩ (by simp)).trans ?_
  refine (gather192_apply _ _ e _).trans ?_
  refine (hte_left _ _ _ q _ rfl).trans ?_
  exact congrArg (fun r => (A₀).h (ix2 r q)) (congrArg (rowOf 50000 (by decide)) (srcCol_apply _ e))

theorem op4 (e : Fin 800000) (q : Fin 64) :
    ((H₀ (Proc.devRef .tc main_v30) : FVec Ideal S800000x64 .bf16) (ix2 e q) : EReal) = (A₀).te (ix2 ((A₀).srcR e) q) := by
  after_results_simp
  refine (band_cols_apply 128 _ slices_S800000x192_S800000x64_0_128 e q ⟨128 + q.val, by have := q.isLt; omega⟩ rfl).trans ?_
  refine (gather192_apply _ _ e _).trans ?_
  refine (hte_right _ _ _ q _ rfl).trans ?_
  exact congrArg (fun r => (A₀).te (ix2 r q)) (congrArg (rowOf 50000 (by decide)) (srcCol_apply _ e))

theorem op1 (e : Fin 800000) (q : Fin 128) :
    ((H₀ (Proc.devRef .tc main_v37) : FVec Ideal S800000x128 .bf16) (ix2 e q) : EReal) = (A₀).h (ix2 ((A₀).dstR e) q) := by
  after_results_simp
  refine (gather128_apply _ _ e q).trans ?_
  exact congrArg (fun r => (A₀).h (ix2 r q)) (congrArg (rowOf 50000 (by decide)) (dstCol_apply _ e))

theorem op2 (e : Fin 800000) (k : Fin 3) :
    ((H₀ (Proc.devRef .tc main_v18) : FVec Ideal S800000x3 .f32) (ix2 e k) : EReal) = ((A₀).edgeIn e).df k := by
  after_results_simp
  refine (subf_apply _ _ _).trans ?_
  refine congrArg₂ (fun a b : EReal => a - b) ((gather3_apply _ _ e k).trans ?_) ((gather3_apply _ _ e k).trans ?_)
  · exact congrArg (fun r => (A₀).x (ix2 r k)) (congrArg (rowOf 50000 (by decide)) (srcCol_apply _ e))
  · exact congrArg (fun r => (A₀).x (ix2 r k)) (congrArg (rowOf 50000 (by decide)) (dstCol_apply _ e))

theorem op3 (e : Fin 800000) (q : Fin 8) :
    ((H₀ (Proc.devRef .tc main_v38) : FVec Ideal S800000x8 .bf16) (ix2 e q) : EReal) = (A₀).ea (ix2 e q) := by
  after_results_simp
  rfl

theorem op5 (c : Fin 128) (j : Fin 128) :
    ((H₀ (Proc.devRef .tc main_v40) : FVec Ideal S128x128 .bf16) (ix2 c j) : EReal) = (A₀).edgeW.Wa (ix2 c j) := by
  after_results_simp
  exact band_rows_apply 0 _ slices_S329x128_S128x128_0_0 c j (band 0 329 (by decide) c) rfl

theorem op6 (c : Fin 128) (j : Fin 128) :
    ((H₀ (Proc.devRef .tc main_v42) : FVec Ideal S128x128 .bf16) (ix2 c j) : EReal) = (A₀).edgeW.Wb (ix2 c j) := by
  after_results_simp
  exact band_rows_apply 128 _ slices_S329x128_S128x128_128_0 c j (band 128 329 (by decide) c) rfl

theorem op7 (j : Fin 128) :
    ((H₀ (Proc.devRef .tc main_v43) : FVec Ideal S1x128 .f32) (ix2 0 j) : EReal) = (A₀).edgeW.Wc (ix2 0 j) := by
  after_results_simp
  exact band_rows_apply 256 _ slices_S329x128_S1x128_256_0 (0 : Fin 1) j ⟨256, by decide⟩ rfl

theorem op8 (c : Fin 8) (j : Fin 128) :
    ((H₀ (Proc.devRef .tc main_v45) : FVec Ideal S8x128 .bf16) (ix2 c j) : EReal) = (A₀).edgeW.Wd (ix2 c j) := by
  after_results_simp
  exact band_rows_apply 257 _ slices_S329x128_S8x128_257_0 c j (band 257 329 (by decide) c) rfl

theorem op9 (c : Fin 64) (j : Fin 128) :
    ((H₀ (Proc.devRef .tc main_v47) : FVec Ideal S64x128 .bf16) (ix2 c j) : EReal) = (A₀).edgeW.We (ix2 c j) := by
  after_results_simp
  exact band_rows_apply 265 _ slices_S329x128_S64x128_265_0 c j (band 265 329 (by decide) c) rfl

theorem op10 (j : Fin 128) :
    ((H₀ (Proc.devRef .tc main_v48) : FVec Ideal S1x128 .f32) (ix2 0 j) : EReal) = (A₀).edgeW.b1 (ix2 0 j) := by
  after_results_simp
  exact shapeCast_rowvec_apply _ shapeCasts_S128_S1x128 j

theorem op11 : (H₀ (Proc.devRef .tc main_v49) : FVec Ideal S128x128 .bf16) = (A₀).edgeW.W2 := by
  after_results_simp
  rfl

theorem op12 (j : Fin 128) :
    ((H₀ (Proc.devRef .tc main_v50) : FVec Ideal S1x128 .f32) (ix2 0 j) : EReal) = (A₀).edgeW.b2 (ix2 0 j) := by
  after_results_simp
  exact shapeCast_rowvec_apply _ shapeCasts_S128_S1x128 j

theorem op13 : (H₀ (Proc.devRef .tc main_v51) : FVec Ideal S128x1 .bf16) = (A₀).edgeW.Watt := by
  after_results_simp
  rfl

theorem op14 :
    ((H₀ (Proc.devRef .tc main_v52) : FVec Ideal S1x1 .f32) (ix2 0 0) : EReal) = (A₀).edgeW.batt (ix2 0 0) := by
  after_results_simp
  exact shapeCast_rowvec_apply _ shapeCasts_S1_S1x1 (0 : Fin 1)

theorem op15 : (H₀ (Proc.devRef .tc main_v53) : FVec Ideal S128x128 .bf16) = (A₀).edgeW.Wx1 := by
  after_results_simp
  rfl

theorem op16 (j : Fin 128) :
    ((H₀ (Proc.devRef .tc main_v54) : FVec Ideal S1x128 .f32) (ix2 0 j) : EReal) = (A₀).edgeW.bx1 (ix2 0 j) := by
  after_results_simp
  exact shapeCast_rowvec_apply _ shapeCasts_S128_S1x128 j

theorem op17 : (H₀ (Proc.devRef .tc main_v55) : FVec Ideal S128x1 .bf16) = (A₀).edgeW.Wx2 := by
  after_results_simp
  rfl

theorem op18 :
    ((H₀ (Proc.devRef .tc main_v56) : FVec Ideal S1x1 .f32) (ix2 0 0) : EReal) = (A₀).edgeW.bx2 (ix2 0 0) := by
  after_results_simp
  exact shapeCast_rowvec_apply _ shapeCasts_S1_S1x1 (0 : Fin 1)

/-- The target words of the edges, unwrapped, as the scatter after the kernel reads them. -/
theorem op_dst (e : Fin 800000) :
    ((H₀ (Proc.devRef .tc main_v3) : IVec S800000 32) (ix1 e)).toInt = (A₀).dstI e := by
  after_results_simp
  exact congrArg BitVec.toInt (wordsRow_apply _ _ 1 rfl slices_S2x800000_S1x800000_1_0 e)

/-- The first host stretch writes no argument array. -/
theorem op_arg0 : H₀ (Proc.devRef .tc main_arg0) = Wv (Proc.devRef .tc main_arg0) := by
  after_results_simp
theorem op_arg1 : H₀ (Proc.devRef .tc main_arg1) = Wv (Proc.devRef .tc main_arg1) := by
  after_results_simp
theorem op_arg14 : H₀ (Proc.devRef .tc main_arg14) = Wv (Proc.devRef .tc main_arg14) := by
  after_results_simp
theorem op_arg15 : H₀ (Proc.devRef .tc main_arg15) = Wv (Proc.devRef .tc main_arg15) := by
  after_results_simp
theorem op_arg16 : H₀ (Proc.devRef .tc main_arg16) = Wv (Proc.devRef .tc main_arg16) := by
  after_results_simp
theorem op_arg17 : H₀ (Proc.devRef .tc main_arg17) = Wv (Proc.devRef .tc main_arg17) := by
  after_results_simp

end Cert.KernelIdeal.Layer

end
-- ==== Proof.LibScatterRows.lean ====
/-
  A host scatter whose every update is one row of D entries, addressed by a one-component index: the operand is
  an N×D array, there are M update rows, and row r of the updates is aimed at the operand row whose number is the
  signed reading of index word r; its entry q goes to entry q of that row. An update row whose number is outside
  0 … N − 1 is dropped. Here: update (r, q) lands on element (p, q') exactly when index word r reads p and q = q';
  and, on the extended reals with an add body, the result at (p, q') is the operand's element plus the sum of the
  update entries (r, q') over the rows r whose index word reads p.
-/
import Idealize.ShloMosaic.PureOps.Ideal
import Idealize.ShloMosaic.PureOps.Ideal.Laws
import Idealize.ShloMosaic.Lib.ValueIdx

noncomputable section

namespace Cert.Lib.ScatterRows

open Idealize.ShloMosaic Idealize.ShloMosaic.ValueIdx

variable {N M D w : Nat}

/-- The dimension numbers of such a scatter: axis 1 of the updates is the window axis (a row's entries), the
    operand's axis 0 is inserted and addressed by component 0 of the index vector, the index vector along axis 1. -/
abbrev dims (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ :=
  ScatterDims.mk [1] [0] [0] 1 wf

/-- Update (r, q) reads its index at row r of the M×1 index array. -/
theorem siIdx_eq (wf : ScatterDims.WF ⟨2, ![N, D]⟩ ⟨2, ![M, 1]⟩ ⟨2, ![M, D]⟩ [1] [0] [0] 1)
    (j : (⟨2, ![M, D]⟩ : Shape).Idx) (c : Fin (dims wf).scatterDimsToOperandDims.length) :
    (dims wf).siIdx j c = ix2 (⟨(j 0).val, idx2_lt0 j⟩ : Fin M) (0 : Fin 1) := by
  funext b
  apply Fin.ext
  match b with
  | ⟨0, _⟩ => rfl
  | ⟨1, _⟩ =>
    have : c.val < 1 := c.isLt
    have : c.val = 0 := by omega
    show c.val = 0
    exact this

/-- On the operand's row axis the start of update (r, q) is the signed reading of index word r. -/
theorem start_zero (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) :
    (dims wf).start j idx (0 : Fin 2) = (idx (ix2 (⟨(j 0).val, idx2_lt0 j⟩ : Fin M) (0 : Fin 1))).toInt := by
  unfold ScatterDims.start
  have ha : (0 : Fin 2) ∈ ([0] : List (Fin 2)) := List.mem_singleton_self _
  rw [dif_pos ha]
  exact congrArg (fun k => (idx k).toInt) (siIdx_eq wf j _)

/-- On the operand's entry axis, which no index component names, the start is 0. -/
theorem start_one (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) :
    (dims wf).start j idx (1 : Fin 2) = 0 := by
  unfold ScatterDims.start
  rw [dif_neg (show (1 : Fin 2) ∉ ([0] : List (Fin 2)) from by decide)]

/-- An update has no extent along the operand's row axis. -/
theorem window_zero (wf : ScatterDims.WF ⟨2, ![N, D]⟩ ⟨2, ![M, 1]⟩ ⟨2, ![M, D]⟩ [1] [0] [0] 1)
    (j : (⟨2, ![M, D]⟩ : Shape).Idx) : (dims wf).window j (0 : Fin 2) = 0 := by
  unfold ScatterDims.window
  rw [dif_neg]
  show (0 : Fin 2) ∉ (List.finRange 2).filter (· ∉ ([0] : List (Fin 2)))
  decide

/-- Along the operand's entry axis the window coordinate of update (r, q) is q. -/
theorem window_one (wf : ScatterDims.WF ⟨2, ![N, D]⟩ ⟨2, ![M, 1]⟩ ⟨2, ![M, D]⟩ [1] [0] [0] 1)
    (j : (⟨2, ![M, D]⟩ : Shape).Idx) : (dims wf).window j (1 : Fin 2) = (j 1).val := by
  unfold ScatterDims.window
  have h1 : (1 : Fin 2) ∈ (dims wf).sKept := by
    show (1 : Fin 2) ∈ (List.finRange 2).filter (· ∉ ([0] : List (Fin 2)))
    decide
  rw [dif_pos h1]
  rfl

/-- Update (r, q) lands on element (p, q') exactly when the index word of row r, read signed, is p, and q = q'. -/
theorem resultIdx_iff (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) (i : (⟨2, ![N, D]⟩ : Shape).Idx) :
    (dims wf).resultIdx? j idx = some i ↔
      (idx (ix2 (⟨(j 0).val, idx2_lt0 j⟩ : Fin M) (0 : Fin 1))).toInt = ((i 0).val : Int) ∧ (j 1).val = (i 1).val := by
  unfold ScatterDims.resultIdx?
  have hlt0 : (i 0).val < N := idx2_lt0 i
  have hlt1 : (i 1).val < D := idx2_lt1 i
  have hj1 : (j 1).val < D := idx2_lt1 j
  constructor
  · intro h
    split_ifs at h with hc
    have h0 : ((dims wf).start j idx 0 + ((dims wf).window j 0 : Nat)).toNat = (i 0).val :=
      congrArg (fun k => (k 0).val) (Option.some.inj h)
    have h1 : ((dims wf).start j idx 1 + ((dims wf).window j 1 : Nat)).toNat = (i 1).val :=
      congrArg (fun k => (k 1).val) (Option.some.inj h)
    have hc0 := hc 0
    rw [start_zero, window_zero] at hc0 h0
    rw [start_one, window_one] at h1
    constructor
    · omega
    · omega
  · rintro ⟨h, hq⟩
    have hc : ∀ a : Fin 2, 0 ≤ (dims wf).start j idx a + ((dims wf).window j a : Nat)
        ∧ (dims wf).start j idx a + ((dims wf).window j a : Nat) < ((⟨2, ![N, D]⟩ : Shape).size a : Nat) := fun a => by
      match a with
      | ⟨0, _⟩ =>
        show 0 ≤ (dims wf).start j idx (0 : Fin 2) + ((dims wf).window j (0 : Fin 2) : Nat)
          ∧ (dims wf).start j idx (0 : Fin 2) + ((dims wf).window j (0 : Fin 2) : Nat) < (N : Int)
        rw [start_zero, window_zero, h]
        omega
      | ⟨1, _⟩ =>
        show 0 ≤ (dims wf).start j idx (1 : Fin 2) + ((dims wf).window j (1 : Fin 2) : Nat)
          ∧ (dims wf).start j idx (1 : Fin 2) + ((dims wf).window j (1 : Fin 2) : Nat) < (D : Int)
        rw [start_one, window_one]
        omega
    rw [dif_pos hc]
    congr 1
    funext a
    apply Fin.ext
    match a with
    | ⟨0, _⟩ =>
      show ((dims wf).start j idx (0 : Fin 2) + ((dims wf).window j (0 : Fin 2) : Nat)).toNat = (i 0).val
      rw [start_zero, window_zero, h]
      omega
    | ⟨1, _⟩ =>
      show ((dims wf).start j idx (1 : Fin 2) + ((dims wf).window j (1 : Fin 2) : Nat)).toNat = (i 1).val
      rw [start_one, window_one]
      omega

/-- The accumulating scatter at element (p, q'): the operand's element plus the update entries (r, q) with q = q'
    whose row's index word reads p. -/
theorem scatterAdd_apply (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (i : (⟨2, ![N, D]⟩ : Shape).Idx) :
    Ideal.hostScatterAdd (dims wf) x idx upd i
      = x i + ∑ j : (⟨2, ![M, D]⟩ : Shape).Idx,
          if (idx (ix2 (⟨(j 0).val, idx2_lt0 j⟩ : Fin M) (0 : Fin 1))).toInt = ((i 0).val : Int) ∧ (j 1).val = (i 1).val
          then upd j else 0 := by
  unfold Ideal.hostScatterAdd
  rw [Finset.sum_filter]
  congr 1
  refine Finset.sum_congr rfl fun j _ => ?_
  simp only [resultIdx_iff]

end Cert.Lib.ScatterRows

end
-- ==== Proof.LibScatterSeg.lean ====
/-
  The host's accumulating scatter of rows read as a sum over the update rows: with operand N×D, indices M×1 and updates
  M×D, the result at (n, q) is the operand's entry plus the sum, over the update rows e whose index word read signed is
  n, of the update's entry (e, q). (The double sum over update elements collapses along the row: only column q of an
  update row lands on column q.)
-/
import Idealize.ShloMosaic.PureOps.Ideal
import Idealize.ShloMosaic.PureOps.Ideal.Laws
import Idealize.ShloMosaic.Lib.ValueIdx
import proofs.«129725_j23012434772667_2_alg».proof.Proof.LibScatterRows

open scoped BigOperators

noncomputable section

namespace Cert.Lib.ScatterSeg

open Idealize.ShloMosaic Idealize.ShloMosaic.ValueIdx

variable {N M D w : Nat}

/-- The accumulating row scatter at (n, q): the operand's entry plus the sum over the update rows aimed at n. -/
theorem scatterAdd_seg (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (q : Fin D) :
    Ideal.hostScatterAdd (Cert.Lib.ScatterRows.dims wf) x idx upd (ix2 n q)
      = x (ix2 n q) + ∑ e : Fin M, if (idx (ix2 e 0)).toInt = ((n.val : Nat) : Int) then upd (ix2 e q) else 0 := by
  rw [Cert.Lib.ScatterRows.scatterAdd_apply, sum_idx2]
  congr 1
  refine Finset.sum_congr rfl fun e _ => ?_
  by_cases h : (idx (ix2 e 0)).toInt = ((n.val : Nat) : Int)
  · rw [if_pos h]
    rw [Finset.sum_eq_single q]
    · have h' : (idx (ix2 (⟨((ix2 e q : (⟨2, ![M, D]⟩ : Shape).Idx) 0).val, idx2_lt0 _⟩ : Fin M) (0 : Fin 1))).toInt
          = (((ix2 n q : (⟨2, ![N, D]⟩ : Shape).Idx) 0).val : Int) := h
      exact if_pos ⟨h', rfl⟩
    · intro b _ hb
      refine if_neg fun hc => hb (Fin.ext ?_)
      exact hc.2
    · intro hq; exact absurd (Finset.mem_univ q) hq
  · rw [if_neg h]
    refine Finset.sum_eq_zero fun b _ => if_neg fun hc => h ?_
    exact hc.1

end Cert.Lib.ScatterSeg

end
-- ==== Proof.KHost1.lean ====
/-
  The host operations between the two kernels, read at an index at any buffer contents Wv: the one scatter-sum of the
  edge kernel's 132-column result by the target words gives, for node n, in column q the sum over the edges aimed at n of
  the edge's entry q; its first 128 columns are the aggregated messages, the next three over (the last plus one) added to
  the coordinates are the new coordinates; the node perceptron's weights are the two halves of the tall matrix and the
  biases as rows.
-/
import proofs.«129725_j23012434772667_2_alg».proof.Proof.Gen.KernelIdeal.Launch
import proofs.«129725_j23012434772667_2_alg».proof.Proof.Spec
import proofs.«129725_j23012434772667_2_alg».proof.Proof.LibScatterSeg
import proofs.«129725_j23012434772667_2_alg».proof.Proof.LibGraphHost
import proofs.«129725_j23012434772667_2_alg».proof.Proof.LibRowReductions
import Idealize.ShloMosaic.Lib.StableHlo.Run
import Idealize.ShloMosaic.Lib.Pipeline.Value
import Idealize.ShloMosaic.Lib.ValueIdx

set_option maxRecDepth 16384

open scoped BigOperators

noncomputable section

namespace Cert.KernelIdeal.Layer

open Cert.KernelIdeal Cert.KernelIdeal.Gen Cert.Egnn
open Idealize.ShloMosaic Idealize.ShloMosaic.TcCoe Idealize.ShloMosaic.ValueIdx Idealize.ShloMosaic.StableHlo
open Cert.Lib.GraphHost Cert.Lib.RowReductions

/-! ## The forms, over arrays -/

/-- The scatter-sum of a 132-column array of per-edge rows by a vector of target words, into zeros. -/
def aggArr (x3 : IVec S800000 32) (x57 : FVec Ideal S800000x132 .f32) : FVec Ideal S50000x132 .f32 :=
  Host.scatterAdd (F := Ideal) scatter_S50000x132_S800000x1_S800000x132_1_0_0_1
    (broadcastInDim S50000x132 ![] bcast_S_S50000x132 (constant (F := Ideal) S_ .f32 0x00000000#32))
    (broadcastInDim S800000x1 ![0] bcast_S800000_S800000x1_0 x3) x57

/-- At (n, q): the sum over the edges whose target word reads n of the edge's entry q. -/
theorem aggArr_apply (x3 : IVec S800000 32) (x57 : FVec Ideal S800000x132 .f32) (n : Fin 50000) (q : Fin 132) :
    aggArr x3 x57 (ix2 n q)
      = ∑ e : Fin 800000, if (x3 (ix1 e)).toInt = ((n.val : Nat) : Int) then x57 (ix2 e q) else 0 := by
  have hfn : aggArr x3 x57
      = Ideal.hostScatterAdd (Cert.Lib.ScatterRows.dims scatter_S50000x132_S800000x1_S800000x132_1_0_0_1_wf)
          (broadcastInDim S50000x132 ![] bcast_S_S50000x132 (constant (F := Ideal) S_ .f32 0x00000000#32))
          (broadcastInDim S800000x1 ![0] bcast_S800000_S800000x1_0 x3) x57 := rfl
  rw [hfn, Cert.Lib.ScatterSeg.scatterAdd_seg, bcastInDim_scalar_apply]
  show Ideal.ofBits .f32 0x00000000#32 + _ = _
  rw [Ideal.ofBits_zero_f32, zero_add]
  refine Finset.sum_congr rfl fun e _ => ?_
  rw [col_word]

/-- The new coordinates from the coordinates and the scatter-sum. -/
def xoutArr (x1 : FVec Ideal S50000x3 .f32) (agg : FVec Ideal S50000x132 .f32) : FVec Ideal S50000x3 .f32 :=
  addf x1 (Host.divf (F := Ideal) (extractStridedSlice S50000x3 ![0, 128] agg slices_S50000x132_S50000x3_0_128)
    (broadcastInDim S50000x3 ![0, 1] bcast_S50000x1_S50000x3_0_1
      (addf (extractStridedSlice S50000x1 ![0, 131] agg slices_S50000x132_S50000x1_0_131)
        (broadcastInDim S50000x1 ![] bcast_S_S50000x1 (constant (F := Ideal) S_ .f32 0x3F800000#32)))))

theorem xoutArr_apply (x1 : FVec Ideal S50000x3 .f32) (agg : FVec Ideal S50000x132 .f32) (n : Fin 50000) (k : Fin 3) :
    xoutArr x1 agg (ix2 n k)
      = x1 (ix2 n k) + Ideal.div (agg (ix2 n ⟨128 + k.val, by have := k.isLt; omega⟩))
          (agg (ix2 n ⟨131, by decide⟩) + one) := by
  unfold xoutArr
  refine (addf_apply _ _ _).trans ?_
  refine congrArg (fun t => x1 (ix2 n k) + t) ?_
  show Ideal.div _ _ = _
  rw [band_cols_apply 128 agg slices_S50000x132_S50000x3_0_128 n k ⟨128 + k.val, by have := k.isLt; omega⟩ rfl,
    bcastInDim_cols_apply]
  refine congrArg (Ideal.div _) ?_
  refine (addf_apply _ _ _).trans ?_
  rw [band_cols_apply 131 agg slices_S50000x132_S50000x1_0_131 n (0 : Fin 1) ⟨131, by decide⟩ rfl,
    bcastInDim_scalar_apply]
  rfl

/-! ## The buffers after the second host stretch -/

variable (Wv : Valuation τ sig (Elt Ideal))

local notation "H₁" => StableHlo.after (hostOps1 (F := Ideal)) Wv

/-- The scatter-sum of the edge kernel's result. -/
def aggW : FVec Ideal S50000x132 .f32 :=
  aggArr (Wv (Proc.devRef .tc main_v3) : IVec S800000 32) (Wv (Proc.devRef .tc main_v57) : FVec Ideal S800000x132 .f32)

theorem mid_magg (n : Fin 50000) (c : Fin 128) :
    ((H₁ (Proc.devRef .tc main_v61) : FVec Ideal S50000x128 .f32) (ix2 n c) : EReal)
      = aggW Wv (ix2 n ⟨c.val, by have := c.isLt; omega⟩) := by
  after_results_simp
  exact band_cols_apply 0 _ slices_S50000x132_S50000x128_0_0 n c ⟨c.val, by have := c.isLt; omega⟩ (by simp)

theorem mid_xout :
    (H₁ (Proc.devRef .tc main_v68) : FVec Ideal S50000x3 .f32)
      = xoutArr (Wv (Proc.devRef .tc main_arg1) : FVec Ideal S50000x3 .f32) (aggW Wv) := by
  after_results_simp
  rfl

theorem mid_h : H₁ (Proc.devRef .tc main_arg0) = Wv (Proc.devRef .tc main_arg0) := by
  after_results_simp

theorem mid_w2 (c : Fin 128) (j : Fin 128) :
    ((H₁ (Proc.devRef .tc main_v70) : FVec Ideal S128x128 .bf16) (ix2 c j) : EReal)
      = (Wv (Proc.devRef .tc main_arg14) : FVec Ideal S256x128 .f32) (ix2 (band 0 256 (by decide) c) j) := by
  after_results_simp
  exact band_rows_apply 0 _ slices_S256x128_S128x128_0_0 c j (band 0 256 (by decide) c) rfl

theorem mid_w3 (c : Fin 128) (j : Fin 128) :
    ((H₁ (Proc.devRef .tc main_v72) : FVec Ideal S128x128 .bf16) (ix2 c j) : EReal)
      = (Wv (Proc.devRef .tc main_arg14) : FVec Ideal S256x128 .f32) (ix2 (band 128 256 (by decide) c) j) := by
  after_results_simp
  exact band_rows_apply 128 _ slices_S256x128_S128x128_128_0 c j (band 128 256 (by decide) c) rfl

theorem mid_b4 (j : Fin 128) :
    ((H₁ (Proc.devRef .tc main_v73) : FVec Ideal S1x128 .f32) (ix2 0 j) : EReal)
      = (Wv (Proc.devRef .tc main_arg15) : FVec Ideal S128 .f32) (ix1 j) := by
  after_results_simp
  exact shapeCast_rowvec_apply _ shapeCasts_S128_S1x128 j

theorem mid_w5 : (H₁ (Proc.devRef .tc main_v74) : FVec Ideal S128x128 .bf16)
    = (Wv (Proc.devRef .tc main_arg16) : FVec Ideal S128x128 .f32) := by
  after_results_simp
  rfl

theorem mid_b6 (j : Fin 128) :
    ((H₁ (Proc.devRef .tc main_v75) : FVec Ideal S1x128 .f32) (ix2 0 j) : EReal)
      = (Wv (Proc.devRef .tc main_arg17) : FVec Ideal S128 .f32) (ix1 j) := by
  after_results_simp
  exact shapeCast_rowvec_apply _ shapeCasts_S128_S1x128 j

end Cert.KernelIdeal.Layer

end
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«129725_j23012434772667_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.KFinal.lean ====
/-
  The idealized kernel program's two results as functions of the argument arrays: the last boundary's contents at the two
  result buffers, walked back through the node kernel's pipeline, the host operations between the kernels, the edge
  kernel's pipeline and the host operations before it, are the layer's new features and new coordinates.
-/
import proofs.«129725_j23012434772667_2_alg».proof.Proof.FrameKI
import proofs.«129725_j23012434772667_2_alg».proof.Proof.KRegion0
import proofs.«129725_j23012434772667_2_alg».proof.Proof.KRegion1
import proofs.«129725_j23012434772667_2_alg».proof.Proof.KHost0
import proofs.«129725_j23012434772667_2_alg».proof.Proof.KHost1
import proofs.«129725_j23012434772667_2_alg».proof.Proof.KComb
import proofs.«129725_j23012434772667_2_alg».proof.Proof.Spec
import proofs.«129725_j23012434772667_2_alg».proof.Proof.LibRowVector

set_option maxRecDepth 16384

open scoped BigOperators

noncomputable section

namespace Cert.Egnn

theorem EdgeW.ext' (w w' : EdgeW) (h1 : w.Wa = w'.Wa) (h2 : w.Wb = w'.Wb) (h3 : w.Wc = w'.Wc) (h4 : w.Wd = w'.Wd)
    (h5 : w.We = w'.We) (h6 : w.b1 = w'.b1) (h7 : w.W2 = w'.W2) (h8 : w.b2 = w'.b2) (h9 : w.Watt = w'.Watt)
    (h10 : w.batt = w'.batt) (h11 : w.Wx1 = w'.Wx1) (h12 : w.bx1 = w'.bx1) (h13 : w.Wx2 = w'.Wx2)
    (h14 : w.bx2 = w'.bx2) : w = w' := by
  cases w; cases w'; simp only [EdgeW.mk.injEq]
  exact ⟨h1, h2, h3, h4, h5, h6, h7, h8, h9, h10, h11, h12, h13, h14⟩

theorem EdgeIn.ext' (u u' : EdgeIn) (h1 : u.hs = u'.hs) (h2 : u.hd = u'.hd) (h3 : u.df = u'.df) (h4 : u.ea = u'.ea)
    (h5 : u.ts = u'.ts) : u = u' := by
  cases u; cases u'; simp only [EdgeIn.mk.injEq]
  exact ⟨h1, h2, h3, h4, h5⟩

theorem NodeW.ext' (w w' : NodeW) (h1 : w.Wa = w'.Wa) (h2 : w.Wb = w'.Wb) (h3 : w.b1 = w'.b1) (h4 : w.W2 = w'.W2)
    (h5 : w.b2 = w'.b2) : w = w' := by
  cases w; cases w'; simp only [NodeW.mk.injEq]
  exact ⟨h1, h2, h3, h4, h5⟩

end Cert.Egnn

namespace Cert.KernelIdeal.Layer

open Cert.KernelIdeal Cert.KernelIdeal.Gen Cert.KernelIdeal.GenP Cert.Egnn
open Idealize.ShloMosaic Idealize.ShloMosaic.TcCoe Idealize.ShloMosaic.ValueIdx Idealize.SL.Sem Idealize.ShloMosaic.StableHlo
open Cert.Lib.RowVector

variable (m : (ℓ : Loc nD τ sig) → Buf (Elt Ideal) ℓ) (ρ : Dev nD → PrngReg)

/-- The argument arrays at launch. -/
def argsOf (c : Dev nD) : Args := argsW (W0 m ρ c)

theorem idx11 (i : (⟨2, ![1, 1]⟩ : Shape).Idx) : i = ix2 0 0 := by
  funext a; apply Fin.ext
  match a with
  | ⟨0, _⟩ => have h : (i 0).val < 1 := (i 0).isLt; show (i 0).val = 0; omega
  | ⟨1, _⟩ => have h : (i 1).val < 1 := (i 1).isLt; show (i 1).val = 0; omega

/-! ## The edge kernel's operands and result -/

theorem regW_eq (c : Dev nD) : regW (V1 m ρ) c = (argsOf m ρ c).edgeW := by
  unfold regW blockW
  refine EdgeW.ext' _ _ ?_ ?_ ?_ ?_ ?_ ?_ ?_ ?_ ?_ ?_ ?_ ?_ ?_ ?_
  · dsimp only
    funext i; obtain ⟨a, b, rfl⟩ : ∃ (a : Fin 128) (b : Fin 128), i = ix2 a b := ⟨i 0, i 1, eq_ix2 i⟩
    exact op5 (W0 m ρ c) a b
  · dsimp only
    funext i; obtain ⟨a, b, rfl⟩ : ∃ (a : Fin 128) (b : Fin 128), i = ix2 a b := ⟨i 0, i 1, eq_ix2 i⟩
    exact op6 (W0 m ρ c) a b
  · dsimp only
    funext i; rw [idx_row i]; exact op7 (W0 m ρ c) (i 1)
  · dsimp only
    funext i; obtain ⟨a, b, rfl⟩ : ∃ (a : Fin 8) (b : Fin 128), i = ix2 a b := ⟨i 0, i 1, eq_ix2 i⟩
    exact op8 (W0 m ρ c) a b
  · dsimp only
    funext i; obtain ⟨a, b, rfl⟩ : ∃ (a : Fin 64) (b : Fin 128), i = ix2 a b := ⟨i 0, i 1, eq_ix2 i⟩
    exact op9 (W0 m ρ c) a b
  · dsimp only
    funext i; rw [idx_row i]; exact op10 (W0 m ρ c) (i 1)
  · dsimp only
    exact op11 (W0 m ρ c)
  · dsimp only
    funext i; rw [idx_row i]; exact op12 (W0 m ρ c) (i 1)
  · dsimp only
    exact op13 (W0 m ρ c)
  · dsimp only
    funext i; rw [idx11 i]; exact op14 (W0 m ρ c)
  · dsimp only
    exact op15 (W0 m ρ c)
  · dsimp only
    funext i; rw [idx_row i]; exact op16 (W0 m ρ c) (i 1)
  · dsimp only
    exact op17 (W0 m ρ c)
  · dsimp only
    funext i; rw [idx11 i]; exact op18 (W0 m ρ c)

theorem rowIn_eq (c : Dev nD) (e : Fin 800000) : rowIn (V1 m ρ) c e = (argsOf m ρ c).edgeIn e := by
  unfold rowIn
  refine EdgeIn.ext' _ _ ?_ ?_ ?_ ?_ ?_
  · dsimp only
    funext q; exact op0 (W0 m ρ c) e q
  · dsimp only
    funext q; exact op1 (W0 m ρ c) e q
  · dsimp only
    funext k; exact op2 (W0 m ρ c) e k
  · dsimp only
    funext q; exact op3 (W0 m ρ c) e q
  · dsimp only
    funext q; exact op4 (W0 m ρ c) e q

/-- The edge kernel's result array at the first region's exit: the 132-column row of every edge. -/
theorem comb_at (c : Dev nD) (e : Fin 800000) (q : Fin 132) :
    ((W2 m ρ c (Proc.devRef .tc main_v57) : FVec Ideal S800000x132 .f32) (ix2 e q) : EReal) = (argsOf m ρ c).comb e q := by
  have h : (W2 m ρ c (Proc.devRef .tc main_v57) : FVec Ideal S800000x132 .f32) = comb0 (V1 m ρ) c :=
    (W2_arr m ρ c 19).trans (final0 (V1 m ρ) c)
  rw [h]
  show (regW (V1 m ρ) c).comb (rowIn (V1 m ρ) c e) q = _
  rw [regW_eq, rowIn_eq]
  rfl

/-- The scatter-sum at the second stretch: for node n, column q, the sum over the edges aimed at n of the edge's entry. -/
theorem agg_at (c : Dev nD) (n : Fin 50000) (q : Fin 132) :
    aggW (W2 m ρ c) (ix2 n q) = (argsOf m ρ c).seg (fun e => (argsOf m ρ c).comb e q) n := by
  unfold aggW
  rw [aggArr_apply]
  unfold Args.seg
  refine Finset.sum_congr rfl fun e _ => ?_
  have h3 : ((W2 m ρ c (Proc.devRef .tc main_v3) : IVec S800000 32) (ix1 e)).toInt = (argsOf m ρ c).dstI e := by
    rw [W2_of_ne m ρ c main_v3 (by decide)]
    exact op_dst (W0 m ρ c) e
  rw [h3, comb_at]

/-! ## The new coordinates -/

theorem K_x (c : Dev nD) : (W4 m ρ c (Proc.devRef .tc main_v68) : FVec Ideal S50000x3 .f32) = (argsOf m ρ c).xout := by
  have h4 : W4 m ρ c (Proc.devRef .tc main_v68) = W3 m ρ c (Proc.devRef .tc main_v68) :=
    W4_of_ne m ρ c main_v68 (by decide)
  rw [h4]
  show (StableHlo.after (hostOps1 (F := Ideal)) (W2 m ρ c) (Proc.devRef .tc main_v68) : FVec Ideal S50000x3 .f32) = _
  rw [mid_xout]
  funext i
  obtain ⟨n, k, rfl⟩ : ∃ (n : Fin 50000) (k : Fin 3), i = ix2 n k := ⟨i 0, i 1, eq_ix2 i⟩
  rw [xoutArr_apply, agg_at, agg_at]
  have h1 : (W2 m ρ c (Proc.devRef .tc main_arg1) : FVec Ideal S50000x3 .f32) = (argsOf m ρ c).x := by
    rw [W2_of_ne m ρ c main_arg1 (by decide)]
    exact op_arg1 (W0 m ρ c)
  rw [h1]
  unfold Args.xout
  have hs : (fun e => (argsOf m ρ c).comb e ⟨128 + k.val, by have := k.isLt; omega⟩) = fun e => (argsOf m ρ c).shiftE e k :=
    funext fun e => EdgeW.comb_shift _ _ k _ rfl
  have ho : (fun e => (argsOf m ρ c).comb e ⟨131, by decide⟩) = fun _ => one := funext fun e => EdgeW.comb_one _ _ _ rfl
  rw [hs, ho]

/-! ## The new features -/

theorem magg_at (c : Dev nD) (n : Fin 50000) (q : Fin 128) :
    ((V3 m ρ c main_v61 : Mat 50000 128) (ix2 n q) : EReal) = (argsOf m ρ c).magg n q := by
  show ((StableHlo.after (hostOps1 (F := Ideal)) (W2 m ρ c) (Proc.devRef .tc main_v61) : FVec Ideal S50000x128 .f32)
    (ix2 n q) : EReal) = _
  rw [mid_magg, agg_at]
  unfold Args.magg
  exact congrArg (fun f => (argsOf m ρ c).seg f n) (funext fun e => EdgeW.comb_msg _ _ q _ rfl)

theorem feat_at (c : Dev nD) : (V3 m ρ c main_arg0 : Mat 50000 128) = (argsOf m ρ c).h := by
  show (StableHlo.after (hostOps1 (F := Ideal)) (W2 m ρ c) (Proc.devRef .tc main_arg0) : FVec Ideal S50000x128 .f32) = _
  rw [mid_h, W2_of_ne m ρ c main_arg0 (by decide)]
  exact op_arg0 (W0 m ρ c)

theorem nodeW_eq (c : Dev nD) :
    blockNW (V3 m ρ c main_v70 : Mat 128 128) (V3 m ρ c main_v72 : Mat 128 128) (V3 m ρ c main_v73 : Mat 1 128)
      (V3 m ρ c main_v74 : Mat 128 128) (V3 m ρ c main_v75 : Mat 1 128) = (argsOf m ρ c).nodeW := by
  have h14 : (W2 m ρ c (Proc.devRef .tc main_arg14) : FVec Ideal S256x128 .f32) = (argsOf m ρ c).Wh1 := by
    rw [W2_of_ne m ρ c main_arg14 (by decide)]; exact op_arg14 (W0 m ρ c)
  have h15 : (W2 m ρ c (Proc.devRef .tc main_arg15) : FVec Ideal S128 .f32) = (argsOf m ρ c).bh1 := by
    rw [W2_of_ne m ρ c main_arg15 (by decide)]; exact op_arg15 (W0 m ρ c)
  have h16 : (W2 m ρ c (Proc.devRef .tc main_arg16) : FVec Ideal S128x128 .f32) = (argsOf m ρ c).Wh2 := by
    rw [W2_of_ne m ρ c main_arg16 (by decide)]; exact op_arg16 (W0 m ρ c)
  have h17 : (W2 m ρ c (Proc.devRef .tc main_arg17) : FVec Ideal S128 .f32) = (argsOf m ρ c).bh2 := by
    rw [W2_of_ne m ρ c main_arg17 (by decide)]; exact op_arg17 (W0 m ρ c)
  unfold blockNW
  refine NodeW.ext' _ _ ?_ ?_ ?_ ?_ ?_
  · dsimp only
    funext i; obtain ⟨a, b, rfl⟩ : ∃ (a : Fin 128) (b : Fin 128), i = ix2 a b := ⟨i 0, i 1, eq_ix2 i⟩
    exact (mid_w2 (W2 m ρ c) a b).trans (congrFun h14 _)
  · dsimp only
    funext i; obtain ⟨a, b, rfl⟩ : ∃ (a : Fin 128) (b : Fin 128), i = ix2 a b := ⟨i 0, i 1, eq_ix2 i⟩
    exact (mid_w3 (W2 m ρ c) a b).trans (congrFun h14 _)
  · dsimp only
    funext i; rw [idx_row i]
    exact (mid_b4 (W2 m ρ c) (i 1)).trans (congrFun h15 _)
  · dsimp only
    exact (mid_w5 (W2 m ρ c)).trans h16
  · dsimp only
    funext i; rw [idx_row i]
    exact (mid_b6 (W2 m ρ c) (i 1)).trans (congrFun h17 _)

theorem K_h (c : Dev nD) : (W4 m ρ c (Proc.devRef .tc main_v76) : FVec Ideal S50000x128 .f32) = (argsOf m ρ c).hout := by
  have h : (W4 m ρ c (Proc.devRef .tc main_v76) : FVec Ideal S50000x128 .f32) = node1 (V3 m ρ) c :=
    (W4_arr m ρ c 7).trans (final1 (V3 m ρ) c)
  rw [h]
  unfold node1
  rw [nodeW_eq, feat_at]
  funext i
  unfold nodeArr Args.hout
  exact congrArg (fun f => (argsOf m ρ c).nodeW.out (fun c' => (argsOf m ρ c).h (ix2 (i 0) c')) f (i 1))
    (funext fun c' => magg_at m ρ c (i 0) c')

end Cert.KernelIdeal.Layer

end
-- ==== Proof.LibBiasSilu.lean ====
/-
  A bias row added to every row of a matrix, alone or followed by x ↦ x · σ(x) with σ the logistic function, on the
  extended reals: the two functions, the kernel body's spelling of each (the row re-shaped in place, broadcast down
  the rows, added; then the product with the logistic of the sum), the reference's spelling (the bias vector broadcast
  into a 1×k row and then into the n×k array, added; then the product with 1 / (1 + exp (−v)) written with broadcast
  ones), and the fact that an entry of either depends on one entry of the matrix. On the extended reals the logistic
  function IS 1 / (1 + exp (−v)), so nothing is asked of the entries. Nothing here mentions a program.
-/
import Idealize.ShloMosaic.PureOps.Ideal.Laws
import Idealize.ShloMosaic.Lib.ValueIdx
import Idealize.ShloMosaic.Lib.Pipeline.Value
import proofs.«129725_j23012434772667_2_alg».proof.Proof.LibBlockReads
import proofs.«129725_j23012434772667_2_alg».proof.Proof.LibRowVector

noncomputable section

namespace Cert.Lib.BiasSilu

open Idealize.ShloMosaic Idealize.ShloMosaic.ValueIdx Cert.Lib.RowVector

variable {n n' k : Nat}

/-- The word 0x3F800000 is the number one. -/
theorem one_f32 : Ideal.ofBits .f32 0x3F800000#32 = 1 := by
  simp [Ideal.ofBits, Ideal.ieee, -EReal.coe_mul]; norm_num

/-- x · σ(x). -/
def silu (v : EReal) : EReal := v * Ideal.logistic v

/-- Entry (p, q) is X(p, q) + b(0, q). -/
def biasAdd (X : (⟨2, ![n, k]⟩ : Shape).Idx → EReal) (b : (⟨2, ![1, k]⟩ : Shape).Idx → EReal) :
    (⟨2, ![n, k]⟩ : Shape).Idx → EReal :=
  fun i => X i + b (ix2 (0 : Fin 1) (⟨(i 1).val, idx2_lt1 i⟩ : Fin k))

theorem biasAdd_apply (X : (⟨2, ![n, k]⟩ : Shape).Idx → EReal) (b : (⟨2, ![1, k]⟩ : Shape).Idx → EReal)
    (p : Fin n) (q : Fin k) : biasAdd X b (ix2 p q) = X (ix2 p q) + b (ix2 0 q) := rfl

/-- Entry (p, q) is s · σ(s) for s = X(p, q) + b(0, q). -/
def biasSilu (X : (⟨2, ![n, k]⟩ : Shape).Idx → EReal) (b : (⟨2, ![1, k]⟩ : Shape).Idx → EReal) :
    (⟨2, ![n, k]⟩ : Shape).Idx → EReal :=
  fun i => silu (biasAdd X b i)

theorem biasSilu_apply (X : (⟨2, ![n, k]⟩ : Shape).Idx → EReal) (b : (⟨2, ![1, k]⟩ : Shape).Idx → EReal)
    (p : Fin n) (q : Fin k) : biasSilu X b (ix2 p q) = silu (X (ix2 p q) + b (ix2 0 q)) := rfl

/-- An entry depends on one entry of the matrix: equal entries give equal results. -/
theorem biasAdd_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasAdd X' b (ix2 p' q) = biasAdd X b (ix2 p q) := by
  rw [biasAdd_apply, biasAdd_apply, h]

theorem biasSilu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasSilu X' b (ix2 p' q) = biasSilu X b (ix2 p q) := by
  rw [biasSilu_apply, biasSilu_apply, h]

/-- The same two facts with the two indices as variables: the index y inside a block of rows and the index i of the
    whole array it sits at, which share their column. -/
theorem biasAdd_at (X : (⟨2, ![n, k]⟩ : Shape).Idx → EReal) (X' : (⟨2, ![n', k]⟩ : Shape).Idx → EReal)
    (b : (⟨2, ![1, k]⟩ : Shape).Idx → EReal) (y : (⟨2, ![n', k]⟩ : Shape).Idx) (i : (⟨2, ![n, k]⟩ : Shape).Idx)
    (hcol : (y 1).val = (i 1).val) (h : X' y = X i) : biasAdd X' b y = biasAdd X b i := by
  obtain ⟨p', q', rfl⟩ : ∃ (p' : Fin n') (q' : Fin k), y = ix2 p' q' := ⟨y 0, y 1, eq_ix2 y⟩
  obtain ⟨p, q, rfl⟩ : ∃ (p : Fin n) (q : Fin k), i = ix2 p q := ⟨i 0, i 1, eq_ix2 i⟩
  have hq : q' = q := Fin.ext hcol
  subst hq
  exact biasAdd_rows X X' b p' p q' h

theorem biasSilu_at (X : (⟨2, ![n, k]⟩ : Shape).Idx → EReal) (X' : (⟨2, ![n', k]⟩ : Shape).Idx → EReal)
    (b : (⟨2, ![1, k]⟩ : Shape).Idx → EReal) (y : (⟨2, ![n', k]⟩ : Shape).Idx) (i : (⟨2, ![n, k]⟩ : Shape).Idx)
    (hcol : (y 1).val = (i 1).val) (h : X' y = X i) : biasSilu X' b y = biasSilu X b i :=
  congrArg silu (biasAdd_at X X' b y i hcol h)

/-- A change of float format is the identity on the extended reals, for a whole vector. -/
theorem truncf_id {s : Shape} {φ ψ : FTy} (a : FVec Ideal s φ) (h : ψ.bits < φ.bits) :
    (truncf ψ a h : FVec Ideal s ψ) = a := rfl

/-- The kernel body's spelling of the bias row added. -/
theorem body_add_eq (M : FVec Ideal ⟨2, ![n, k]⟩ .f32) (v : FVec Ideal ⟨1, ![k]⟩ .f32)
    (hsc : (⟨1, ![k]⟩ : Shape).ShapeCasts ⟨2, ![1, k]⟩) (hb : (⟨2, ![1, k]⟩ : Shape).Broadcasts ⟨2, ![n, k]⟩) :
    addf M (broadcastTo ⟨2, ![n, k]⟩ (shapeCast ⟨2, ![1, k]⟩ v hsc) hb) = biasAdd M (asRow v) := by
  funext i
  obtain ⟨p, q, rfl⟩ : ∃ (p : Fin n) (q : Fin k), i = ix2 p q := ⟨i 0, i 1, eq_ix2 i⟩
  rw [addf_apply, shapeCast_eq_asRow, Cert.Lib.BlockReads.broadcast_row_apply]
  rfl

/-- The kernel body's spelling of the bias row added and the result multiplied by its logistic. -/
theorem body_silu_eq (M : FVec Ideal ⟨2, ![n, k]⟩ .f32) (v : FVec Ideal ⟨1, ![k]⟩ .f32)
    (hsc : (⟨1, ![k]⟩ : Shape).ShapeCasts ⟨2, ![1, k]⟩) (hb : (⟨2, ![1, k]⟩ : Shape).Broadcasts ⟨2, ![n, k]⟩) :
    mulf (addf M (broadcastTo ⟨2, ![n, k]⟩ (shapeCast ⟨2, ![1, k]⟩ v hsc) hb))
      (logistic (addf M (broadcastTo ⟨2, ![n, k]⟩ (shapeCast ⟨2, ![1, k]⟩ v hsc) hb))) = biasSilu M (asRow v) := by
  rw [body_add_eq]
  rfl

/-- The reference's spelling of the bias vector added to every row. -/
theorem host_add_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1]) :
    addf X (broadcastInDim ⟨2, ![n, k]⟩ ![0, 1] h2 (broadcastInDim ⟨2, ![1, k]⟩ ![1] h1 b)) = biasAdd X (asRow b) := by
  funext i
  obtain ⟨p, q, rfl⟩ : ∃ (p : Fin n) (q : Fin k), i = ix2 p q := ⟨i 0, i 1, eq_ix2 i⟩
  rw [addf_apply, bcastInDim_rows_apply, bcastInDim_eq_asRow]
  rfl

/-- The reference's spelling of v ↦ v · (1 / (1 + exp (−v))), the ones broadcast from the word of the number one. -/
theorem host_silu_of (v : FVec Ideal ⟨2, ![n, k]⟩ .f32)
    (h3 h4 : (⟨0, ![]⟩ : Shape).BroadcastsInDim ⟨2, ![n, k]⟩ ![]) :
    mulf v (Host.divf (broadcastInDim ⟨2, ![n, k]⟩ ![] h3 (constant (F := Ideal) ⟨0, ![]⟩ .f32 0x3F800000#32))
      (addf (broadcastInDim ⟨2, ![n, k]⟩ ![] h4 (constant (F := Ideal) ⟨0, ![]⟩ .f32 0x3F800000#32))
        (Host.exp (Host.negf v)))) = fun i => silu (v i) := by
  funext i
  show v i * Ideal.div (broadcastInDim ⟨2, ![n, k]⟩ ![] h3 (constant (F := Ideal) ⟨0, ![]⟩ .f32 0x3F800000#32) i)
      (broadcastInDim ⟨2, ![n, k]⟩ ![] h4 (constant (F := Ideal) ⟨0, ![]⟩ .f32 0x3F800000#32) i + Ideal.exp (-(v i))) = _
  rw [bcastInDim_scalar_apply]
  show v i * Ideal.div (Ideal.ofBits .f32 0x3F800000#32) (Ideal.ofBits .f32 0x3F800000#32 + Ideal.exp (-(v i))) = _
  rw [one_f32]
  rfl

/-- The reference's spelling of the bias vector added and the result multiplied by 1 / (1 + exp (−·)). -/
theorem host_silu_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 h4 : (⟨0, ![]⟩ : Shape).BroadcastsInDim ⟨2, ![n, k]⟩ ![]) :
    mulf (addf X (broadcastInDim ⟨2, ![n, k]⟩ ![0, 1] h2 (broadcastInDim ⟨2, ![1, k]⟩ ![1] h1 b)))
      (Host.divf (broadcastInDim ⟨2, ![n, k]⟩ ![] h3 (constant (F := Ideal) ⟨0, ![]⟩ .f32 0x3F800000#32))
        (addf (broadcastInDim ⟨2, ![n, k]⟩ ![] h4 (constant (F := Ideal) ⟨0, ![]⟩ .f32 0x3F800000#32))
          (Host.exp (Host.negf (addf X (broadcastInDim ⟨2, ![n, k]⟩ ![0, 1] h2 (broadcastInDim ⟨2, ![1, k]⟩ ![1] h1 b)))))))
      = biasSilu X (asRow b) := by
  rw [host_silu_of, host_add_eq]
  rfl

end Cert.Lib.BiasSilu

end
-- ==== Proof.RefEdge.lean ====
/-
  The reference layer read one stage at a time, per edge: the index words of an edge, the rows they select, the
  perceptron of the edge. Every statement is at explicit coordinates (an edge e, a column j).
-/
import proofs.«129725_j23012434772667_2_alg».proof.Proof.RefRead
import proofs.«129725_j23012434772667_2_alg».proof.Proof.Spec
import proofs.«129725_j23012434772667_2_alg».proof.Proof.LibRowGather
import proofs.«129725_j23012434772667_2_alg».proof.Proof.LibBiasSilu

open scoped BigOperators

noncomputable section

namespace Cert.ReferenceIdeal.Layer

open Cert.ReferenceIdeal Cert.ReferenceIdeal.Gen Cert.ReferenceIdeal.ReadP Idealize.ShloMosaic
  Idealize.ShloMosaic.ValueIdx Idealize.ShloMosaic.StableHlo Cert.Egnn

/-- The index words as the program types them. -/
abbrev Words := (⟨S2x800000, .i32⟩ : BufTy).Contents (Elt Ideal)

/-! ## The index words of an edge -/

/-- The source word of edge e, flattened. -/
theorem v1_at (ei : Words) (e : Fin 800000) : val_main_v1 (F := Ideal) ei (ix1 e) = ei (ix2 0 e) := by
  rw [val_main_v1_apply, val_main_v0_apply]
  refine congrArg ei (funext fun a => Fin.ext ?_)
  match a with
  | ⟨0, _⟩ => rfl
  | ⟨1, _⟩ => exact Nat.mod_eq_of_lt e.isLt

/-- The target word of edge e, flattened. -/
theorem v3_at (ei : Words) (e : Fin 800000) : val_main_v3 (F := Ideal) ei (ix1 e) = ei (ix2 1 e) := by
  rw [val_main_v3_apply, val_main_v2_apply]
  refine congrArg ei (funext fun a => Fin.ext ?_)
  match a with
  | ⟨0, _⟩ => rfl
  | ⟨1, _⟩ => exact Nat.mod_eq_of_lt e.isLt

/-- The wrapped source word of edge e, as a column (operation 9). -/
theorem v9_at (ei : Words) (e : Fin 800000) :
    val_main_v9 (F := Ideal) ei (ix2 e 0) = wrapW (ei (ix2 0 e)) := by
  rw [val_main_v9_apply, show idx_main_v9 (ix2 e 0) = ix1 e from funext fun a => Fin.ext (by match a with | ⟨0, _⟩ => rfl),
    val_main_v8_apply, val_main_v5_apply, val_main_v7_apply, val_main_v4_apply, val_main_v6_apply,
    val_main_c_apply, val_main_c_0_apply, v1_at]
  rfl

/-- The wrapped target word of edge e, as a column (operation 16). -/
theorem v16_at (ei : Words) (e : Fin 800000) :
    val_main_v16 (F := Ideal) ei (ix2 e 0) = wrapW (ei (ix2 1 e)) := by
  rw [val_main_v16_apply, show idx_main_v16 (ix2 e 0) = ix1 e from funext fun a => Fin.ext (by match a with | ⟨0, _⟩ => rfl),
    val_main_v15_apply, val_main_v12_apply, val_main_v14_apply, val_main_v11_apply, val_main_v13_apply,
    val_main_c_1_apply, val_main_c_2_apply, v3_at]
  rfl

/-- The wrapped source word of edge e, as a column (operation 27). -/
theorem v27_at (ei : Words) (e : Fin 800000) :
    val_main_v27 (F := Ideal) ei (ix2 e 0) = wrapW (ei (ix2 0 e)) := by
  rw [val_main_v27_apply, show idx_main_v27 (ix2 e 0) = ix1 e from funext fun a => Fin.ext (by match a with | ⟨0, _⟩ => rfl),
    val_main_v26_apply, val_main_v23_apply, val_main_v25_apply, val_main_v22_apply, val_main_v24_apply,
    val_main_c_3_apply, val_main_c_4_apply, v1_at]
  rfl

/-- The wrapped target word of edge e, as a column (operation 34). -/
theorem v34_at (ei : Words) (e : Fin 800000) :
    val_main_v34 (F := Ideal) ei (ix2 e 0) = wrapW (ei (ix2 1 e)) := by
  rw [val_main_v34_apply, show idx_main_v34 (ix2 e 0) = ix1 e from funext fun a => Fin.ext (by match a with | ⟨0, _⟩ => rfl),
    val_main_v33_apply, val_main_v30_apply, val_main_v32_apply, val_main_v29_apply, val_main_v31_apply,
    val_main_c_5_apply, val_main_c_6_apply, v3_at]
  rfl

/-- The wrapped source word of edge e, as a column (operation 41). -/
theorem v41_at (ei : Words) (e : Fin 800000) :
    val_main_v41 (F := Ideal) ei (ix2 e 0) = wrapW (ei (ix2 0 e)) := by
  rw [val_main_v41_apply, show idx_main_v41 (ix2 e 0) = ix1 e from funext fun a => Fin.ext (by match a with | ⟨0, _⟩ => rfl),
    val_main_v40_apply, val_main_v37_apply, val_main_v39_apply, val_main_v36_apply, val_main_v38_apply,
    val_main_c_7_apply, val_main_c_8_apply, v1_at]
  rfl

/-- The target word of edge e as the sums read it: a column, nothing wrapped (operation 78). -/
theorem v78_at (ei : Words) (e : Fin 800000) : val_main_v78 (F := Ideal) ei (ix2 e 0) = ei (ix2 1 e) := by
  rw [val_main_v78_apply, show idx_main_v78 (ix2 e 0) = ix1 e from funext fun a => Fin.ext (by match a with | ⟨0, _⟩ => rfl), v3_at]

/-- The target word of edge e as the sums read it: a column, nothing wrapped (operation 82). -/
theorem v82_at (ei : Words) (e : Fin 800000) : val_main_v82 (F := Ideal) ei (ix2 e 0) = ei (ix2 1 e) := by
  rw [val_main_v82_apply, show idx_main_v82 (ix2 e 0) = ix1 e from funext fun a => Fin.ext (by match a with | ⟨0, _⟩ => rfl), v3_at]

/-- The target word of edge e as the sums read it: a column, nothing wrapped (operation 90). -/
theorem v90_at (ei : Words) (e : Fin 800000) : val_main_v90 (F := Ideal) ei (ix2 e 0) = ei (ix2 1 e) := by
  rw [val_main_v90_apply, show idx_main_v90 (ix2 e 0) = ix1 e from funext fun a => Fin.ext (by match a with | ⟨0, _⟩ => rfl), v3_at]

/-! ## The rows an edge's words select -/

/-- Operation 10: row (A.srcR e) of the table, entry for entry. -/
theorem v10_at (A : Args) (e : Fin 800000) (q : Fin 3) :
    val_main_v10 (F := Ideal) A.x A.ei (ix2 e q) = A.x (ix2 (A.srcR e) q) := by
  unfold val_main_v10
  have hd : gather_S50000x3_S800000x1_S800000x3_1_0_n_n_0_1_13
      = Cert.Lib.RowGather.rowsDims 50000 800000 3 Facts₀.gather_S50000x3_S800000x1_S800000x3_1_0_n_n_0_1_13_wf := rfl
  rw [hd, Cert.Lib.RowGather.gather_rows_apply (N := 50000) (by decide), v9_at]
  rfl

/-- Operation 17: row (A.dstR e) of the table, entry for entry. -/
theorem v17_at (A : Args) (e : Fin 800000) (q : Fin 3) :
    val_main_v17 (F := Ideal) A.x A.ei (ix2 e q) = A.x (ix2 (A.dstR e) q) := by
  unfold val_main_v17
  have hd : gather_S50000x3_S800000x1_S800000x3_1_0_n_n_0_1_13
      = Cert.Lib.RowGather.rowsDims 50000 800000 3 Facts₀.gather_S50000x3_S800000x1_S800000x3_1_0_n_n_0_1_13_wf := rfl
  rw [hd, Cert.Lib.RowGather.gather_rows_apply (N := 50000) (by decide), v16_at]
  rfl

/-- Operation 28: row (A.srcR e) of the table, entry for entry. -/
theorem v28_at (A : Args) (e : Fin 800000) (q : Fin 128) :
    val_main_v28 (F := Ideal) A.h A.ei (ix2 e q) = A.h (ix2 (A.srcR e) q) := by
  unfold val_main_v28
  have hd : gather_S50000x128_S800000x1_S800000x128_1_0_n_n_0_1_1128
      = Cert.Lib.RowGather.rowsDims 50000 800000 128 Facts₀.gather_S50000x128_S800000x1_S800000x128_1_0_n_n_0_1_1128_wf := rfl
  rw [hd, Cert.Lib.RowGather.gather_rows_apply (N := 50000) (by decide), v27_at]
  rfl

/-- Operation 35: row (A.dstR e) of the table, entry for entry. -/
theorem v35_at (A : Args) (e : Fin 800000) (q : Fin 128) :
    val_main_v35 (F := Ideal) A.h A.ei (ix2 e q) = A.h (ix2 (A.dstR e) q) := by
  unfold val_main_v35
  have hd : gather_S50000x128_S800000x1_S800000x128_1_0_n_n_0_1_1128
      = Cert.Lib.RowGather.rowsDims 50000 800000 128 Facts₀.gather_S50000x128_S800000x1_S800000x128_1_0_n_n_0_1_1128_wf := rfl
  rw [hd, Cert.Lib.RowGather.gather_rows_apply (N := 50000) (by decide), v34_at]
  rfl

/-- Operation 42: row (A.srcR e) of the table, entry for entry. -/
theorem v42_at (A : Args) (e : Fin 800000) (q : Fin 64) :
    val_main_v42 (F := Ideal) A.te A.ei (ix2 e q) = A.te (ix2 (A.srcR e) q) := by
  unfold val_main_v42
  have hd : gather_S50000x64_S800000x1_S800000x64_1_0_n_n_0_1_164
      = Cert.Lib.RowGather.rowsDims 50000 800000 64 Facts₀.gather_S50000x64_S800000x1_S800000x64_1_0_n_n_0_1_164_wf := rfl
  rw [hd, Cert.Lib.RowGather.gather_rows_apply (N := 50000) (by decide), v41_at]
  rfl

/-- The coordinate difference of edge e. -/
theorem v18_at (A : Args) (e : Fin 800000) (k : Fin 3) : val_main_v18 (F := Ideal) A.x A.ei (ix2 e k) = (A.edgeIn e).df k := by
  rw [val_main_v18_apply, v10_at, v17_at]
  rfl

/-- Its squared length (the sum starts from the word of zero). -/
theorem v20_at (A : Args) (e : Fin 800000) : val_main_v20 (F := Ideal) A.x A.ei (ix1 e) = EdgeW.dsq (A.edgeIn e).df := by
  rw [val_main_v20_apply, val_main_cst_apply]
  have h : ∀ k : Fin 3, val_main_v19 (F := Ideal) A.x A.ei (idx_main_v20 (ix1 e) k) = (A.edgeIn e).df k * (A.edgeIn e).df k := by
    intro k
    rw [show idx_main_v20 (ix1 e) k = ix2 e k from funext fun a => Fin.ext (by match a with | ⟨0, _⟩ => rfl | ⟨1, _⟩ => rfl), val_main_v19_apply, v18_at]
    rfl
  simp only [h, Ideal.ofBits_def, Ideal.ofBits_zero_f32, zero_add]
  rfl

/-- The same as a column. -/
theorem v21_at (A : Args) (e : Fin 800000) : val_main_v21 (F := Ideal) A.x A.ei (ix2 e 0) = EdgeW.dsq (A.edgeIn e).df := by
  rw [val_main_v21_apply, show idx_main_v21 (ix2 e 0) = ix1 e from funext fun a => Fin.ext (by match a with | ⟨0, _⟩ => rfl), v20_at]

/-! ## The row laid side by side out of five pieces -/

section Cat5

variable (p0 p1 : S800000x128.Idx → EReal) (p2 : S800000x1.Idx → EReal) (p3 : S800000x8.Idx → EReal)
  (p4 : S800000x64.Idx → EReal)

/-- Five pieces side by side: 128 + 128 + 1 + 8 + 64 columns. -/
abbrev cat5 : S800000x329.Idx → EReal :=
  concatenate S800000x329 1 [⟨S800000x128, p0⟩, ⟨S800000x128, p1⟩, ⟨S800000x1, p2⟩, ⟨S800000x8, p3⟩, ⟨S800000x64, p4⟩]
    concatenates_S800000x128_S800000x128_S800000x1_S800000x8_S800000x64_S800000x329_d1

/-- Columns 0 … 127 are the first piece. -/
theorem cat5_b0 (e : Fin 800000) (c : Fin 128) :
    cat5 p0 p1 p2 p3 p4 (ix2 e (band 0 329 (by decide) c)) = p0 (ix2 e c) :=
  concatenate_apply_piece (t := S800000x329) 1 _ _ _ 0 (by show (0 : Nat) < 5; decide) S800000x128 p0 rfl rfl 0 rfl (ix2 e c)
    (fun b hb => by match b with | ⟨0, _⟩ => rfl | ⟨1, _⟩ => exact absurd rfl hb) rfl

/-- Columns 128 … 255 are the second piece. -/
theorem cat5_b1 (e : Fin 800000) (c : Fin 128) :
    cat5 p0 p1 p2 p3 p4 (ix2 e (band 128 329 (by decide) c)) = p1 (ix2 e c) :=
  concatenate_apply_piece (t := S800000x329) 1 _ _ _ 1 (by show (1 : Nat) < 5; decide) S800000x128 p1 rfl rfl 128 rfl (ix2 e c)
    (fun b hb => by match b with | ⟨0, _⟩ => rfl | ⟨1, _⟩ => exact absurd rfl hb) rfl

/-- Column 256 is the third piece's one column. -/
theorem cat5_b2 (e : Fin 800000) :
    cat5 p0 p1 p2 p3 p4 (ix2 e ⟨256, by decide⟩) = p2 (ix2 e 0) :=
  concatenate_apply_piece (t := S800000x329) 1 _ _ _ 2 (by show (2 : Nat) < 5; decide) S800000x1 p2 rfl rfl 256 rfl (ix2 e 0)
    (fun b hb => by match b with | ⟨0, _⟩ => rfl | ⟨1, _⟩ => exact absurd rfl hb) rfl

/-- Columns 257 … 264 are the fourth piece. -/
theorem cat5_b3 (e : Fin 800000) (c : Fin 8) :
    cat5 p0 p1 p2 p3 p4 (ix2 e (band 257 329 (by decide) c)) = p3 (ix2 e c) :=
  concatenate_apply_piece (t := S800000x329) 1 _ _ _ 3 (by show (3 : Nat) < 5; decide) S800000x8 p3 rfl rfl 257 rfl (ix2 e c)
    (fun b hb => by match b with | ⟨0, _⟩ => rfl | ⟨1, _⟩ => exact absurd rfl hb) rfl

/-- Columns 265 … 328 are the fifth piece. -/
theorem cat5_b4 (e : Fin 800000) (c : Fin 64) :
    cat5 p0 p1 p2 p3 p4 (ix2 e (band 265 329 (by decide) c)) = p4 (ix2 e c) :=
  concatenate_apply_piece (t := S800000x329) 1 _ _ _ 4 (by show (4 : Nat) < 5; decide) S800000x64 p4 rfl rfl 265 rfl (ix2 e c)
    (fun b hb => by match b with | ⟨0, _⟩ => rfl | ⟨1, _⟩ => exact absurd rfl hb) rfl

end Cat5

/-- The perceptron's input row of edge e, band by band: the source's features, -/
theorem v43_b0 (A : Args) (e : Fin 800000) (c : Fin 128) :
    val_main_v43 (F := Ideal) A.h A.x A.ea A.te A.ei (ix2 e (band 0 329 (by decide) c)) = A.h (ix2 (A.srcR e) c) := by
  unfold val_main_v43
  exact (cat5_b0 _ _ _ _ _ e c).trans (v28_at A e c)

/-- the target's features, -/
theorem v43_b1 (A : Args) (e : Fin 800000) (c : Fin 128) :
    val_main_v43 (F := Ideal) A.h A.x A.ea A.te A.ei (ix2 e (band 128 329 (by decide) c)) = A.h (ix2 (A.dstR e) c) := by
  unfold val_main_v43
  exact (cat5_b1 _ _ _ _ _ e c).trans (v35_at A e c)

/-- the squared length of the coordinate difference, -/
theorem v43_b2 (A : Args) (e : Fin 800000) :
    val_main_v43 (F := Ideal) A.h A.x A.ea A.te A.ei (ix2 e ⟨256, by decide⟩) = EdgeW.dsq (A.edgeIn e).df := by
  unfold val_main_v43
  exact (cat5_b2 _ _ _ _ _ e).trans (v21_at A e)

/-- the edge's own features, -/
theorem v43_b3 (A : Args) (e : Fin 800000) (c : Fin 8) :
    val_main_v43 (F := Ideal) A.h A.x A.ea A.te A.ei (ix2 e (band 257 329 (by decide) c)) = A.ea (ix2 e c) := by
  unfold val_main_v43
  exact cat5_b3 _ _ _ _ _ e c

/-- the source's time features. -/
theorem v43_b4 (A : Args) (e : Fin 800000) (c : Fin 64) :
    val_main_v43 (F := Ideal) A.h A.x A.ea A.te A.ei (ix2 e (band 265 329 (by decide) c)) = A.te (ix2 (A.srcR e) c) := by
  unfold val_main_v43
  exact (cat5_b4 _ _ _ _ _ e c).trans (v42_at A e c)

/-! ## The perceptron of an edge -/

/-- The first layer before its nonlinearity: the product with the tall matrix is the sum of the five bands' products. -/
theorem v47_at (A : Args) (e : Fin 800000) (j : Fin 128) : val_main_v47 (F := Ideal) A.h A.x A.ea A.te A.W1 A.b1 A.ei (ix2 e j) = A.pre e j := by
  rw [val_main_v47_apply, val_main_v44_apply, val_main_v46_apply, val_main_v45_apply]
  have hl : ∀ k : Fin 329, lidx_main_v44 (ix2 e j) k = ix2 e k := fun k => funext fun a => Fin.ext (by match a with | ⟨0, _⟩ => rfl | ⟨1, _⟩ => rfl)
  have hr : ∀ k : Fin 329, ridx_main_v44 (ix2 e j) k = ix2 k j := fun k => funext fun a => Fin.ext (by match a with | ⟨0, _⟩ => rfl | ⟨1, _⟩ => rfl)
  have hb : idx_main_v45 (idx_main_v46 (ix2 e j)) = ix1 j := funext fun a => Fin.ext (by match a with | ⟨0, _⟩ => rfl)
  simp only [hl, hr, hb]
  rw [Sums.split329]
  simp only [v43_b0, v43_b1, v43_b2, v43_b3, v43_b4, Ideal.addf_def]
  rfl

/-- 1 / (1 + exp (−v)) with both ones the word of the number one is the logistic function. -/
theorem logistic_word (v : EReal) :
    Ideal.div (Ideal.ofBits .f32 0x3F800000#32) (Ideal.ofBits .f32 0x3F800000#32 + Ideal.exp (-v)) = Ideal.logistic v := by
  rw [Cert.Lib.BiasSilu.one_f32]
  rfl

/-- The first layer after v ↦ v · σ(v). -/
theorem v48_at (A : Args) (e : Fin 800000) (j : Fin 128) : val_main_v48 (F := Ideal) A.h A.x A.ea A.te A.W1 A.b1 A.ei (ix2 e j) = silu (A.pre e j) := by
  rw [val_main_v48_apply, val_main_call0_v5_apply, val_main_call0_v4_apply, val_main_call0_cst_0_apply,
    val_main_call0_v3_apply, val_main_call0_v2_apply, val_main_call0_cst_apply, val_main_call0_v1_apply,
    val_main_call0_v0_apply, v47_at]
  simp only [Ideal.mulf_def, Ideal.hostDivf_def, Ideal.addf_def, Ideal.hostUnary_exp_def, Ideal.hostNegf_def,
    Ideal.negf_def, Ideal.ofBits_def, logistic_word]
  rfl

/-- The message before its gate. -/
theorem v52_at (A : Args) (e : Fin 800000) (j : Fin 128) : val_main_v52 (F := Ideal) A.h A.x A.ea A.te A.W1 A.b1 A.W2 A.b2 A.ei (ix2 e j) = A.edgeW.m0 (A.pre e) j := by
  rw [val_main_v52_apply, val_main_v49_apply, val_main_v51_apply, val_main_v50_apply]
  have hl : ∀ k : Fin 128, lidx_main_v49 (ix2 e j) k = ix2 e k := fun k => funext fun a => Fin.ext (by match a with | ⟨0, _⟩ => rfl | ⟨1, _⟩ => rfl)
  have hr : ∀ k : Fin 128, ridx_main_v49 (ix2 e j) k = ix2 k j := fun k => funext fun a => Fin.ext (by match a with | ⟨0, _⟩ => rfl | ⟨1, _⟩ => rfl)
  have hb : idx_main_v50 (idx_main_v51 (ix2 e j)) = ix1 j := funext fun a => Fin.ext (by match a with | ⟨0, _⟩ => rfl)
  simp only [hl, hr, hb, v48_at, Ideal.addf_def]
  rfl

/-- The number the gate is the logistic of. -/
theorem v56_at (A : Args) (e : Fin 800000) :
    val_main_v56 (F := Ideal) A.h A.x A.ea A.te A.W1 A.b1 A.W2 A.b2 A.Watt A.batt A.ei (ix2 e 0) = dotc (A.edgeW.m0 (A.pre e)) A.Watt 0 + A.batt (ix1 0) := by
  rw [val_main_v56_apply, val_main_v53_apply, val_main_v55_apply, val_main_v54_apply]
  have hl : ∀ k : Fin 128, lidx_main_v53 (ix2 e 0) k = ix2 e k := fun k => funext fun a => Fin.ext (by match a with | ⟨0, _⟩ => rfl | ⟨1, _⟩ => rfl)
  have hr : ∀ k : Fin 128, ridx_main_v53 (ix2 e 0) k = ix2 k 0 := fun k => funext fun a => Fin.ext (by match a with | ⟨0, _⟩ => rfl | ⟨1, _⟩ => rfl)
  have hb : idx_main_v54 (idx_main_v55 (ix2 e 0)) = ix1 0 := funext fun a => Fin.ext (by match a with | ⟨0, _⟩ => rfl)
  simp only [hl, hr, hb, v52_at, Ideal.addf_def]
  rfl

/-- The gate. -/
theorem v62_at (A : Args) (e : Fin 800000) : val_main_v62 (F := Ideal) A.h A.x A.ea A.te A.W1 A.b1 A.W2 A.b2 A.Watt A.batt A.ei (ix2 e 0) = A.edgeW.gate (A.pre e) := by
  rw [val_main_v62_apply, val_main_v61_apply, val_main_cst_10_apply, val_main_v60_apply, val_main_v59_apply,
    val_main_cst_9_apply, val_main_v58_apply, val_main_v57_apply, v56_at]
  simp only [Ideal.hostDivf_def, Ideal.addf_def, Ideal.hostUnary_exp_def, Ideal.hostNegf_def, Ideal.negf_def,
    Ideal.ofBits_def, logistic_word]
  rfl

/-- The message. -/
theorem v64_at (A : Args) (e : Fin 800000) (j : Fin 128) : val_main_v64 (F := Ideal) A.h A.x A.ea A.te A.W1 A.b1 A.W2 A.b2 A.Watt A.batt A.ei (ix2 e j) = A.msgE e j := by
  rw [val_main_v64_apply, val_main_v63_apply, show idx_main_v63 (ix2 e j) = ix2 e 0 from funext fun a => Fin.ext (by match a with | ⟨0, _⟩ => rfl | ⟨1, _⟩ => rfl), v62_at, v52_at]
  rfl

/-- The coordinate perceptron's hidden layer before its nonlinearity. -/
theorem v68_at (A : Args) (e : Fin 800000) (c : Fin 128) :
    val_main_v68 (F := Ideal) A.h A.x A.ea A.te A.W1 A.b1 A.W2 A.b2 A.Watt A.batt A.Wx1 A.bx1 A.ei (ix2 e c) = dotc (A.edgeW.msg (A.pre e)) A.Wx1 c + A.bx1 (ix1 c) := by
  rw [val_main_v68_apply, val_main_v65_apply, val_main_v67_apply, val_main_v66_apply]
  have hl : ∀ k : Fin 128, lidx_main_v65 (ix2 e c) k = ix2 e k := fun k => funext fun a => Fin.ext (by match a with | ⟨0, _⟩ => rfl | ⟨1, _⟩ => rfl)
  have hr : ∀ k : Fin 128, ridx_main_v65 (ix2 e c) k = ix2 k c := fun k => funext fun a => Fin.ext (by match a with | ⟨0, _⟩ => rfl | ⟨1, _⟩ => rfl)
  have hb : idx_main_v66 (idx_main_v67 (ix2 e c)) = ix1 c := funext fun a => Fin.ext (by match a with | ⟨0, _⟩ => rfl)
  simp only [hl, hr, hb, v64_at, Ideal.addf_def]
  rfl

/-- The hidden layer after v ↦ v · σ(v). -/
theorem v69_at (A : Args) (e : Fin 800000) (c : Fin 128) :
    val_main_v69 (F := Ideal) A.h A.x A.ea A.te A.W1 A.b1 A.W2 A.b2 A.Watt A.batt A.Wx1 A.bx1 A.ei (ix2 e c) = silu (dotc (A.edgeW.msg (A.pre e)) A.Wx1 c + A.bx1 (ix1 c)) := by
  rw [val_main_v69_apply, val_main_call1_v5_apply, val_main_call1_v4_apply, val_main_call1_cst_0_apply,
    val_main_call1_v3_apply, val_main_call1_v2_apply, val_main_call1_cst_apply, val_main_call1_v1_apply,
    val_main_call1_v0_apply, v68_at]
  simp only [Ideal.mulf_def, Ideal.hostDivf_def, Ideal.addf_def, Ideal.hostUnary_exp_def, Ideal.hostNegf_def,
    Ideal.negf_def, Ideal.ofBits_def, logistic_word]
  rfl

/-- The weight of the coordinate shift. -/
theorem v74_at (A : Args) (e : Fin 800000) : val_main_v74 (F := Ideal) A.h A.x A.ea A.te A.W1 A.b1 A.W2 A.b2 A.Watt A.batt A.Wx1 A.bx1 A.Wx2 A.bx2 A.ei (ix2 e 0) = A.edgeW.cwt (A.pre e) := by
  rw [val_main_v74_apply, val_main_v73_apply, val_main_v70_apply, val_main_v72_apply, val_main_v71_apply]
  have hl : ∀ k : Fin 128, lidx_main_v70 (ix2 e 0) k = ix2 e k := fun k => funext fun a => Fin.ext (by match a with | ⟨0, _⟩ => rfl | ⟨1, _⟩ => rfl)
  have hr : ∀ k : Fin 128, ridx_main_v70 (ix2 e 0) k = ix2 k 0 := fun k => funext fun a => Fin.ext (by match a with | ⟨0, _⟩ => rfl | ⟨1, _⟩ => rfl)
  have hb : idx_main_v71 (idx_main_v72 (ix2 e 0)) = ix1 0 := funext fun a => Fin.ext (by match a with | ⟨0, _⟩ => rfl)
  simp only [hl, hr, hb, v69_at, Ideal.addf_def, Ideal.hostUnary_tanh_def]
  rfl

/-- The coordinate shift of edge e. -/
theorem v76_at (A : Args) (e : Fin 800000) (k : Fin 3) : val_main_v76 (F := Ideal) A.h A.x A.ea A.te A.W1 A.b1 A.W2 A.b2 A.Watt A.batt A.Wx1 A.bx1 A.Wx2 A.bx2 A.ei (ix2 e k) = A.shiftE e k := by
  rw [val_main_v76_apply, val_main_v75_apply, show idx_main_v75 (ix2 e k) = ix2 e 0 from funext fun a => Fin.ext (by match a with | ⟨0, _⟩ => rfl | ⟨1, _⟩ => rfl), v74_at, v18_at]
  rfl

end Cert.ReferenceIdeal.Layer

end
-- ==== Proof.RefNode.lean ====
/-
  The reference layer at a node: the three sums over the edges aimed at it, the new coordinates, and the node's
  perceptron on its old features beside the summed messages.
-/
import proofs.«129725_j23012434772667_2_alg».proof.Proof.RefEdge
import proofs.«129725_j23012434772667_2_alg».proof.Proof.LibScatterSeg

open scoped BigOperators

noncomputable section

namespace Cert.ReferenceIdeal.Layer

open Cert.ReferenceIdeal Cert.ReferenceIdeal.Gen Cert.ReferenceIdeal.ReadP Idealize.ShloMosaic
  Idealize.ShloMosaic.ValueIdx Idealize.ShloMosaic.StableHlo Cert.Egnn

/-! ## The sums over the edges aimed at a node -/

/-- An accumulating row scatter into zeros, at (n, q): the sum of the update entries (e, q) over the edges e aimed at
    node n: the two sums agree term by term. -/
theorem seg_of_scatter (A : Args) {D : Nat}
    (wf : ScatterDims.WF ⟨2, ![50000, D]⟩ ⟨2, ![800000, 1]⟩ ⟨2, ![800000, D]⟩ [1] [0] [0] 1)
    (x0 : (⟨2, ![50000, D]⟩ : Shape).Idx → EReal) (ix : IVec ⟨2, ![800000, 1]⟩ 32)
    (u : (⟨2, ![800000, D]⟩ : Shape).Idx → EReal) (f : Fin 800000 → EReal) (n : Fin 50000) (q : Fin D)
    (hx : x0 (ix2 n q) = 0) (hi : ∀ e : Fin 800000, ix (ix2 e 0) = A.ei (ix2 1 e))
    (hu : ∀ e : Fin 800000, u (ix2 e q) = f e) :
    Ideal.hostScatterAdd (Cert.Lib.ScatterRows.dims wf) x0 ix u (ix2 n q) = A.seg f n := by
  rw [Cert.Lib.ScatterSeg.scatterAdd_seg, hx, zero_add]
  unfold Args.seg Args.dstI
  refine Finset.sum_congr rfl fun e _ => ?_
  rw [hi e, hu e]

/-- The host's accumulating scatter on the extended reals is the exact sum (stated of the whole array, before any
    index is taken). -/
theorem host_scatter_eq {s si su : Shape} {w : Nat} (d : ScatterDims s si su) (x : FVec Ideal s .f32) (idx : IVec si w)
    (upd : FVec Ideal su .f32) : Host.scatterAdd d x idx upd = Ideal.hostScatterAdd d x idx upd := rfl

/-- The column of ones the edge count sums. -/
theorem v80_at (e : Fin 800000) : val_main_v80 (F := Ideal) (ix2 e 0) = one := by
  rw [val_main_v80_apply, val_main_cst_12_apply]
  rfl

/-- Operation 79: the coordinate shifts aimed at node n, summed (into zeros). -/
theorem v79_at (A : Args) (n : Fin 50000) (k : Fin 3) :
    val_main_v79 (F := Ideal) A.h A.x A.ea A.te A.W1 A.b1 A.W2 A.b2 A.Watt A.batt A.Wx1 A.bx1 A.Wx2 A.bx2 A.ei (ix2 n k) = A.seg (fun e => A.shiftE e k) n := by
  unfold val_main_v79
  have hu : ∀ e : Fin 800000, val_main_v76 (F := Ideal) A.h A.x A.ea A.te A.W1 A.b1 A.W2 A.b2 A.Watt A.batt A.Wx1 A.bx1 A.Wx2 A.bx2 A.ei (ix2 e k) = (fun e => A.shiftE e k) e := fun e => v76_at A e k
  have hi : ∀ e : Fin 800000, val_main_v78 (F := Ideal) A.ei (ix2 e 0) = A.ei (ix2 1 e) := fun e => v78_at A.ei e
  have hx : val_main_v77 (F := Ideal) (ix2 n k) = 0 := by
    rw [val_main_v77_apply, val_main_cst_11_apply]
    exact Ideal.ofBits_zero_f32
  generalize val_main_v76 (F := Ideal) A.h A.x A.ea A.te A.W1 A.b1 A.W2 A.b2 A.Watt A.batt A.Wx1 A.bx1 A.Wx2 A.bx2 A.ei = u at hu ⊢
  generalize val_main_v78 (F := Ideal) A.ei = ix at hi ⊢
  generalize val_main_v77 (F := Ideal) = x0 at hx ⊢
  rw [host_scatter_eq, show scatter_S50000x3_S800000x1_S800000x3_1_0_0_1 = Cert.Lib.ScatterRows.dims Facts₀.scatter_S50000x3_S800000x1_S800000x3_1_0_0_1_wf from rfl]
  exact seg_of_scatter A _ x0 ix u _ n k hx hi hu

/-- Operation 83: the number of edges aimed at node n, as a sum of ones. -/
theorem v83_at (A : Args) (n : Fin 50000) :
    val_main_v83 (F := Ideal) A.ei (ix2 n 0) = A.seg (fun _ => one) n := by
  unfold val_main_v83
  have hu : ∀ e : Fin 800000, val_main_v80 (F := Ideal) (ix2 e 0) = (fun _ => one) e := fun e => v80_at e
  have hi : ∀ e : Fin 800000, val_main_v82 (F := Ideal) A.ei (ix2 e 0) = A.ei (ix2 1 e) := fun e => v82_at A.ei e
  have hx : val_main_v81 (F := Ideal) (ix2 n 0) = 0 := by
    rw [val_main_v81_apply, val_main_cst_13_apply]
    exact Ideal.ofBits_zero_f32
  generalize val_main_v80 (F := Ideal) = u at hu ⊢
  generalize val_main_v82 (F := Ideal) A.ei = ix at hi ⊢
  generalize val_main_v81 (F := Ideal) = x0 at hx ⊢
  rw [host_scatter_eq, show scatter_S50000x1_S800000x1_S800000x1_1_0_0_1 = Cert.Lib.ScatterRows.dims Facts₀.scatter_S50000x1_S800000x1_S800000x1_1_0_0_1_wf from rfl]
  exact seg_of_scatter A _ x0 ix u _ n 0 hx hi hu

/-- Operation 91: the messages aimed at node n, summed. -/
theorem v91_at (A : Args) (n : Fin 50000) (c : Fin 128) :
    val_main_v91 (F := Ideal) A.h A.x A.ea A.te A.W1 A.b1 A.W2 A.b2 A.Watt A.batt A.ei (ix2 n c) = A.seg (fun e => A.msgE e c) n := by
  unfold val_main_v91
  have hu : ∀ e : Fin 800000, val_main_v64 (F := Ideal) A.h A.x A.ea A.te A.W1 A.b1 A.W2 A.b2 A.Watt A.batt A.ei (ix2 e c) = (fun e => A.msgE e c) e := fun e => v64_at A e c
  have hi : ∀ e : Fin 800000, val_main_v90 (F := Ideal) A.ei (ix2 e 0) = A.ei (ix2 1 e) := fun e => v90_at A.ei e
  have hx : val_main_v89 (F := Ideal) (ix2 n c) = 0 := by
    rw [val_main_v89_apply, val_main_cst_15_apply]
    exact Ideal.ofBits_zero_f32
  generalize val_main_v64 (F := Ideal) A.h A.x A.ea A.te A.W1 A.b1 A.W2 A.b2 A.Watt A.batt A.ei = u at hu ⊢
  generalize val_main_v90 (F := Ideal) A.ei = ix at hi ⊢
  generalize val_main_v89 (F := Ideal) = x0 at hx ⊢
  rw [host_scatter_eq, show scatter_S50000x128_S800000x1_S800000x128_1_0_0_1 = Cert.Lib.ScatterRows.dims Facts₀.scatter_S50000x128_S800000x1_S800000x128_1_0_0_1_wf from rfl]
  exact seg_of_scatter A _ x0 ix u _ n c hx hi hu

/-- The same in the specification's name for it. -/
theorem v91_magg (A : Args) (n : Fin 50000) (c : Fin 128) :
    val_main_v91 (F := Ideal) A.h A.x A.ea A.te A.W1 A.b1 A.W2 A.b2 A.Watt A.batt A.ei (ix2 n c) = A.magg n c := v91_at A n c

/-- **The new coordinates.** -/
theorem ref_xout (A : Cert.Egnn.Args) :
    Cert.ReferenceIdeal.ReadP.val_main_v88 (F := Ideal) A.h A.x A.ea A.te A.W1 A.b1 A.W2 A.b2 A.Watt A.batt A.Wx1 A.bx1 A.Wx2 A.bx2 A.ei = A.xout := by
  funext i
  obtain ⟨n, k, rfl⟩ : ∃ (n : Fin 50000) (k : Fin 3), i = ix2 n k := ⟨i 0, i 1, eq_ix2 i⟩
  rw [val_main_v88_apply, val_main_v87_apply, val_main_v86_apply,
    show idx_main_v86 (ix2 n k) = ix2 n 0 from funext fun a => Fin.ext (by match a with | ⟨0, _⟩ => rfl | ⟨1, _⟩ => rfl), val_main_v85_apply, val_main_v84_apply,
    val_main_cst_14_apply, v79_at, v83_at]
  rfl

/-! ## The perceptron of a node -/

section Cat2

variable (p0 p1 : S50000x128.Idx → EReal)

/-- Two pieces of 128 columns side by side. -/
abbrev cat2 : S50000x256.Idx → EReal :=
  concatenate S50000x256 1 [⟨S50000x128, p0⟩, ⟨S50000x128, p1⟩] concatenates_S50000x128_S50000x128_S50000x256_d1

/-- Columns 0 … 127 are the first piece. -/
theorem cat2_b0 (n : Fin 50000) (c : Fin 128) :
    cat2 p0 p1 (ix2 n (band 0 256 (by decide) c)) = p0 (ix2 n c) :=
  concatenate_apply_piece (t := S50000x256) 1 _ _ _ 0 (by show (0 : Nat) < 2; decide) S50000x128 p0 rfl rfl 0 rfl (ix2 n c)
    (fun b hb => by match b with | ⟨0, _⟩ => rfl | ⟨1, _⟩ => exact absurd rfl hb) rfl

/-- Columns 128 … 255 are the second piece. -/
theorem cat2_b1 (n : Fin 50000) (c : Fin 128) :
    cat2 p0 p1 (ix2 n (band 128 256 (by decide) c)) = p1 (ix2 n c) :=
  concatenate_apply_piece (t := S50000x256) 1 _ _ _ 1 (by show (1 : Nat) < 2; decide) S50000x128 p1 rfl rfl 128 rfl (ix2 n c)
    (fun b hb => by match b with | ⟨0, _⟩ => rfl | ⟨1, _⟩ => exact absurd rfl hb) rfl

end Cat2

/-- The node perceptron's input row: the node's old features, -/
theorem v92_b0 (A : Args) (n : Fin 50000) (c : Fin 128) :
    val_main_v92 (F := Ideal) A.h A.x A.ea A.te A.W1 A.b1 A.W2 A.b2 A.Watt A.batt A.ei (ix2 n (band 0 256 (by decide) c)) = A.h (ix2 n c) := by
  unfold val_main_v92
  exact cat2_b0 _ _ n c

/-- beside the summed messages. -/
theorem v92_b1 (A : Args) (n : Fin 50000) (c : Fin 128) :
    val_main_v92 (F := Ideal) A.h A.x A.ea A.te A.W1 A.b1 A.W2 A.b2 A.Watt A.batt A.ei (ix2 n (band 128 256 (by decide) c)) = A.magg n c := by
  unfold val_main_v92
  exact (cat2_b1 _ _ n c).trans (v91_magg A n c)

/-- The first layer before its nonlinearity: the product with the tall matrix is the sum of the two halves' products. -/
theorem v96_at (A : Args) (n : Fin 50000) (j : Fin 128) :
    val_main_v96 (F := Ideal) A.h A.x A.ea A.te A.W1 A.b1 A.W2 A.b2 A.Watt A.batt A.Wh1 A.bh1 A.ei (ix2 n j) = A.nodeW.pre (fun c => A.h (ix2 n c)) (A.magg n) j := by
  rw [val_main_v96_apply, val_main_v93_apply, val_main_v95_apply, val_main_v94_apply]
  have hl : ∀ k : Fin 256, lidx_main_v93 (ix2 n j) k = ix2 n k := fun k => funext fun a => Fin.ext (by match a with | ⟨0, _⟩ => rfl | ⟨1, _⟩ => rfl)
  have hr : ∀ k : Fin 256, ridx_main_v93 (ix2 n j) k = ix2 k j := fun k => funext fun a => Fin.ext (by match a with | ⟨0, _⟩ => rfl | ⟨1, _⟩ => rfl)
  have hb : idx_main_v94 (idx_main_v95 (ix2 n j)) = ix1 j := funext fun a => Fin.ext (by match a with | ⟨0, _⟩ => rfl)
  simp only [hl, hr, hb]
  rw [Sums.split256]
  simp only [v92_b0, v92_b1, Ideal.addf_def]
  rfl

/-- The first layer after v ↦ v · σ(v). -/
theorem v97_at (A : Args) (n : Fin 50000) (j : Fin 128) :
    val_main_v97 (F := Ideal) A.h A.x A.ea A.te A.W1 A.b1 A.W2 A.b2 A.Watt A.batt A.Wh1 A.bh1 A.ei (ix2 n j) = silu (A.nodeW.pre (fun c => A.h (ix2 n c)) (A.magg n) j) := by
  rw [val_main_v97_apply, val_main_call2_v5_apply, val_main_call2_v4_apply, val_main_call2_cst_0_apply,
    val_main_call2_v3_apply, val_main_call2_v2_apply, val_main_call2_cst_apply, val_main_call2_v1_apply,
    val_main_call2_v0_apply, v96_at]
  simp only [Ideal.mulf_def, Ideal.hostDivf_def, Ideal.addf_def, Ideal.hostUnary_exp_def, Ideal.hostNegf_def,
    Ideal.negf_def, Ideal.ofBits_def, logistic_word]
  rfl

/-- **The new features.** -/
theorem ref_hout (A : Cert.Egnn.Args) :
    Cert.ReferenceIdeal.ReadP.val_main_v102 (F := Ideal) A.h A.x A.ea A.te A.W1 A.b1 A.W2 A.b2 A.Watt A.batt A.Wh1 A.bh1 A.Wh2 A.bh2 A.ei = A.hout := by
  funext i
  obtain ⟨n, j, rfl⟩ : ∃ (n : Fin 50000) (j : Fin 128), i = ix2 n j := ⟨i 0, i 1, eq_ix2 i⟩
  rw [val_main_v102_apply, val_main_v101_apply, val_main_v98_apply, val_main_v100_apply, val_main_v99_apply]
  have hl : ∀ k : Fin 128, lidx_main_v98 (ix2 n j) k = ix2 n k := fun k => funext fun a => Fin.ext (by match a with | ⟨0, _⟩ => rfl | ⟨1, _⟩ => rfl)
  have hr : ∀ k : Fin 128, ridx_main_v98 (ix2 n j) k = ix2 k j := fun k => funext fun a => Fin.ext (by match a with | ⟨0, _⟩ => rfl | ⟨1, _⟩ => rfl)
  have hb : idx_main_v99 (idx_main_v100 (ix2 n j)) = ix1 j := funext fun a => Fin.ext (by match a with | ⟨0, _⟩ => rfl)
  simp only [hl, hr, hb, v97_at, Ideal.addf_def]
  rfl

end Cert.ReferenceIdeal.Layer

end
-- ==== Proof.lean ====
/-
  One message-passing layer on a graph, as a kernel program of two pipelines among host operations and as a plain host
  program, computes on the extended reals the same new node features and the same new coordinates.

  Both programs select, per edge, the rows of the node table that the edge's two index words name, run a perceptron on
  the rows, sum the edges' results at the nodes they are aimed at, and run a second perceptron per node (the functions of
  the argument arrays are in Spec.lean). They differ in three re-arrangements, none of which needs finiteness:
  · the reference lays the five per-edge inputs side by side into one row of 329 numbers and multiplies it by the tall
    first-layer matrix; the kernel multiplies each input by its own band of rows of that matrix and adds the five products
    (a sum over 329 positions is the sum of the sums over its five bands: only associativity and commutativity). The node
    perceptron's first layer is the same with two bands of 128 rows;
  · the reference sums the messages, the coordinate shifts and a column of ones over the edges aimed at a node in three
    scatter-sums; the kernel lays the three side by side (132 columns) and takes one scatter-sum, whose columns are those
    three sums;
  · the reference's logistic function is spelt 1 / (1 + exp (−v)), the kernel's is the logistic function itself.
  The kernel side (KRun, KRegion0, KRegion1, KHost0, KHost1, KFinal) reads the two pipelines' write-backs and the host
  stretches back to the argument arrays; the reference side (RefEdge, RefNode) reads the host program stage by stage.
-/
import proofs.«129725_j23012434772667_2_alg».proof.Defs
import proofs.«129725_j23012434772667_2_alg».proof.Proof.Gen.Kernel
import proofs.«129725_j23012434772667_2_alg».proof.Proof.Gen.KernelIdeal
import proofs.«129725_j23012434772667_2_alg».proof.Proof.Gen.ReferenceIdeal
import proofs.«129725_j23012434772667_2_alg».proof.Proof.Gen.Pre_finite_inputs
import proofs.«129725_j23012434772667_2_alg».proof.Proof.FrameK
import proofs.«129725_j23012434772667_2_alg».proof.Proof.FrameKI
import proofs.«129725_j23012434772667_2_alg».proof.Proof.KRun
import proofs.«129725_j23012434772667_2_alg».proof.Proof.KFinal
import proofs.«129725_j23012434772667_2_alg».proof.Proof.RefRun
import proofs.«129725_j23012434772667_2_alg».proof.Proof.RefNode
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.GenP.frame m ρ

/-- So does the idealized kernel program. -/
theorem frame_ki : Cert.frame_KernelIdeal := fun m ρ _ => Cert.KernelIdeal.GenP.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both idealized programs end with the layer's new features and new coordinates of the (agreeing) arguments. -/
theorem algebraic : Cert.algebraic_KernelIdeal_ReferenceIdeal := by
  intro m ρ m' ρ' _ hagree
  refine ⟨fun c => (Cert.KernelIdeal.Layer.argsOf m ρ c).hout, fun c => (Cert.KernelIdeal.Layer.argsOf m ρ c).xout, ?_, ?_⟩
  · exact (θ_run Cert.KernelIdeal.defs _ _).mono
      (fun r h c => ⟨(h c).1.trans (Cert.KernelIdeal.Layer.K_h m ρ c),
        (h c).2.1.trans (Cert.KernelIdeal.Layer.K_x m ρ c), (h c).2.2⟩)
      (Cert.KernelIdeal.Layer.run_results (F := Ideal) m ρ)
  · refine (θ_run Cert.ReferenceIdeal.defs _ _).mono (fun r h c => ⟨?_, ?_, (h c).2.2⟩)
      (Cert.ReferenceIdeal.ValueP.run (F := Ideal) m' ρ')
    · obtain ⟨a0, a1, a2, a3, a4, a5, a6, a7, a8, a9, a10, a11, a12, a13, a14, a15, a16, a17, a18⟩ := hagree c
      rw [(h c).1, Cert.ReferenceIdeal.ValueP.val_main_v102_eq, a0, a1, a2, a3, a4, a5, a6, a7, a8, a9, a14, a15, a16, a17, a18]
      exact Cert.ReferenceIdeal.Layer.ref_hout (Cert.KernelIdeal.Layer.argsOf m ρ c)
    · obtain ⟨a0, a1, a2, a3, a4, a5, a6, a7, a8, a9, a10, a11, a12, a13, a14, a15, a16, a17, a18⟩ := hagree c
      rw [(h c).2.1, Cert.ReferenceIdeal.ValueP.val_main_v88_eq, a0, a1, a2, a3, a4, a5, a6, a7, a8, a9, a10, a11, a12, a13, a18]
      exact Cert.ReferenceIdeal.Layer.ref_xout (Cert.KernelIdeal.Layer.argsOf m ρ c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
